-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v120)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v120) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v138) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x6 : Shape := ⟨2, ![100000, 6]⟩
abbrev S2x1600000 : Shape := ⟨2, ![2, 1600000]⟩
abbrev S1600000x8 : Shape := ⟨2, ![1600000, 8]⟩
abbrev S6x32 : Shape := ⟨2, ![6, 32]⟩
abbrev S32 : Shape := ⟨1, ![32]⟩
abbrev S32x16 : Shape := ⟨2, ![32, 16]⟩
abbrev S16 : Shape := ⟨1, ![16]⟩
abbrev S40x32 : Shape := ⟨2, ![40, 32]⟩
abbrev S32x1 : Shape := ⟨2, ![32, 1]⟩
abbrev S1 : Shape := ⟨1, ![1]⟩
abbrev S_ : Shape := ⟨0, ![]⟩

class Facts : Prop where
  bcast_S_S100000x6 : S_.BroadcastsInDim S100000x6 (![] : Fin 0 → Fin S100000x6.rank)
  reducesTo_S100000x6_S_d0_1 : S100000x6.ReducesTo [0, 1] S_
  h_S_ : 0 < S_.numel
  bcast_S_S1600000x8 : S_.BroadcastsInDim S1600000x8 (![] : Fin 0 → Fin S1600000x8.rank)
  reducesTo_S1600000x8_S_d0_1 : S1600000x8.ReducesTo [0, 1] S_
  bcast_S_S6x32 : S_.BroadcastsInDim S6x32 (![] : Fin 0 → Fin S6x32.rank)
  reducesTo_S6x32_S_d0_1 : S6x32.ReducesTo [0, 1] S_
  bcast_S_S32 : S_.BroadcastsInDim S32 (![] : Fin 0 → Fin S32.rank)
  reducesTo_S32_S_d0 : S32.ReducesTo [0] S_
  bcast_S_S32x16 : S_.BroadcastsInDim S32x16 (![] : Fin 0 → Fin S32x16.rank)
  reducesTo_S32x16_S_d0_1 : S32x16.ReducesTo [0, 1] S_
  bcast_S_S16 : S_.BroadcastsInDim S16 (![] : Fin 0 → Fin S16.rank)
  reducesTo_S16_S_d0 : S16.ReducesTo [0] S_
  bcast_S_S40x32 : S_.BroadcastsInDim S40x32 (![] : Fin 0 → Fin S40x32.rank)
  reducesTo_S40x32_S_d0_1 : S40x32.ReducesTo [0, 1] S_
  bcast_S_S32x1 : S_.BroadcastsInDim S32x1 (![] : Fin 0 → Fin S32x1.rank)
  reducesTo_S32x1_S_d0_1 : S32x1.ReducesTo [0, 1] S_
  bcast_S_S1 : S_.BroadcastsInDim S1 (![] : Fin 0 → Fin S1.rank)
  reducesTo_S1_S_d0 : S1.ReducesTo [0] S_

variable [Facts]

def fn_part2 {F : FTy → Type} [FloatOps F] (main_arg8 : FVec F S32 .f32) (main_arg9 : FVec F S32x1 .f32) (main_arg10 : FVec F S1 .f32) (main_v33 : IVec S_ 1) : IVec S_ 1 :=
  let main_v34 : FVec F S32 .f32 := Host.absf main_arg8
  let main_cst_12 : FVec F S_ .f32 := constant S_ .f32 0x7F800000#32
  let main_v35 : FVec F S32 .f32 := broadcastInDim S32 ![] bcast_S_S32 main_cst_12
  let main_v36 : IVec S32 1 := cmpf .olt main_v34 main_v35
  let main_c_13 : IVec S_ 1 := constantI S_ 1 1#1
  let main_v37 : IVec S_ 1 := (fun x v => Host.reduce IntOp.andi x v reducesTo_S32_S_d0 h_S_) main_v36 main_c_13
  let main_v38 : IVec S_ 1 := andi main_v33 main_v37
  let main_v39 : FVec F S32x1 .f32 := Host.absf main_arg9
  let main_cst_14 : FVec F S_ .f32 := constant S_ .f32 0x7F800000#32
  let main_v40 : FVec F S32x1 .f32 := broadcastInDim S32x1 ![] bcast_S_S32x1 main_cst_14
  let main_v41 : IVec S32x1 1 := cmpf .olt main_v39 main_v40
  let main_c_15 : IVec S_ 1 := constantI S_ 1 1#1
  let main_v42 : IVec S_ 1 := (fun x v => Host.reduce IntOp.andi x v reducesTo_S32x1_S_d0_1 h_S_) main_v41 main_c_15
  let main_v43 : IVec S_ 1 := andi main_v38 main_v42
  let main_v44 : FVec F S1 .f32 := Host.absf main_arg10
  let main_cst_16 : FVec F S_ .f32 := constant S_ .f32 0x7F800000#32
  let main_v45 : FVec F S1 .f32 := broadcastInDim S1 ![] bcast_S_S1 main_cst_16
  let main_v46 : IVec S1 1 := cmpf .olt main_v44 main_v45
  let main_c_17 : IVec S_ 1 := constantI S_ 1 1#1
  let main_v47 : IVec S_ 1 := (fun x v => Host.reduce IntOp.andi x v reducesTo_S1_S_d0 h_S_) main_v46 main_c_17
  let main_v48 : IVec S_ 1 := andi main_v43 main_v47
  main_v48

def fn_part1 {F : FTy → Type} [FloatOps F] (main_arg5 : FVec F S32x16 .f32) (main_arg6 : FVec F S16 .f32) (main_arg7 : FVec F S40x32 .f32) (main_arg8 : FVec F S32 .f32) (main_arg9 : FVec F S32x1 .f32) (main_arg10 : FVec F S1 .f32) (main_v13 : IVec S_ 1) (main_v16 : IVec S32 1) : IVec S_ 1 :=
  let main_c_5 : IVec S_ 1 := constantI S_ 1 1#1
  let main_v17 : IVec S_ 1 := (fun x v => Host.reduce IntOp.andi x v reducesTo_S32_S_d0 h_S_) main_v16 main_c_5
  let main_v18 : IVec S_ 1 := andi main_v13 main_v17
  let main_v19 : FVec F S32x16 .f32 := Host.absf main_arg5
  let main_cst_6 : FVec F S_ .f32 := constant S_ .f32 0x7F800000#32
  let main_v20 : FVec F S32x16 .f32 := broadcastInDim S32x16 ![] bcast_S_S32x16 main_cst_6
  let main_v21 : IVec S32x16 1 := cmpf .olt main_v19 main_v20
  let main_c_7 : IVec S_ 1 := constantI S_ 1 1#1
  let main_v22 : IVec S_ 1 := (fun x v => Host.reduce IntOp.andi x v reducesTo_S32x16_S_d0_1 h_S_) main_v21 main_c_7
  let main_v23 : IVec S_ 1 := andi main_v18 main_v22
  let main_v24 : FVec F S16 .f32 := Host.absf main_arg6
  let main_cst_8 : FVec F S_ .f32 := constant S_ .f32 0x7F800000#32
  let main_v25 : FVec F S16 .f32 := broadcastInDim S16 ![] bcast_S_S16 main_cst_8
  let main_v26 : IVec S16 1 := cmpf .olt main_v24 main_v25
  let main_c_9 : IVec S_ 1 := constantI S_ 1 1#1
  let main_v27 : IVec S_ 1 := (fun x v => Host.reduce IntOp.andi x v reducesTo_S16_S_d0 h_S_) main_v26 main_c_9
  let main_v28 : IVec S_ 1 := andi main_v23 main_v27
  let main_v29 : FVec F S40x32 .f32 := Host.absf main_arg7
  let main_cst_10 : FVec F S_ .f32 := constant S_ .f32 0x7F800000#32
  let main_v30 : FVec F S40x32 .f32 := broadcastInDim S40x32 ![] bcast_S_S40x32 main_cst_10
  let main_v31 : IVec S40x32 1 := cmpf .olt main_v29 main_v30
  let main_c_11 : IVec S_ 1 := constantI S_ 1 1#1
  let main_v32 : IVec S_ 1 := (fun x v => Host.reduce IntOp.andi x v reducesTo_S40x32_S_d0_1 h_S_) main_v31 main_c_11
  let main_v33 : IVec S_ 1 := andi main_v28 main_v32
  fn_part2 (F := F) main_arg8 main_arg9 main_arg10 main_v33

def fn {F : FTy → Type} [FloatOps F] (main_arg0 : FVec F S100000x6 .f32) (main_arg1 : IVec S2x1600000 32) (main_arg2 : FVec F S1600000x8 .f32) (main_arg3 : FVec F S6x32 .f32) (main_arg4 : FVec F S32 .f32) (main_arg5 : FVec F S32x16 .f32) (main_arg6 : FVec F S16 .f32) (main_arg7 : FVec F S40x32 .f32) (main_arg8 : FVec F S32 .f32) (main_arg9 : FVec F S32x1 .f32) (main_arg10 : FVec F S1 .f32) : IVec S_ 1 :=
  let main_v0 : FVec F S100000x6 .f32 := Host.absf main_arg0
  let main_cst : FVec F S_ .f32 := constant S_ .f32 0x7F800000#32
  let main_v1 : FVec F S100000x6 .f32 := broadcastInDim S100000x6 ![] bcast_S_S100000x6 main_cst
  let main_v2 : IVec S100000x6 1 := cmpf .olt main_v0 main_v1
  let main_c : IVec S_ 1 := constantI S_ 1 1#1
  let main_v3 : IVec S_ 1 := (fun x v => Host.reduce IntOp.andi x v reducesTo_S100000x6_S_d0_1 h_S_) main_v2 main_c
  let main_v4 : FVec F S1600000x8 .f32 := Host.absf main_arg2
  let main_cst_0 : FVec F S_ .f32 := constant S_ .f32 0x7F800000#32
  let main_v5 : FVec F S1600000x8 .f32 := broadcastInDim S1600000x8 ![] bcast_S_S1600000x8 main_cst_0
  let main_v6 : IVec S1600000x8 1 := cmpf .olt main_v4 main_v5
  let main_c_1 : IVec S_ 1 := constantI S_ 1 1#1
  let main_v7 : IVec S_ 1 := (fun x v => Host.reduce IntOp.andi x v reducesTo_S1600000x8_S_d0_1 h_S_) main_v6 main_c_1
  let main_v8 : IVec S_ 1 := andi main_v3 main_v7
  let main_v9 : FVec F S6x32 .f32 := Host.absf main_arg3
  let main_cst_2 : FVec F S_ .f32 := constant S_ .f32 0x7F800000#32
  let main_v10 : FVec F S6x32 .f32 := broadcastInDim S6x32 ![] bcast_S_S6x32 main_cst_2
  let main_v11 : IVec S6x32 1 := cmpf .olt main_v9 main_v10
  let main_c_3 : IVec S_ 1 := constantI S_ 1 1#1
  let main_v12 : IVec S_ 1 := (fun x v => Host.reduce IntOp.andi x v reducesTo_S6x32_S_d0_1 h_S_) main_v11 main_c_3
  let main_v13 : IVec S_ 1 := andi main_v8 main_v12
  let main_v14 : FVec F S32 .f32 := Host.absf main_arg4
  let main_cst_4 : FVec F S_ .f32 := constant S_ .f32 0x7F800000#32
  let main_v15 : FVec F S32 .f32 := broadcastInDim S32 ![] bcast_S_S32 main_cst_4
  let main_v16 : IVec S32 1 := cmpf .olt main_v14 main_v15
  fn_part1 (F := F) main_arg5 main_arg6 main_arg7 main_arg8 main_arg9 main_arg10 main_v13 main_v16
-- ==== Kernel.lean ====
abbrev S100000x6 : Shape := ⟨2, ![100000, 6]⟩
abbrev S2x1600000 : Shape := ⟨2, ![2, 1600000]⟩
abbrev S1600000x8 : Shape := ⟨2, ![1600000, 8]⟩
abbrev S6x32 : Shape := ⟨2, ![6, 32]⟩
abbrev S32 : Shape := ⟨1, ![32]⟩
abbrev S32x16 : Shape := ⟨2, ![32, 16]⟩
abbrev S16 : Shape := ⟨1, ![16]⟩
abbrev S40x32 : Shape := ⟨2, ![40, 32]⟩
abbrev S32x1 : Shape := ⟨2, ![32, 1]⟩
abbrev S1 : Shape := ⟨1, ![1]⟩
abbrev S1x1600000 : Shape := ⟨2, ![1, 1600000]⟩
abbrev S1600000 : Shape := ⟨1, ![1600000]⟩
abbrev S_ : Shape := ⟨0, ![]⟩
abbrev S100000 : Shape := ⟨1, ![100000]⟩
abbrev S1600000x1 : Shape := ⟨2, ![1600000, 1]⟩
abbrev S100000x32 : Shape := ⟨2, ![100000, 32]⟩
abbrev S10000x6 : Shape := ⟨2, ![10000, 6]⟩
abbrev S10000x32 : Shape := ⟨2, ![10000, 32]⟩
abbrev S1600000x32 : Shape := ⟨2, ![1600000, 32]⟩
abbrev S100000x1 : Shape := ⟨2, ![100000, 1]⟩
abbrev S1x32 : Shape := ⟨2, ![1, 32]⟩
abbrev S100000x16 : Shape := ⟨2, ![100000, 16]⟩
abbrev S10000x16 : Shape := ⟨2, ![10000, 16]⟩
abbrev S1600000x16 : Shape := ⟨2, ![1600000, 16]⟩
abbrev S1x16 : Shape := ⟨2, ![1, 16]⟩
abbrev S1600000x40 : Shape := ⟨2, ![1600000, 40]⟩
abbrev S1x1 : Shape := ⟨2, ![1, 1]⟩
abbrev S10000x40 : Shape := ⟨2, ![10000, 40]⟩
abbrev S10000x1 : Shape := ⟨2, ![10000, 1]⟩

abbrev nBuf : Space → Nat
  | .hbm => 163
  | .vmem => 18
  | .smem => 0
  | _ => 0

abbrev hbmTy0_0 (i : Nat) : BufTy := match i % 128 with
  | 0 => ⟨S100000x6, .f32⟩
  | 1 => ⟨S2x1600000, .i32⟩
  | 2 => ⟨S1600000x8, .f32⟩
  | 3 => ⟨S6x32, .f32⟩
  | 4 => ⟨S32, .f32⟩
  | 5 => ⟨S32x16, .f32⟩
  | 6 => ⟨S16, .f32⟩
  | 7 => ⟨S40x32, .f32⟩
  | 8 => ⟨S32, .f32⟩
  | 9 => ⟨S32x1, .f32⟩
  | 10 => ⟨S1, .f32⟩
  | 11 => ⟨S1x1600000, .i32⟩
  | 12 => ⟨S1600000, .i32⟩
  | 13 => ⟨S1x1600000, .i32⟩
  | 14 => ⟨S1600000, .i32⟩
  | 15 => ⟨S_, .f32⟩
  | 16 => ⟨S100000, .f32⟩
  | 17 => ⟨S_, .i32⟩
  | 18 => ⟨S1600000, .i32⟩
  | 19 => ⟨S1600000, .i1⟩
  | 20 => ⟨S_, .i32⟩
  | 21 => ⟨S1600000, .i32⟩
  | 22 => ⟨S1600000, .i32⟩
  | 23 => ⟨S1600000, .i32⟩
  | 24 => ⟨S1600000x1, .i32⟩
  | 25 => ⟨S_, .f32⟩
  | 26 => ⟨S1600000, .f32⟩
  | 27 => ⟨S100000, .f32⟩
  | 28 => ⟨S_, .f32⟩
  | 29 => ⟨S100000, .f32⟩
  | 30 => ⟨S100000, .f32⟩
  | 31 => ⟨S100000, .f32⟩
  | 32 => ⟨S100000x32, .f32⟩
  | 33 => ⟨S_, .i32⟩
  | 34 => ⟨S1600000, .i32⟩
  | 35 => ⟨S1600000, .i1⟩
  | 36 => ⟨S_, .i32⟩
  | 37 => ⟨S1600000, .i32⟩
  | 38 => ⟨S1600000, .i32⟩
  | 39 => ⟨S1600000, .i32⟩
  | 40 => ⟨S1600000x1, .i32⟩
  | 41 => ⟨S1600000, .f32⟩
  | 42 => ⟨S_, .i32⟩
  | 43 => ⟨S1600000, .i32⟩
  | 44 => ⟨S1600000, .i1⟩
  | 45 => ⟨S_, .i32⟩
  | 46 => ⟨S1600000, .i32⟩
  | 47 => ⟨S1600000, .i32⟩
  | 48 => ⟨S1600000, .i32⟩
  | 49 => ⟨S1600000x1, .i32⟩
  | 50 => ⟨S1600000, .f32⟩
  | 51 => ⟨S1600000, .f32⟩
  | 52 => ⟨S_, .i32⟩
  | 53 => ⟨S1600000, .i32⟩
  | 54 => ⟨S1600000, .i1⟩
  | 55 => ⟨S_, .i32⟩
  | 56 => ⟨S1600000, .i32⟩
  | 57 => ⟨S1600000, .i32⟩
  | 58 => ⟨S1600000, .i32⟩
  | 59 => ⟨S1600000x1, .i32⟩
  | 60 => ⟨S1600000x32, .f32⟩
  | 61 => ⟨S1600000x1, .f32⟩
  | 62 => ⟨S1600000x32, .f32⟩
  | 63 => ⟨S1600000x32, .f32⟩
  | 64 => ⟨S_, .f32⟩
  | 65 => ⟨S100000x32, .f32⟩
  | 66 => ⟨S_, .i32⟩
  | 67 => ⟨S1600000, .i32⟩
  | 68 => ⟨S1600000, .i1⟩
  | 69 => ⟨S_, .i32⟩
  | 70 => ⟨S1600000, .i32⟩
  | 71 => ⟨S1600000, .i32⟩
  | 72 => ⟨S1600000, .i32⟩
  | 73 => ⟨S1600000x1, .i32⟩
  | 74 => ⟨S100000x32, .f32⟩
  | 75 => ⟨S100000, .f32⟩
  | 76 => ⟨S100000x1, .f32⟩
  | 77 => ⟨S100000x32, .f32⟩
  | 78 => ⟨S100000x32, .f32⟩
  | 79 => ⟨S100000x32, .f32⟩
  | 80 => ⟨S1x32, .f32⟩
  | 81 => ⟨S100000x32, .f32⟩
  | 82 => ⟨S100000x32, .f32⟩
  | 83 => ⟨S_, .f32⟩
  | 84 => ⟨S100000x32, .f32⟩
  | 85 => ⟨S100000x32, .f32⟩
  | 86 => ⟨S100000x16, .f32⟩
  | 87 => ⟨S_, .i32⟩
  | 88 => ⟨S1600000, .i32⟩
  | 89 => ⟨S1600000, .i1⟩
  | 90 => ⟨S_, .i32⟩
  | 91 => ⟨S1600000, .i32⟩
  | 92 => ⟨S1600000, .i32⟩
  | 93 => ⟨S1600000, .i32⟩
  | 94 => ⟨S1600000x1, .i32⟩
  | 95 => ⟨S1600000, .f32⟩
  | 96 => ⟨S_, .i32⟩
  | 97 => ⟨S1600000, .i32⟩
  | 98 => ⟨S1600000, .i1⟩
  | 99 => ⟨S_, .i32⟩
  | 100 => ⟨S1600000, .i32⟩
  | 101 => ⟨S1600000, .i32⟩
  | 102 => ⟨S1600000, .i32⟩
  | 103 => ⟨S1600000x1, .i32⟩
  | 104 => ⟨S1600000, .f32⟩
  | 105 => ⟨S1600000, .f32⟩
  | 106 => ⟨S_, .i32⟩
  | 107 => ⟨S1600000, .i32⟩
  | 108 => ⟨S1600000, .i1⟩
  | 109 => ⟨S_, .i32⟩
  | 110 => ⟨S1600000, .i32⟩
  | 111 => ⟨S1600000, .i32⟩
  | 112 => ⟨S1600000, .i32⟩
  | 113 => ⟨S1600000x1, .i32⟩
  | 114 => ⟨S1600000x16, .f32⟩
  | 115 => ⟨S1600000x1, .f32⟩
  | 116 => ⟨S1600000x16, .f32⟩
  | 117 => ⟨S1600000x16, .f32⟩
  | 118 => ⟨S_, .f32⟩
  | 119 => ⟨S100000x16, .f32⟩
  | 120 => ⟨S_, .i32⟩
  | 121 => ⟨S1600000, .i32⟩
  | 122 => ⟨S1600000, .i1⟩
  | 123 => ⟨S_, .i32⟩
  | 124 => ⟨S1600000, .i32⟩
  | 125 => ⟨S1600000, .i32⟩
  | 126 => ⟨S1600000, .i32⟩
  | 127 => ⟨S1600000x1, .i32⟩
  | _ => ⟨S100000x6, .f32⟩

abbrev hbmTy0_1 (i : Nat) : BufTy := match i % 128 with
  | 0 => ⟨S100000x16, .f32⟩
  | 1 => ⟨S100000, .f32⟩
  | 2 => ⟨S100000x1, .f32⟩
  | 3 => ⟨S100000x16, .f32⟩
  | 4 => ⟨S100000x16, .f32⟩
  | 5 => ⟨S100000x16, .f32⟩
  | 6 => ⟨S1x16, .f32⟩
  | 7 => ⟨S100000x16, .f32⟩
  | 8 => ⟨S100000x16, .f32⟩
  | 9 => ⟨S_, .f32⟩
  | 10 => ⟨S100000x16, .f32⟩
  | 11 => ⟨S100000x16, .f32⟩
  | 12 => ⟨S_, .i32⟩
  | 13 => ⟨S1600000, .i32⟩
  | 14 => ⟨S1600000, .i1⟩
  | 15 => ⟨S_, .i32⟩
  | 16 => ⟨S1600000, .i32⟩
  | 17 => ⟨S1600000, .i32⟩
  | 18 => ⟨S1600000, .i32⟩
  | 19 => ⟨S1600000x1, .i32⟩
  | 20 => ⟨S1600000x16, .f32⟩
  | 21 => ⟨S_, .i32⟩
  | 22 => ⟨S1600000, .i32⟩
  | 23 => ⟨S1600000, .i1⟩
  | 24 => ⟨S_, .i32⟩
  | 25 => ⟨S1600000, .i32⟩
  | 26 => ⟨S1600000, .i32⟩
  | 27 => ⟨S1600000, .i32⟩
  | 28 => ⟨S1600000x1, .i32⟩
  | 29 => ⟨S1600000x16, .f32⟩
  | 30 => ⟨S1600000x40, .f32⟩
  | 31 => ⟨S1x32, .f32⟩
  | 32 => ⟨S1x1, .f32⟩
  | 33 => ⟨S1600000x1, .f32⟩
  | 34 => ⟨S1600000, .f32⟩
  | _ => ⟨S100000x6, .f32⟩

abbrev hbmTy (i : Nat) : BufTy := match i / 128 with
  | 0 => hbmTy0_0 i
  | 1 => hbmTy0_1 i
  | _ => ⟨S100000x6, .f32⟩

abbrev bufTy : (tb : Table) → Fin (tcTables nBuf tb) → BufTy
  | .hbm, ⟨i, _⟩ => hbmTy i
  | .local _ .vmem, ⟨0, _⟩ => ⟨S10000x6, .f32⟩
  | .local _ .vmem, ⟨1, _⟩ => ⟨S10000x6, .f32⟩
  | .local _ .vmem, ⟨2, _⟩ => ⟨S6x32, .f32⟩
  | .local _ .vmem, ⟨3, _⟩ => ⟨S10000x32, .f32⟩
  | .local _ .vmem, ⟨4, _⟩ => ⟨S10000x32, .f32⟩
  | .local _ .vmem, ⟨5, _⟩ => ⟨S10000x32, .f32⟩
  | .local _ .vmem, ⟨6, _⟩ => ⟨S10000x32, .f32⟩
  | .local _ .vmem, ⟨7, _⟩ => ⟨S32x16, .f32⟩
  | .local _ .vmem, ⟨8, _⟩ => ⟨S10000x16, .f32⟩
  | .local _ .vmem, ⟨9, _⟩ => ⟨S10000x16, .f32⟩
  | .local _ .vmem, ⟨10, _⟩ => ⟨S10000x40, .f32⟩
  | .local _ .vmem, ⟨11, _⟩ => ⟨S10000x40, .f32⟩
  | .local _ .vmem, ⟨12, _⟩ => ⟨S40x32, .f32⟩
  | .local _ .vmem, ⟨13, _⟩ => ⟨S1x32, .f32⟩
  | .local _ .vmem, ⟨14, _⟩ => ⟨S32x1, .f32⟩
  | .local _ .vmem, ⟨15, _⟩ => ⟨S1x1, .f32⟩
  | .local _ .vmem, ⟨16, _⟩ => ⟨S10000x1, .f32⟩
  | .local _ .vmem, ⟨17, _⟩ => ⟨S10000x1, .f32⟩
  | _, _ => ⟨S100000x6, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_cst : Ref sig .tc := ⟨.hbm, 15, rfl⟩
abbrev main_v4 : Ref sig .tc := ⟨.hbm, 16, rfl⟩
abbrev main_c : Ref sig .tc := ⟨.hbm, 17, rfl⟩
abbrev main_v5 : Ref sig .tc := ⟨.hbm, 18, rfl⟩
abbrev main_v6 : Ref sig .tc := ⟨.hbm, 19, rfl⟩
abbrev main_c_0 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_cst_1 : Ref sig .tc := ⟨.hbm, 25, rfl⟩
abbrev main_v11 : Ref sig .tc := ⟨.hbm, 26, rfl⟩
abbrev main_v12 : Ref sig .tc := ⟨.hbm, 27, rfl⟩
abbrev main_cst_2 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_c_3 : Ref sig .tc := ⟨.hbm, 33, rfl⟩
abbrev main_v17 : Ref sig .tc := ⟨.hbm, 34, rfl⟩
abbrev main_v18 : Ref sig .tc := ⟨.hbm, 35, rfl⟩
abbrev main_c_4 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_c_5 : Ref sig .tc := ⟨.hbm, 42, rfl⟩
abbrev main_v24 : Ref sig .tc := ⟨.hbm, 43, rfl⟩
abbrev main_v25 : Ref sig .tc := ⟨.hbm, 44, rfl⟩
abbrev main_c_6 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_c_7 : Ref sig .tc := ⟨.hbm, 52, rfl⟩
abbrev main_v32 : Ref sig .tc := ⟨.hbm, 53, rfl⟩
abbrev main_v33 : Ref sig .tc := ⟨.hbm, 54, rfl⟩
abbrev main_c_8 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_cst_9 : Ref sig .tc := ⟨.hbm, 64, rfl⟩
abbrev main_v42 : Ref sig .tc := ⟨.hbm, 65, rfl⟩
abbrev main_c_10 : Ref sig .tc := ⟨.hbm, 66, rfl⟩
abbrev main_v43 : Ref sig .tc := ⟨.hbm, 67, rfl⟩
abbrev main_v44 : Ref sig .tc := ⟨.hbm, 68, rfl⟩
abbrev main_c_11 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_call0_cst : Ref sig .tc := ⟨.hbm, 83, rfl⟩
abbrev main_call0_v0 : Ref sig .tc := ⟨.hbm, 84, rfl⟩
abbrev main_v58 : Ref sig .tc := ⟨.hbm, 85, rfl⟩
abbrev main_v59 : Ref sig .tc := ⟨.hbm, 86, rfl⟩
abbrev main_c_12 : Ref sig .tc := ⟨.hbm, 87, rfl⟩
abbrev main_v60 : Ref sig .tc := ⟨.hbm, 88, rfl⟩
abbrev main_v61 : Ref sig .tc := ⟨.hbm, 89, rfl⟩
abbrev main_c_13 : Ref sig .tc := ⟨.hbm, 90, rfl⟩
abbrev main_v62 : Ref sig .tc := ⟨.hbm, 91, rfl⟩
abbrev main_v63 : Ref sig .tc := ⟨.hbm, 92, rfl⟩
abbrev main_v64 : Ref sig .tc := ⟨.hbm, 93, rfl⟩
abbrev main_v65 : Ref sig .tc := ⟨.hbm, 94, rfl⟩
abbrev main_v66 : Ref sig .tc := ⟨.hbm, 95, rfl⟩
abbrev main_c_14 : Ref sig .tc := ⟨.hbm, 96, rfl⟩
abbrev main_v67 : Ref sig .tc := ⟨.hbm, 97, rfl⟩
abbrev main_v68 : Ref sig .tc := ⟨.hbm, 98, rfl⟩
abbrev main_c_15 : Ref sig .tc := ⟨.hbm, 99, rfl⟩
abbrev main_v69 : Ref sig .tc := ⟨.hbm, 100, rfl⟩
abbrev main_v70 : Ref sig .tc := ⟨.hbm, 101, rfl⟩
abbrev main_v71 : Ref sig .tc := ⟨.hbm, 102, rfl⟩
abbrev main_v72 : Ref sig .tc := ⟨.hbm, 103, rfl⟩
abbrev main_v73 : Ref sig .tc := ⟨.hbm, 104, rfl⟩
abbrev main_v74 : Ref sig .tc := ⟨.hbm, 105, rfl⟩
abbrev main_c_16 : Ref sig .tc := ⟨.hbm, 106, rfl⟩
abbrev main_v75 : Ref sig .tc := ⟨.hbm, 107, rfl⟩
abbrev main_v76 : Ref sig .tc := ⟨.hbm, 108, rfl⟩
abbrev main_c_17 : Ref sig .tc := ⟨.hbm, 109, rfl⟩
abbrev main_v77 : Ref sig .tc := ⟨.hbm, 110, rfl⟩
abbrev main_v78 : Ref sig .tc := ⟨.hbm, 111, rfl⟩
abbrev main_v79 : Ref sig .tc := ⟨.hbm, 112, rfl⟩
abbrev main_v80 : Ref sig .tc := ⟨.hbm, 113, rfl⟩
abbrev main_v81 : Ref sig .tc := ⟨.hbm, 114, rfl⟩
abbrev main_v82 : Ref sig .tc := ⟨.hbm, 115, rfl⟩
abbrev main_v83 : Ref sig .tc := ⟨.hbm, 116, rfl⟩
abbrev main_v84 : Ref sig .tc := ⟨.hbm, 117, rfl⟩
abbrev main_cst_18 : Ref sig .tc := ⟨.hbm, 118, rfl⟩
abbrev main_v85 : Ref sig .tc := ⟨.hbm, 119, rfl⟩
abbrev main_c_19 : Ref sig .tc := ⟨.hbm, 120, rfl⟩
abbrev main_v86 : Ref sig .tc := ⟨.hbm, 121, rfl⟩
abbrev main_v87 : Ref sig .tc := ⟨.hbm, 122, rfl⟩
abbrev main_c_20 : Ref sig .tc := ⟨.hbm, 123, rfl⟩
abbrev main_v88 : Ref sig .tc := ⟨.hbm, 124, rfl⟩
abbrev main_v89 : Ref sig .tc := ⟨.hbm, 125, rfl⟩
abbrev main_v90 : Ref sig .tc := ⟨.hbm, 126, rfl⟩
abbrev main_v91 : Ref sig .tc := ⟨.hbm, 127, rfl⟩
abbrev main_v92 : Ref sig .tc := ⟨.hbm, 128, rfl⟩
abbrev main_v93 : Ref sig .tc := ⟨.hbm, 129, rfl⟩
abbrev main_v94 : Ref sig .tc := ⟨.hbm, 130, rfl⟩
abbrev main_v95 : Ref sig .tc := ⟨.hbm, 131, rfl⟩
abbrev main_v96 : Ref sig .tc := ⟨.hbm, 132, rfl⟩
abbrev main_v97 : Ref sig .tc := ⟨.hbm, 133, rfl⟩
abbrev main_v98 : Ref sig .tc := ⟨.hbm, 134, rfl⟩
abbrev main_v99 : Ref sig .tc := ⟨.hbm, 135, rfl⟩
abbrev main_v100 : Ref sig .tc := ⟨.hbm, 136, rfl⟩
abbrev main_call1_cst : Ref sig .tc := ⟨.hbm, 137, rfl⟩
abbrev main_call1_v0 : Ref sig .tc := ⟨.hbm, 138, rfl⟩
abbrev main_v101 : Ref sig .tc := ⟨.hbm, 139, rfl⟩
abbrev main_c_21 : Ref sig .tc := ⟨.hbm, 140, rfl⟩
abbrev main_v102 : Ref sig .tc := ⟨.hbm, 141, rfl⟩
abbrev main_v103 : Ref sig .tc := ⟨.hbm, 142, rfl⟩
abbrev main_c_22 : Ref sig .tc := ⟨.hbm, 143, rfl⟩
abbrev main_v104 : Ref sig .tc := ⟨.hbm, 144, rfl⟩
abbrev main_v105 : Ref sig .tc := ⟨.hbm, 145, rfl⟩
abbrev main_v106 : Ref sig .tc := ⟨.hbm, 146, rfl⟩
abbrev main_v107 : Ref sig .tc := ⟨.hbm, 147, rfl⟩
abbrev main_v108 : Ref sig .tc := ⟨.hbm, 148, rfl⟩
abbrev main_c_23 : Ref sig .tc := ⟨.hbm, 149, rfl⟩
abbrev main_v109 : Ref sig .tc := ⟨.hbm, 150, rfl⟩
abbrev main_v110 : Ref sig .tc := ⟨.hbm, 151, rfl⟩
abbrev main_c_24 : Ref sig .tc := ⟨.hbm, 152, rfl⟩
abbrev main_v111 : Ref sig .tc := ⟨.hbm, 153, rfl⟩
abbrev main_v112 : Ref sig .tc := ⟨.hbm, 154, rfl⟩
abbrev main_v113 : Ref sig .tc := ⟨.hbm, 155, rfl⟩
abbrev main_v114 : Ref sig .tc := ⟨.hbm, 156, rfl⟩
abbrev main_v115 : Ref sig .tc := ⟨.hbm, 157, rfl⟩
abbrev main_v116 : Ref sig .tc := ⟨.hbm, 158, rfl⟩
abbrev main_v117 : Ref sig .tc := ⟨.hbm, 159, rfl⟩
abbrev main_v118 : Ref sig .tc := ⟨.hbm, 160, rfl⟩
abbrev main_v119 : Ref sig .tc := ⟨.hbm, 161, rfl⟩
abbrev main_v120 : Ref sig .tc := ⟨.hbm, 162, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg3_0 : Ref sig .tc := ⟨.vmem, 14, rfl⟩
abbrev cc2_stg4_0 : Ref sig .tc := ⟨.vmem, 15, rfl⟩
abbrev cc2_stg5_0 : Ref sig .tc := ⟨.vmem, 16, rfl⟩
abbrev cc2_stg5_1 : Ref sig .tc := ⟨.vmem, 17, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem3_0 : DmaSem sig := 14
abbrev cc2_sem4_0 : DmaSem sig := 15
abbrev cc2_sem5_0 : DmaSem sig := 16
abbrev cc2_sem5_1 : DmaSem sig := 17

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x6 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S6x32 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S10000x32 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x32 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S32x16 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S10000x16 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![160], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S10000x40 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S40x32 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x32 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S32x1 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x1 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S10000x1 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S100000 : S_.BroadcastsInDim S100000 (![] : Fin 0 → Fin S100000.rank)
  bcast_S_S1600000 : S_.BroadcastsInDim S1600000 (![] : Fin 0 → Fin S1600000.rank)
  bcast_S1600000_S1600000x1_0 : S1600000.BroadcastsInDim S1600000x1 (![0] : Fin 1 → Fin S1600000x1.rank)
  inb_S10000x6_S10000x6_0_0 : ∀ a, (![0, 0] : Fin 2 → Nat) a + S10000x6.size a ≤ S10000x6.size a
  h_S10000x6 : 0 < S10000x6.numel
  bitsLt_bf16_f32 : FTy.bits .bf16 < FTy.bits .f32
  inb_S6x32_S6x32_0_0 : ∀ a, (![0, 0] : Fin 2 → Nat) a + S6x32.size a ≤ S6x32.size a
  h_S6x32 : 0 < S6x32.numel
  inb_S10000x32_S10000x32_0_0 : ∀ a, (![0, 0] : Fin 2 → Nat) a + S10000x32.size a ≤ S10000x32.size a
  h_S10000x32 : 0 < S10000x32.numel
  bcast_S1600000x1_S1600000x32_0_1 : S1600000x1.BroadcastsInDim S1600000x32 (![0, 1] : Fin 2 → Fin S1600000x32.rank)
  bcast_S_S100000x32 : S_.BroadcastsInDim S100000x32 (![] : Fin 0 → Fin S100000x32.rank)
  bcast_S100000_S100000x1_0 : S100000.BroadcastsInDim S100000x1 (![0] : Fin 1 → Fin S100000x1.rank)
  bcast_S100000x1_S100000x32_0_1 : S100000x1.BroadcastsInDim S100000x32 (![0, 1] : Fin 2 → Fin S100000x32.rank)
  bcast_S32_S1x32_1 : S32.BroadcastsInDim S1x32 (![1] : Fin 1 → Fin S1x32.rank)
  bcast_S1x32_S100000x32_0_1 : S1x32.BroadcastsInDim S100000x32 (![0, 1] : Fin 2 → Fin S100000x32.rank)
  shapeCasts_S10000x32_S10000x32 : S10000x32.ShapeCasts S10000x32
  inb_S32x16_S32x16_0_0 : ∀ a, (![0, 0] : Fin 2 → Nat) a + S32x16.size a ≤ S32x16.size a
  h_S32x16 : 0 < S32x16.numel
  inb_S10000x16_S10000x16_0_0 : ∀ a, (![0, 0] : Fin 2 → Nat) a + S10000x16.size a ≤ S10000x16.size a
  h_S10000x16 : 0 < S10000x16.numel
  bcast_S1600000x1_S1600000x16_0_1 : S1600000x1.BroadcastsInDim S1600000x16 (![0, 1] : Fin 2 → Fin S1600000x16.rank)
  bcast_S_S100000x16 : S_.BroadcastsInDim S100000x16 (![] : Fin 0 → Fin S100000x16.rank)
  bcast_S100000x1_S100000x16_0_1 : S100000x1.BroadcastsInDim S100000x16 (![0, 1] : Fin 2 → Fin S100000x16.rank)
  bcast_S16_S1x16_1 : S16.BroadcastsInDim S1x16 (![1] : Fin 1 → Fin S1x16.rank)
  bcast_S1x16_S100000x16_0_1 : S1x16.BroadcastsInDim S100000x16 (![0, 1] : Fin 2 → Fin S100000x16.rank)
  concatenates_S1600000x16_S1600000x16_S1600000x8_S1600000x40_d1 : Shape.Concatenates [S1600000x16, S1600000x16, S1600000x8] S1600000x40 1
  shapeCasts_S32_S1x32 : S32.ShapeCasts S1x32
  shapeCasts_S1_S1x1 : S1.ShapeCasts S1x1
  inb_S10000x40_S10000x40_0_0 : ∀ a, (![0, 0] : Fin 2 → Nat) a + S10000x40.size a ≤ S10000x40.size a
  h_S10000x40 : 0 < S10000x40.numel
  shapeCasts_S10000x40_S10000x40 : S10000x40.ShapeCasts S10000x40
  inb_S40x32_S40x32_0_0 : ∀ a, (![0, 0] : Fin 2 → Nat) a + S40x32.size a ≤ S40x32.size a
  h_S40x32 : 0 < S40x32.numel
  inb_S1x32_S1x32_0_0 : ∀ a, (![0, 0] : Fin 2 → Nat) a + S1x32.size a ≤ S1x32.size a
  h_S1x32 : 0 < S1x32.numel
  shapeCasts_S1x32_S1x32 : S1x32.ShapeCasts S1x32
  broadcasts_S1x32_S10000x32 : S1x32.Broadcasts S10000x32
  inb_S32x1_S32x1_0_0 : ∀ a, (![0, 0] : Fin 2 → Nat) a + S32x1.size a ≤ S32x1.size a
  h_S32x1 : 0 < S32x1.numel
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S10000x1 : S1x1.Broadcasts S10000x1
  inb_S10000x1_S10000x1_0_0 : ∀ a, (![0, 0] : Fin 2 → Nat) a + S10000x1.size a ≤ S10000x1.size a
  h_S10000x1 : 0 < S10000x1.numel
  shapeCasts_S1600000x1_S1600000 : S1600000x1.ShapeCasts S1600000
  scatter_S100000_S1600000x1_S1600000_n_0_0_1_wf : ScatterDims.WF S100000 S1600000x1 S1600000 [] [0] [0] 1
  dot_S10000x6_S6x32_S10000x32_1_0_0_1_n_n_wf : DotDims.WF S10000x6 S6x32 S10000x32 [1] [0] [0] [1] [] []
  gather_S100000_S1600000x1_S1600000_n_0_n_n_0_1_1_wf : GatherDims.WF S100000 S1600000x1 S1600000 [] [0] [] [0] [] 1 ![1]
  gather_S100000x32_S1600000x1_S1600000x32_1_0_n_n_0_1_132_wf : GatherDims.WF S100000x32 S1600000x1 S1600000x32 [1] [0] [] [0] [] 1 ![1, 32]
  scatter_S100000x32_S1600000x1_S1600000x32_1_0_0_1_wf : ScatterDims.WF S100000x32 S1600000x1 S1600000x32 [1] [0] [0] 1
  dot_S10000x32_S32x16_S10000x16_1_0_0_1_n_n_wf : DotDims.WF S10000x32 S32x16 S10000x16 [1] [0] [0] [1] [] []
  gather_S100000x16_S1600000x1_S1600000x16_1_0_n_n_0_1_116_wf : GatherDims.WF S100000x16 S1600000x1 S1600000x16 [1] [0] [] [0] [] 1 ![1, 16]
  scatter_S100000x16_S1600000x1_S1600000x16_1_0_0_1_wf : ScatterDims.WF S100000x16 S1600000x1 S1600000x16 [1] [0] [0] 1
  dot_S10000x40_S40x32_S10000x32_1_0_0_1_n_n_wf : DotDims.WF S10000x40 S40x32 S10000x32 [1] [0] [0] [1] [] []
  dot_S10000x32_S32x1_S10000x1_1_0_0_1_n_n_wf : DotDims.WF S10000x32 S32x1 S10000x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x6.size a ≤ S100000x6.size a
  hwx0_0 : ∀ i : grid0.Coords, EltTy.bits .f32 = 32 ∨ (Rect.block (s := S100000x6) S10000x6.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S6x32.size a ≤ S6x32.size a
  hwx0_1 : ∀ i : grid0.Coords, EltTy.bits .f32 = 32 ∨ (Rect.block (s := S6x32) S6x32.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S10000x32.size a ≤ S100000x32.size a
  hwx0_2 : ∀ i : grid0.Coords, EltTy.bits .f32 = 32 ∨ (Rect.block (s := S100000x32) S10000x32.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x32.size a ≤ S100000x32.size a
  hwx1_0 : ∀ i : grid1.Coords, EltTy.bits .f32 = 32 ∨ (Rect.block (s := S100000x32) S10000x32.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S32x16.size a ≤ S32x16.size a
  hwx1_1 : ∀ i : grid1.Coords, EltTy.bits .f32 = 32 ∨ (Rect.block (s := S32x16) S32x16.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S10000x16.size a ≤ S100000x16.size a
  hwx1_2 : ∀ i : grid1.Coords, EltTy.bits .f32 = 32 ∨ (Rect.block (s := S100000x16) S10000x16.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S10000x40.size a ≤ S1600000x40.size a
  hwx2_0 : ∀ i : grid2.Coords, EltTy.bits .f32 = 32 ∨ (Rect.block (s := S1600000x40) S10000x40.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S40x32.size a ≤ S40x32.size a
  hwx2_1 : ∀ i : grid2.Coords, EltTy.bits .f32 = 32 ∨ (Rect.block (s := S40x32) S40x32.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x32.size a ≤ S1x32.size a
  hwx2_2 : ∀ i : grid2.Coords, EltTy.bits .f32 = 32 ∨ (Rect.block (s := S1x32) S1x32.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S32x1.size a ≤ S32x1.size a
  hwx2_3 : ∀ i : grid2.Coords, EltTy.bits .f32 = 32 ∨ (Rect.block (s := S32x1) S32x1.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x1.size a ≤ S1x1.size a
  hwx2_4 : ∀ i : grid2.Coords, EltTy.bits .f32 = 32 ∨ (Rect.block (s := S1x1) S1x1.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S10000x1.size a ≤ S1600000x1.size a
  hwx2_5 : ∀ i : grid2.Coords, EltTy.bits .f32 = 32 ∨ (Rect.block (s := S1600000x1) S10000x1.size (cc2_transform_5 i) (hinb2_5 i)).WholeWords (EltTy.packing .f32)

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S10000x6_S6x32_S10000x32_1_0_0_1_n_n : DotDims S10000x6 S6x32 S10000x32 where
  lhsContracting := [1]
  rhsContracting := [0]
  lhsNonContracting := [0]
  rhsNonContracting := [1]
  lhsBatch := []
  rhsBatch := []
  wf := dot_S10000x6_S6x32_S10000x32_1_0_0_1_n_n_wf
def gather_S100000_S1600000x1_S1600000_n_0_n_n_0_1_1 : GatherDims S100000 S1600000x1 S1600000 where
  offsetDims := []
  collapsedSliceDims := [0]
  operandBatchingDims := []
  startIndicesBatchingDims := []
  startIndexMap := [0]
  indexVectorDim := 1
  sliceSizes := ![1]
  wf := gather_S100000_S1600000x1_S1600000_n_0_n_n_0_1_1_wf
def gather_S100000x32_S1600000x1_S1600000x32_1_0_n_n_0_1_132 : GatherDims S100000x32 S1600000x1 S1600000x32 where
  offsetDims := [1]
  collapsedSliceDims := [0]
  operandBatchingDims := []
  startIndicesBatchingDims := []
  startIndexMap := [0]
  indexVectorDim := 1
  sliceSizes := ![1, 32]
  wf := gather_S100000x32_S1600000x1_S1600000x32_1_0_n_n_0_1_132_wf
def scatter_S100000x32_S1600000x1_S1600000x32_1_0_0_1 : ScatterDims S100000x32 S1600000x1 S1600000x32 where
  updateWindowDims := [1]
  insertedWindowDims := [0]
  scatterDimsToOperandDims := [0]
  indexVectorDim := 1
  wf := scatter_S100000x32_S1600000x1_S1600000x32_1_0_0_1_wf
def dot_S10000x32_S32x16_S10000x16_1_0_0_1_n_n : DotDims S10000x32 S32x16 S10000x16 where
  lhsContracting := [1]
  rhsContracting := [0]
  lhsNonContracting := [0]
  rhsNonContracting := [1]
  lhsBatch := []
  rhsBatch := []
  wf := dot_S10000x32_S32x16_S10000x16_1_0_0_1_n_n_wf
def gather_S100000x16_S1600000x1_S1600000x16_1_0_n_n_0_1_116 : GatherDims S100000x16 S1600000x1 S1600000x16 where
  offsetDims := [1]
  collapsedSliceDims := [0]
  operandBatchingDims := []
  startIndicesBatchingDims := []
  startIndexMap := [0]
  indexVectorDim := 1
  sliceSizes := ![1, 16]
  wf := gather_S100000x16_S1600000x1_S1600000x16_1_0_n_n_0_1_116_wf
def scatter_S100000x16_S1600000x1_S1600000x16_1_0_0_1 : ScatterDims S100000x16 S1600000x1 S1600000x16 where
  updateWindowDims := [1]
  insertedWindowDims := [0]
  scatterDimsToOperandDims := [0]
  indexVectorDim := 1
  wf := scatter_S100000x16_S1600000x1_S1600000x16_1_0_0_1_wf
def dot_S10000x40_S40x32_S10000x32_1_0_0_1_n_n : DotDims S10000x40 S40x32 S10000x32 where
  lhsContracting := [1]
  rhsContracting := [0]
  lhsNonContracting := [0]
  rhsNonContracting := [1]
  lhsBatch := []
  rhsBatch := []
  wf := dot_S10000x40_S40x32_S10000x32_1_0_0_1_n_n_wf
def dot_S10000x32_S32x1_S10000x1_1_0_0_1_n_n : DotDims S10000x32 S32x1 S10000x1 where
  lhsContracting := [1]
  rhsContracting := [0]
  lhsNonContracting := [0]
  rhsNonContracting := [1]
  lhsBatch := []
  rhsBatch := []
  wf := dot_S10000x32_S32x1_S10000x1_1_0_0_1_n_n_wf

abbrev win0_0 : Pipeline.Window sig grid0 :=
  Pipeline.Window.ofSpec (Memref.whole main_arg0) S10000x6.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S6x32.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v16) S10000x32.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v58) S10000x32.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg5) S32x16.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v59) S10000x16.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v116) S10000x40.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg7) S40x32.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v117) S1x32.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_arg9) S32x1.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v118) S1x1.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v119) S10000x1.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

class Facts : Prop extends Facts₀ where

variable [Facts]
-- ==== ReferenceIdeal.lean ====
abbrev S100000x6 : Shape := ⟨2, ![100000, 6]⟩
abbrev S2x1600000 : Shape := ⟨2, ![2, 1600000]⟩
abbrev S1600000x8 : Shape := ⟨2, ![1600000, 8]⟩
abbrev S6x32 : Shape := ⟨2, ![6, 32]⟩
abbrev S32 : Shape := ⟨1, ![32]⟩
abbrev S32x16 : Shape := ⟨2, ![32, 16]⟩
abbrev S16 : Shape := ⟨1, ![16]⟩
abbrev S40x32 : Shape := ⟨2, ![40, 32]⟩
abbrev S32x1 : Shape := ⟨2, ![32, 1]⟩
abbrev S1 : Shape := ⟨1, ![1]⟩
abbrev S1x1600000 : Shape := ⟨2, ![1, 1600000]⟩
abbrev S1600000 : Shape := ⟨1, ![1600000]⟩
abbrev S100000x32 : Shape := ⟨2, ![100000, 32]⟩
abbrev S_ : Shape := ⟨0, ![]⟩
abbrev S100000 : Shape := ⟨1, ![100000]⟩
abbrev S1600000x1 : Shape := ⟨2, ![1600000, 1]⟩
abbrev S1600000x32 : Shape := ⟨2, ![1600000, 32]⟩
abbrev S100000x1 : Shape := ⟨2, ![100000, 1]⟩
abbrev S1x32 : Shape := ⟨2, ![1, 32]⟩
abbrev S100000x16 : Shape := ⟨2, ![100000, 16]⟩
abbrev S1600000x16 : Shape := ⟨2, ![1600000, 16]⟩
abbrev S1x16 : Shape := ⟨2, ![1, 16]⟩
abbrev S1600000x40 : Shape := ⟨2, ![1600000, 40]⟩
abbrev S1x1 : Shape := ⟨2, ![1, 1]⟩

abbrev nBuf : Space → Nat
  | .hbm => 188
  | .vmem => 0
  | .smem => 0
  | _ => 0

abbrev hbmTy0_0 (i : Nat) : BufTy := match i % 128 with
  | 0 => ⟨S100000x6, .f32⟩
  | 1 => ⟨S2x1600000, .i32⟩
  | 2 => ⟨S1600000x8, .f32⟩
  | 3 => ⟨S6x32, .f32⟩
  | 4 => ⟨S32, .f32⟩
  | 5 => ⟨S32x16, .f32⟩
  | 6 => ⟨S16, .f32⟩
  | 7 => ⟨S40x32, .f32⟩
  | 8 => ⟨S32, .f32⟩
  | 9 => ⟨S32x1, .f32⟩
  | 10 => ⟨S1, .f32⟩
  | 11 => ⟨S1x1600000, .i32⟩
  | 12 => ⟨S1600000, .i32⟩
  | 13 => ⟨S1x1600000, .i32⟩
  | 14 => ⟨S1600000, .i32⟩
  | 15 => ⟨S100000x32, .f32⟩
  | 16 => ⟨S_, .f32⟩
  | 17 => ⟨S100000, .f32⟩
  | 18 => ⟨S_, .i32⟩
  | 19 => ⟨S1600000, .i32⟩
  | 20 => ⟨S1600000, .i1⟩
  | 21 => ⟨S_, .i32⟩
  | 22 => ⟨S1600000, .i32⟩
  | 23 => ⟨S1600000, .i32⟩
  | 24 => ⟨S1600000, .i32⟩
  | 25 => ⟨S1600000x1, .i32⟩
  | 26 => ⟨S_, .f32⟩
  | 27 => ⟨S1600000, .f32⟩
  | 28 => ⟨S100000, .f32⟩
  | 29 => ⟨S_, .f32⟩
  | 30 => ⟨S100000, .f32⟩
  | 31 => ⟨S100000, .f32⟩
  | 32 => ⟨S100000, .f32⟩
  | 33 => ⟨S_, .i32⟩
  | 34 => ⟨S1600000, .i32⟩
  | 35 => ⟨S1600000, .i1⟩
  | 36 => ⟨S_, .i32⟩
  | 37 => ⟨S1600000, .i32⟩
  | 38 => ⟨S1600000, .i32⟩
  | 39 => ⟨S1600000, .i32⟩
  | 40 => ⟨S1600000x1, .i32⟩
  | 41 => ⟨S1600000, .f32⟩
  | 42 => ⟨S_, .i32⟩
  | 43 => ⟨S1600000, .i32⟩
  | 44 => ⟨S1600000, .i1⟩
  | 45 => ⟨S_, .i32⟩
  | 46 => ⟨S1600000, .i32⟩
  | 47 => ⟨S1600000, .i32⟩
  | 48 => ⟨S1600000, .i32⟩
  | 49 => ⟨S1600000x1, .i32⟩
  | 50 => ⟨S1600000, .f32⟩
  | 51 => ⟨S1600000, .f32⟩
  | 52 => ⟨S_, .i32⟩
  | 53 => ⟨S1600000, .i32⟩
  | 54 => ⟨S1600000, .i1⟩
  | 55 => ⟨S_, .i32⟩
  | 56 => ⟨S1600000, .i32⟩
  | 57 => ⟨S1600000, .i32⟩
  | 58 => ⟨S1600000, .i32⟩
  | 59 => ⟨S1600000x1, .i32⟩
  | 60 => ⟨S1600000x32, .f32⟩
  | 61 => ⟨S1600000x1, .f32⟩
  | 62 => ⟨S1600000x32, .f32⟩
  | 63 => ⟨S1600000x32, .f32⟩
  | 64 => ⟨S_, .f32⟩
  | 65 => ⟨S100000x32, .f32⟩
  | 66 => ⟨S_, .i32⟩
  | 67 => ⟨S1600000, .i32⟩
  | 68 => ⟨S1600000, .i1⟩
  | 69 => ⟨S_, .i32⟩
  | 70 => ⟨S1600000, .i32⟩
  | 71 => ⟨S1600000, .i32⟩
  | 72 => ⟨S1600000, .i32⟩
  | 73 => ⟨S1600000x1, .i32⟩
  | 74 => ⟨S100000x32, .f32⟩
  | 75 => ⟨S100000, .f32⟩
  | 76 => ⟨S100000x1, .f32⟩
  | 77 => ⟨S100000x32, .f32⟩
  | 78 => ⟨S100000x32, .f32⟩
  | 79 => ⟨S100000x32, .f32⟩
  | 80 => ⟨S1x32, .f32⟩
  | 81 => ⟨S100000x32, .f32⟩
  | 82 => ⟨S100000x32, .f32⟩
  | 83 => ⟨S_, .f32⟩
  | 84 => ⟨S100000x32, .f32⟩
  | 85 => ⟨S100000x32, .f32⟩
  | 86 => ⟨S100000x16, .f32⟩
  | 87 => ⟨S_, .f32⟩
  | 88 => ⟨S100000, .f32⟩
  | 89 => ⟨S_, .i32⟩
  | 90 => ⟨S1600000, .i32⟩
  | 91 => ⟨S1600000, .i1⟩
  | 92 => ⟨S_, .i32⟩
  | 93 => ⟨S1600000, .i32⟩
  | 94 => ⟨S1600000, .i32⟩
  | 95 => ⟨S1600000, .i32⟩
  | 96 => ⟨S1600000x1, .i32⟩
  | 97 => ⟨S_, .f32⟩
  | 98 => ⟨S1600000, .f32⟩
  | 99 => ⟨S100000, .f32⟩
  | 100 => ⟨S_, .f32⟩
  | 101 => ⟨S100000, .f32⟩
  | 102 => ⟨S100000, .f32⟩
  | 103 => ⟨S100000, .f32⟩
  | 104 => ⟨S_, .i32⟩
  | 105 => ⟨S1600000, .i32⟩
  | 106 => ⟨S1600000, .i1⟩
  | 107 => ⟨S_, .i32⟩
  | 108 => ⟨S1600000, .i32⟩
  | 109 => ⟨S1600000, .i32⟩
  | 110 => ⟨S1600000, .i32⟩
  | 111 => ⟨S1600000x1, .i32⟩
  | 112 => ⟨S1600000, .f32⟩
  | 113 => ⟨S_, .i32⟩
  | 114 => ⟨S1600000, .i32⟩
  | 115 => ⟨S1600000, .i1⟩
  | 116 => ⟨S_, .i32⟩
  | 117 => ⟨S1600000, .i32⟩
  | 118 => ⟨S1600000, .i32⟩
  | 119 => ⟨S1600000, .i32⟩
  | 120 => ⟨S1600000x1, .i32⟩
  | 121 => ⟨S1600000, .f32⟩
  | 122 => ⟨S1600000, .f32⟩
  | 123 => ⟨S_, .i32⟩
  | 124 => ⟨S1600000, .i32⟩
  | 125 => ⟨S1600000, .i1⟩
  | 126 => ⟨S_, .i32⟩
  | 127 => ⟨S1600000, .i32⟩
  | _ => ⟨S100000x6, .f32⟩

abbrev hbmTy0_1 (i : Nat) : BufTy := match i % 128 with
  | 0 => ⟨S1600000, .i32⟩
  | 1 => ⟨S1600000, .i32⟩
  | 2 => ⟨S1600000x1, .i32⟩
  | 3 => ⟨S1600000x16, .f32⟩
  | 4 => ⟨S1600000x1, .f32⟩
  | 5 => ⟨S1600000x16, .f32⟩
  | 6 => ⟨S1600000x16, .f32⟩
  | 7 => ⟨S_, .f32⟩
  | 8 => ⟨S100000x16, .f32⟩
  | 9 => ⟨S_, .i32⟩
  | 10 => ⟨S1600000, .i32⟩
  | 11 => ⟨S1600000, .i1⟩
  | 12 => ⟨S_, .i32⟩
  | 13 => ⟨S1600000, .i32⟩
  | 14 => ⟨S1600000, .i32⟩
  | 15 => ⟨S1600000, .i32⟩
  | 16 => ⟨S1600000x1, .i32⟩
  | 17 => ⟨S100000x16, .f32⟩
  | 18 => ⟨S100000, .f32⟩
  | 19 => ⟨S100000x1, .f32⟩
  | 20 => ⟨S100000x16, .f32⟩
  | 21 => ⟨S100000x16, .f32⟩
  | 22 => ⟨S100000x16, .f32⟩
  | 23 => ⟨S1x16, .f32⟩
  | 24 => ⟨S100000x16, .f32⟩
  | 25 => ⟨S100000x16, .f32⟩
  | 26 => ⟨S_, .f32⟩
  | 27 => ⟨S100000x16, .f32⟩
  | 28 => ⟨S100000x16, .f32⟩
  | 29 => ⟨S_, .i32⟩
  | 30 => ⟨S1600000, .i32⟩
  | 31 => ⟨S1600000, .i1⟩
  | 32 => ⟨S_, .i32⟩
  | 33 => ⟨S1600000, .i32⟩
  | 34 => ⟨S1600000, .i32⟩
  | 35 => ⟨S1600000, .i32⟩
  | 36 => ⟨S1600000x1, .i32⟩
  | 37 => ⟨S1600000x16, .f32⟩
  | 38 => ⟨S_, .i32⟩
  | 39 => ⟨S1600000, .i32⟩
  | 40 => ⟨S1600000, .i1⟩
  | 41 => ⟨S_, .i32⟩
  | 42 => ⟨S1600000, .i32⟩
  | 43 => ⟨S1600000, .i32⟩
  | 44 => ⟨S1600000, .i32⟩
  | 45 => ⟨S1600000x1, .i32⟩
  | 46 => ⟨S1600000x16, .f32⟩
  | 47 => ⟨S1600000x40, .f32⟩
  | 48 => ⟨S1600000x32, .f32⟩
  | 49 => ⟨S1x32, .f32⟩
  | 50 => ⟨S1600000x32, .f32⟩
  | 51 => ⟨S1600000x32, .f32⟩
  | 52 => ⟨S_, .f32⟩
  | 53 => ⟨S1600000x32, .f32⟩
  | 54 => ⟨S1600000x32, .f32⟩
  | 55 => ⟨S1600000x1, .f32⟩
  | 56 => ⟨S1x1, .f32⟩
  | 57 => ⟨S1600000x1, .f32⟩
  | 58 => ⟨S1600000x1, .f32⟩
  | 59 => ⟨S1600000, .f32⟩
  | _ => ⟨S100000x6, .f32⟩

abbrev hbmTy (i : Nat) : BufTy := match i / 128 with
  | 0 => hbmTy0_0 i
  | 1 => hbmTy0_1 i
  | _ => ⟨S100000x6, .f32⟩

abbrev bufTy : (tb : Table) → Fin (tcTables nBuf tb) → BufTy
  | .hbm, ⟨i, _⟩ => hbmTy i
  | _, _ => ⟨S100000x6, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_cst : Ref sig .tc := ⟨.hbm, 16, rfl⟩
abbrev main_v5 : Ref sig .tc := ⟨.hbm, 17, rfl⟩
abbrev main_c : Ref sig .tc := ⟨.hbm, 18, rfl⟩
abbrev main_v6 : Ref sig .tc := ⟨.hbm, 19, rfl⟩
abbrev main_v7 : Ref sig .tc := ⟨.hbm, 20, rfl⟩
abbrev main_c_0 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_cst_1 : Ref sig .tc := ⟨.hbm, 26, rfl⟩
abbrev main_v12 : Ref sig .tc := ⟨.hbm, 27, rfl⟩
abbrev main_v13 : Ref sig .tc := ⟨.hbm, 28, rfl⟩
abbrev main_cst_2 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_c_3 : Ref sig .tc := ⟨.hbm, 33, rfl⟩
abbrev main_v17 : Ref sig .tc := ⟨.hbm, 34, rfl⟩
abbrev main_v18 : Ref sig .tc := ⟨.hbm, 35, rfl⟩
abbrev main_c_4 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_c_5 : Ref sig .tc := ⟨.hbm, 42, rfl⟩
abbrev main_v24 : Ref sig .tc := ⟨.hbm, 43, rfl⟩
abbrev main_v25 : Ref sig .tc := ⟨.hbm, 44, rfl⟩
abbrev main_c_6 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_c_7 : Ref sig .tc := ⟨.hbm, 52, rfl⟩
abbrev main_v32 : Ref sig .tc := ⟨.hbm, 53, rfl⟩
abbrev main_v33 : Ref sig .tc := ⟨.hbm, 54, rfl⟩
abbrev main_c_8 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_cst_9 : Ref sig .tc := ⟨.hbm, 64, rfl⟩
abbrev main_v42 : Ref sig .tc := ⟨.hbm, 65, rfl⟩
abbrev main_c_10 : Ref sig .tc := ⟨.hbm, 66, rfl⟩
abbrev main_v43 : Ref sig .tc := ⟨.hbm, 67, rfl⟩
abbrev main_v44 : Ref sig .tc := ⟨.hbm, 68, rfl⟩
abbrev main_c_11 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_call0_cst : Ref sig .tc := ⟨.hbm, 83, rfl⟩
abbrev main_call0_v0 : Ref sig .tc := ⟨.hbm, 84, rfl⟩
abbrev main_v58 : Ref sig .tc := ⟨.hbm, 85, rfl⟩
abbrev main_v59 : Ref sig .tc := ⟨.hbm, 86, rfl⟩
abbrev main_cst_12 : Ref sig .tc := ⟨.hbm, 87, rfl⟩
abbrev main_v60 : Ref sig .tc := ⟨.hbm, 88, rfl⟩
abbrev main_c_13 : Ref sig .tc := ⟨.hbm, 89, rfl⟩
abbrev main_v61 : Ref sig .tc := ⟨.hbm, 90, rfl⟩
abbrev main_v62 : Ref sig .tc := ⟨.hbm, 91, rfl⟩
abbrev main_c_14 : Ref sig .tc := ⟨.hbm, 92, rfl⟩
abbrev main_v63 : Ref sig .tc := ⟨.hbm, 93, rfl⟩
abbrev main_v64 : Ref sig .tc := ⟨.hbm, 94, rfl⟩
abbrev main_v65 : Ref sig .tc := ⟨.hbm, 95, rfl⟩
abbrev main_v66 : Ref sig .tc := ⟨.hbm, 96, rfl⟩
abbrev main_cst_15 : Ref sig .tc := ⟨.hbm, 97, rfl⟩
abbrev main_v67 : Ref sig .tc := ⟨.hbm, 98, rfl⟩
abbrev main_v68 : Ref sig .tc := ⟨.hbm, 99, rfl⟩
abbrev main_cst_16 : Ref sig .tc := ⟨.hbm, 100, rfl⟩
abbrev main_v69 : Ref sig .tc := ⟨.hbm, 101, rfl⟩
abbrev main_v70 : Ref sig .tc := ⟨.hbm, 102, rfl⟩
abbrev main_v71 : Ref sig .tc := ⟨.hbm, 103, rfl⟩
abbrev main_c_17 : Ref sig .tc := ⟨.hbm, 104, rfl⟩
abbrev main_v72 : Ref sig .tc := ⟨.hbm, 105, rfl⟩
abbrev main_v73 : Ref sig .tc := ⟨.hbm, 106, rfl⟩
abbrev main_c_18 : Ref sig .tc := ⟨.hbm, 107, rfl⟩
abbrev main_v74 : Ref sig .tc := ⟨.hbm, 108, rfl⟩
abbrev main_v75 : Ref sig .tc := ⟨.hbm, 109, rfl⟩
abbrev main_v76 : Ref sig .tc := ⟨.hbm, 110, rfl⟩
abbrev main_v77 : Ref sig .tc := ⟨.hbm, 111, rfl⟩
abbrev main_v78 : Ref sig .tc := ⟨.hbm, 112, rfl⟩
abbrev main_c_19 : Ref sig .tc := ⟨.hbm, 113, rfl⟩
abbrev main_v79 : Ref sig .tc := ⟨.hbm, 114, rfl⟩
abbrev main_v80 : Ref sig .tc := ⟨.hbm, 115, rfl⟩
abbrev main_c_20 : Ref sig .tc := ⟨.hbm, 116, rfl⟩
abbrev main_v81 : Ref sig .tc := ⟨.hbm, 117, rfl⟩
abbrev main_v82 : Ref sig .tc := ⟨.hbm, 118, rfl⟩
abbrev main_v83 : Ref sig .tc := ⟨.hbm, 119, rfl⟩
abbrev main_v84 : Ref sig .tc := ⟨.hbm, 120, rfl⟩
abbrev main_v85 : Ref sig .tc := ⟨.hbm, 121, rfl⟩
abbrev main_v86 : Ref sig .tc := ⟨.hbm, 122, rfl⟩
abbrev main_c_21 : Ref sig .tc := ⟨.hbm, 123, rfl⟩
abbrev main_v87 : Ref sig .tc := ⟨.hbm, 124, rfl⟩
abbrev main_v88 : Ref sig .tc := ⟨.hbm, 125, rfl⟩
abbrev main_c_22 : Ref sig .tc := ⟨.hbm, 126, rfl⟩
abbrev main_v89 : Ref sig .tc := ⟨.hbm, 127, rfl⟩
abbrev main_v90 : Ref sig .tc := ⟨.hbm, 128, rfl⟩
abbrev main_v91 : Ref sig .tc := ⟨.hbm, 129, rfl⟩
abbrev main_v92 : Ref sig .tc := ⟨.hbm, 130, rfl⟩
abbrev main_v93 : Ref sig .tc := ⟨.hbm, 131, rfl⟩
abbrev main_v94 : Ref sig .tc := ⟨.hbm, 132, rfl⟩
abbrev main_v95 : Ref sig .tc := ⟨.hbm, 133, rfl⟩
abbrev main_v96 : Ref sig .tc := ⟨.hbm, 134, rfl⟩
abbrev main_cst_23 : Ref sig .tc := ⟨.hbm, 135, rfl⟩
abbrev main_v97 : Ref sig .tc := ⟨.hbm, 136, rfl⟩
abbrev main_c_24 : Ref sig .tc := ⟨.hbm, 137, rfl⟩
abbrev main_v98 : Ref sig .tc := ⟨.hbm, 138, rfl⟩
abbrev main_v99 : Ref sig .tc := ⟨.hbm, 139, rfl⟩
abbrev main_c_25 : Ref sig .tc := ⟨.hbm, 140, rfl⟩
abbrev main_v100 : Ref sig .tc := ⟨.hbm, 141, rfl⟩
abbrev main_v101 : Ref sig .tc := ⟨.hbm, 142, rfl⟩
abbrev main_v102 : Ref sig .tc := ⟨.hbm, 143, rfl⟩
abbrev main_v103 : Ref sig .tc := ⟨.hbm, 144, rfl⟩
abbrev main_v104 : Ref sig .tc := ⟨.hbm, 145, rfl⟩
abbrev main_v105 : Ref sig .tc := ⟨.hbm, 146, rfl⟩
abbrev main_v106 : Ref sig .tc := ⟨.hbm, 147, rfl⟩
abbrev main_v107 : Ref sig .tc := ⟨.hbm, 148, rfl⟩
abbrev main_v108 : Ref sig .tc := ⟨.hbm, 149, rfl⟩
abbrev main_v109 : Ref sig .tc := ⟨.hbm, 150, rfl⟩
abbrev main_v110 : Ref sig .tc := ⟨.hbm, 151, rfl⟩
abbrev main_v111 : Ref sig .tc := ⟨.hbm, 152, rfl⟩
abbrev main_v112 : Ref sig .tc := ⟨.hbm, 153, rfl⟩
abbrev main_call1_cst : Ref sig .tc := ⟨.hbm, 154, rfl⟩
abbrev main_call1_v0 : Ref sig .tc := ⟨.hbm, 155, rfl⟩
abbrev main_v113 : Ref sig .tc := ⟨.hbm, 156, rfl⟩
abbrev main_c_26 : Ref sig .tc := ⟨.hbm, 157, rfl⟩
abbrev main_v114 : Ref sig .tc := ⟨.hbm, 158, rfl⟩
abbrev main_v115 : Ref sig .tc := ⟨.hbm, 159, rfl⟩
abbrev main_c_27 : Ref sig .tc := ⟨.hbm, 160, rfl⟩
abbrev main_v116 : Ref sig .tc := ⟨.hbm, 161, rfl⟩
abbrev main_v117 : Ref sig .tc := ⟨.hbm, 162, rfl⟩
abbrev main_v118 : Ref sig .tc := ⟨.hbm, 163, rfl⟩
abbrev main_v119 : Ref sig .tc := ⟨.hbm, 164, rfl⟩
abbrev main_v120 : Ref sig .tc := ⟨.hbm, 165, rfl⟩
abbrev main_c_28 : Ref sig .tc := ⟨.hbm, 166, rfl⟩
abbrev main_v121 : Ref sig .tc := ⟨.hbm, 167, rfl⟩
abbrev main_v122 : Ref sig .tc := ⟨.hbm, 168, rfl⟩
abbrev main_c_29 : Ref sig .tc := ⟨.hbm, 169, rfl⟩
abbrev main_v123 : Ref sig .tc := ⟨.hbm, 170, rfl⟩
abbrev main_v124 : Ref sig .tc := ⟨.hbm, 171, rfl⟩
abbrev main_v125 : Ref sig .tc := ⟨.hbm, 172, rfl⟩
abbrev main_v126 : Ref sig .tc := ⟨.hbm, 173, rfl⟩
abbrev main_v127 : Ref sig .tc := ⟨.hbm, 174, rfl⟩
abbrev main_v128 : Ref sig .tc := ⟨.hbm, 175, rfl⟩
abbrev main_v129 : Ref sig .tc := ⟨.hbm, 176, rfl⟩
abbrev main_v130 : Ref sig .tc := ⟨.hbm, 177, rfl⟩
abbrev main_v131 : Ref sig .tc := ⟨.hbm, 178, rfl⟩
abbrev main_v132 : Ref sig .tc := ⟨.hbm, 179, rfl⟩
abbrev main_call2_cst : Ref sig .tc := ⟨.hbm, 180, rfl⟩
abbrev main_call2_v0 : Ref sig .tc := ⟨.hbm, 181, rfl⟩
abbrev main_v133 : Ref sig .tc := ⟨.hbm, 182, rfl⟩
abbrev main_v134 : Ref sig .tc := ⟨.hbm, 183, rfl⟩
abbrev main_v135 : Ref sig .tc := ⟨.hbm, 184, rfl⟩
abbrev main_v136 : Ref sig .tc := ⟨.hbm, 185, rfl⟩
abbrev main_v137 : Ref sig .tc := ⟨.hbm, 186, rfl⟩
abbrev main_v138 : Ref sig .tc := ⟨.hbm, 187, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S100000 : S_.BroadcastsInDim S100000 (![] : Fin 0 → Fin S100000.rank)
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S1600000x1_S1600000x32_0_1 : S1600000x1.BroadcastsInDim S1600000x32 (![0, 1] : Fin 2 → Fin S1600000x32.rank)
  bcast_S_S100000x32 : S_.BroadcastsInDim S100000x32 (![] : Fin 0 → Fin S100000x32.rank)
  bcast_S100000_S100000x1_0 : S100000.BroadcastsInDim S100000x1 (![0] : Fin 1 → Fin S100000x1.rank)
  bcast_S100000x1_S100000x32_0_1 : S100000x1.BroadcastsInDim S100000x32 (![0, 1] : Fin 2 → Fin S100000x32.rank)
  bcast_S32_S1x32_1 : S32.BroadcastsInDim S1x32 (![1] : Fin 1 → Fin S1x32.rank)
  bcast_S1x32_S100000x32_0_1 : S1x32.BroadcastsInDim S100000x32 (![0, 1] : Fin 2 → Fin S100000x32.rank)
  bcast_S1600000x1_S1600000x16_0_1 : S1600000x1.BroadcastsInDim S1600000x16 (![0, 1] : Fin 2 → Fin S1600000x16.rank)
  bcast_S_S100000x16 : S_.BroadcastsInDim S100000x16 (![] : Fin 0 → Fin S100000x16.rank)
  bcast_S100000x1_S100000x16_0_1 : S100000x1.BroadcastsInDim S100000x16 (![0, 1] : Fin 2 → Fin S100000x16.rank)
  bcast_S16_S1x16_1 : S16.BroadcastsInDim S1x16 (![1] : Fin 1 → Fin S1x16.rank)
  bcast_S1x16_S100000x16_0_1 : S1x16.BroadcastsInDim S100000x16 (![0, 1] : Fin 2 → Fin S100000x16.rank)
  concatenates_S1600000x16_S1600000x16_S1600000x8_S1600000x40_d1 : Shape.Concatenates [S1600000x16, S1600000x16, S1600000x8] S1600000x40 1
  bcast_S1x32_S1600000x32_0_1 : S1x32.BroadcastsInDim S1600000x32 (![0, 1] : Fin 2 → Fin S1600000x32.rank)
  bcast_S_S1600000x32 : S_.BroadcastsInDim S1600000x32 (![] : Fin 0 → Fin S1600000x32.rank)
  bcast_S1_S1x1_1 : S1.BroadcastsInDim S1x1 (![1] : Fin 1 → Fin S1x1.rank)
  bcast_S1x1_S1600000x1_0_1 : S1x1.BroadcastsInDim S1600000x1 (![0, 1] : Fin 2 → Fin S1600000x1.rank)
  shapeCasts_S1600000x1_S1600000 : S1600000x1.ShapeCasts S1600000
  dot_S100000x6_S6x32_S100000x32_1_0_0_1_n_n_wf : DotDims.WF S100000x6 S6x32 S100000x32 [1] [0] [0] [1] [] []
  scatter_S100000_S1600000x1_S1600000_n_0_0_1_wf : ScatterDims.WF S100000 S1600000x1 S1600000 [] [0] [0] 1
  gather_S100000_S1600000x1_S1600000_n_0_n_n_0_1_1_wf : GatherDims.WF S100000 S1600000x1 S1600000 [] [0] [] [0] [] 1 ![1]
  gather_S100000x32_S1600000x1_S1600000x32_1_0_n_n_0_1_132_wf : GatherDims.WF S100000x32 S1600000x1 S1600000x32 [1] [0] [] [0] [] 1 ![1, 32]
  scatter_S100000x32_S1600000x1_S1600000x32_1_0_0_1_wf : ScatterDims.WF S100000x32 S1600000x1 S1600000x32 [1] [0] [0] 1
  dot_S100000x32_S32x16_S100000x16_1_0_0_1_n_n_wf : DotDims.WF S100000x32 S32x16 S100000x16 [1] [0] [0] [1] [] []
  gather_S100000x16_S1600000x1_S1600000x16_1_0_n_n_0_1_116_wf : GatherDims.WF S100000x16 S1600000x1 S1600000x16 [1] [0] [] [0] [] 1 ![1, 16]
  scatter_S100000x16_S1600000x1_S1600000x16_1_0_0_1_wf : ScatterDims.WF S100000x16 S1600000x1 S1600000x16 [1] [0] [0] 1
  dot_S1600000x40_S40x32_S1600000x32_1_0_0_1_n_n_wf : DotDims.WF S1600000x40 S40x32 S1600000x32 [1] [0] [0] [1] [] []
  dot_S1600000x32_S32x1_S1600000x1_1_0_0_1_n_n_wf : DotDims.WF S1600000x32 S32x1 S1600000x1 [1] [0] [0] [1] [] []

variable [Facts₀]

def dot_S100000x6_S6x32_S100000x32_1_0_0_1_n_n : DotDims S100000x6 S6x32 S100000x32 where
  lhsContracting := [1]
  rhsContracting := [0]
  lhsNonContracting := [0]
  rhsNonContracting := [1]
  lhsBatch := []
  rhsBatch := []
  wf := dot_S100000x6_S6x32_S100000x32_1_0_0_1_n_n_wf
def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000_S1600000x1_S1600000_n_0_n_n_0_1_1 : GatherDims S100000 S1600000x1 S1600000 where
  offsetDims := []
  collapsedSliceDims := [0]
  operandBatchingDims := []
  startIndicesBatchingDims := []
  startIndexMap := [0]
  indexVectorDim := 1
  sliceSizes := ![1]
  wf := gather_S100000_S1600000x1_S1600000_n_0_n_n_0_1_1_wf
def gather_S100000x32_S1600000x1_S1600000x32_1_0_n_n_0_1_132 : GatherDims S100000x32 S1600000x1 S1600000x32 where
  offsetDims := [1]
  collapsedSliceDims := [0]
  operandBatchingDims := []
  startIndicesBatchingDims := []
  startIndexMap := [0]
  indexVectorDim := 1
  sliceSizes := ![1, 32]
  wf := gather_S100000x32_S1600000x1_S1600000x32_1_0_n_n_0_1_132_wf
def scatter_S100000x32_S1600000x1_S1600000x32_1_0_0_1 : ScatterDims S100000x32 S1600000x1 S1600000x32 where
  updateWindowDims := [1]
  insertedWindowDims := [0]
  scatterDimsToOperandDims := [0]
  indexVectorDim := 1
  wf := scatter_S100000x32_S1600000x1_S1600000x32_1_0_0_1_wf
def dot_S100000x32_S32x16_S100000x16_1_0_0_1_n_n : DotDims S100000x32 S32x16 S100000x16 where
  lhsContracting := [1]
  rhsContracting := [0]
  lhsNonContracting := [0]
  rhsNonContracting := [1]
  lhsBatch := []
  rhsBatch := []
  wf := dot_S100000x32_S32x16_S100000x16_1_0_0_1_n_n_wf
def gather_S100000x16_S1600000x1_S1600000x16_1_0_n_n_0_1_116 : GatherDims S100000x16 S1600000x1 S1600000x16 where
  offsetDims := [1]
  collapsedSliceDims := [0]
  operandBatchingDims := []
  startIndicesBatchingDims := []
  startIndexMap := [0]
  indexVectorDim := 1
  sliceSizes := ![1, 16]
  wf := gather_S100000x16_S1600000x1_S1600000x16_1_0_n_n_0_1_116_wf
def scatter_S100000x16_S1600000x1_S1600000x16_1_0_0_1 : ScatterDims S100000x16 S1600000x1 S1600000x16 where
  updateWindowDims := [1]
  insertedWindowDims := [0]
  scatterDimsToOperandDims := [0]
  indexVectorDim := 1
  wf := scatter_S100000x16_S1600000x1_S1600000x16_1_0_0_1_wf
def dot_S1600000x40_S40x32_S1600000x32_1_0_0_1_n_n : DotDims S1600000x40 S40x32 S1600000x32 where
  lhsContracting := [1]
  rhsContracting := [0]
  lhsNonContracting := [0]
  rhsNonContracting := [1]
  lhsBatch := []
  rhsBatch := []
  wf := dot_S1600000x40_S40x32_S1600000x32_1_0_0_1_n_n_wf
def dot_S1600000x32_S32x1_S1600000x1_1_0_0_1_n_n : DotDims S1600000x32 S32x1 S1600000x1 where
  lhsContracting := [1]
  rhsContracting := [0]
  lhsNonContracting := [0]
  rhsNonContracting := [1]
  lhsBatch := []
  rhsBatch := []
  wf := dot_S1600000x32_S32x1_S1600000x1_1_0_0_1_n_n_wf

class Facts : Prop extends Facts₀ where

variable [Facts]
-- ==== Proof.FrameKernel.Region0.lean ====
import proofs.«106212_j60902636257700_1_alg».proof.Proof.Gen.Kernel.Launch
import proofs.«106212_j60902636257700_1_alg».proof.Proof.Gen.Kernel.Skeleton
import proofs.«106212_j60902636257700_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Reg

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ
/-! # Region 0: `cc0__linear_kernel` at the contents `V` the region is entered with

The body multiplies a 10000×6 block of the node features by the whole 6×32 weight matrix (both rounded to bf16 on the way
in, accumulating in f32 from zero) and writes the 10000×32 product block. -/

section
variable (V : (c : Dev nD) → (b : Ref sig .tc) → Buf (Elt F) ((c : Thread nD τ).loc b))

/-- Window `w`'s block at grid point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's staging buffer holds its block at every point, whether the point fetches it or the block index
    has not moved since the fetch: the window is never idle and never clipped, and the body leaves it in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1's staging buffer holds its block at every point, whether the point fetches it or the block index
    has not moved since the fetch: the window is never idle and never clipped, and the body leaves it in place. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-! The body reads each input buffer whole and writes the output buffer whole. -/

abbrev r0_0 : Rect S10000x6 := Rect.unit (s := S10000x6) ![0, 0] S10000x6.size inb_S10000x6_S10000x6_0_0
abbrev r0_1 : Rect S6x32 := Rect.unit (s := S6x32) ![0, 0] S6x32.size inb_S6x32_S6x32_0_0
abbrev r0_2 : Rect S10000x32 := Rect.unit (s := S10000x32) ![0, 0] S10000x32.size inb_S10000x32_S10000x32_0_0

/-- The output buffer after the body, as a function of the input blocks: one store of the payload over the whole buffer. -/
def out0_2 (x0 : Vec F S10000x6 .f32) (x1 : Vec F S6x32 .f32) : Vec F S10000x32 .f32 :=
  View.canon [⟨r0_2, k0_pay1 (View.ld x0 r0_0) (View.ld x1 r0_1)⟩]

/-- The one store covers the buffer. -/
theorem cover0_2 (p0 : Vec F S10000x32 .f32) (y : S10000x32.Idx) :
    ∃ pc ∈ ([⟨r0_2, p0⟩] : List (View.Piece (Elt F) S10000x32 .f32)), y ∈ pc.1.set :=
  View.cover_of_tiled [⟨r0_2, p0⟩] S10000x32.size (by rfl) y

set_option maxHeartbeats 1000000 in
/-- The body on whole staging buffers — the inputs' at contents `x_i`, the output's at anything — runs to the end without a
    fault, leaves the inputs as they were and the output at `out0_2` of them. -/
theorem sound_kernel0 (c : Dev nD) (E : Set ℕ) (i : grid0.Coords) (arg0 : Memref sig .tc .vmem S10000x6 .f32) (harg0 : arg0.IsWhole) (arg1 : Memref sig .tc .vmem S6x32 .f32) (harg1 : arg1.IsWhole) (arg2 : Memref sig .tc .vmem S10000x32 .f32) (harg2 : arg2.IsWhole)
    (x0 : Vec F S10000x6 .f32) (x1 : Vec F S6x32 .f32) (K : PUnit → sProp 𝕄) :
    iprop(owns (c : Thread nD τ) arg0 fullShare x0 ∗ owns (c : Thread nD τ) arg1 fullShare x1 ∗ (∃ d, owns (c : Thread nD τ) arg2 fullShare d)
        ∗ (iprop(owns (c : Thread nD τ) arg0 fullShare x0 ∗ owns (c : Thread nD τ) arg1 fullShare x1 ∗ owns (c : Thread nD τ) arg2 fullShare (out0_2 x0 x1)) -∗ K ⟨⟩))
      ⊢ wp frame (wpE (defs₀ (F := F)) Variants.none c none) E (cc0__linear_kernel i arg0 harg0 arg1 harg1 arg2 harg2) K := by
  simp only [cc0__linear_kernel_eq_skeleton]; unfold cc0__linear_kernel_skel
  unfold owns
  iintro ⟨⟨%f0, %hf0, H0⟩, ⟨%f1, %hf1, H1⟩, ⟨%d2, %f2, -, H2⟩, Hk⟩
  subst hf0
  subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

/-- The pipeline's proof data on core `c`: the arrays as the region finds them; after the body at point `t` each input
    buffer still at its block and the output buffer at `out0_2` of the input blocks; full shares, nothing owed. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-- What the pipeline hands the body at point `t`, window by window, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- and what it must return. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

/-- The body at any grid point: the input buffers hold their blocks, so `sound_kernel0` applies; the invariant and the
    core's dues pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ _ _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body obligation of the pipeline library, at every grid point. -/
theorem body_obligation0 (c : Dev nD) : BodyObligation (dat0 (F := F) V c) (defs₀ (F := F)) Variants.none () Set.univ := fun t => by
  rw [bigSep_W0, bigSep_W0]
  exact sound_body0 V c t

end

end Cert.Kernel.Reg

end
-- ==== Proof.FrameKernel.Region1.lean ====
import proofs.«106212_j60902636257700_1_alg».proof.Proof.Gen.Kernel.Launch
import proofs.«106212_j60902636257700_1_alg».proof.Proof.Gen.Kernel.Skeleton
import proofs.«106212_j60902636257700_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Reg

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ
/-! # Region 1: `cc1__linear_kernel` at the contents `V` the region is entered with

The body multiplies a 10000×32 block of the first layer's activations by the whole 32×16 weight matrix (both rounded to
bf16 on the way in, accumulating in f32 from zero) and writes the 10000×16 product block. -/

section
variable (V : (c : Dev nD) → (b : Ref sig .tc) → Buf (Elt F) ((c : Thread nD τ).loc b))

/-- Window `w`'s block at grid point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's staging buffer holds its block at every point, whether the point fetches it or the block index
    has not moved since the fetch: the window is never idle and never clipped, and the body leaves it in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's staging buffer holds its block at every point, whether the point fetches it or the block index
    has not moved since the fetch: the window is never idle and never clipped, and the body leaves it in place. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-! The body reads each input buffer whole and writes the output buffer whole. -/

abbrev r1_0 : Rect S10000x32 := Rect.unit (s := S10000x32) ![0, 0] S10000x32.size inb_S10000x32_S10000x32_0_0
abbrev r1_1 : Rect S32x16 := Rect.unit (s := S32x16) ![0, 0] S32x16.size inb_S32x16_S32x16_0_0
abbrev r1_2 : Rect S10000x16 := Rect.unit (s := S10000x16) ![0, 0] S10000x16.size inb_S10000x16_S10000x16_0_0

/-- The output buffer after the body, as a function of the input blocks: one store of the payload over the whole buffer. -/
def out1_2 (x0 : Vec F S10000x32 .f32) (x1 : Vec F S32x16 .f32) : Vec F S10000x16 .f32 :=
  View.canon [⟨r1_2, k1_pay1 (View.ld x0 r1_0) (View.ld x1 r1_1)⟩]

/-- The one store covers the buffer. -/
theorem cover1_2 (p0 : Vec F S10000x16 .f32) (y : S10000x16.Idx) :
    ∃ pc ∈ ([⟨r1_2, p0⟩] : List (View.Piece (Elt F) S10000x16 .f32)), y ∈ pc.1.set :=
  View.cover_of_tiled [⟨r1_2, p0⟩] S10000x16.size (by rfl) y

set_option maxHeartbeats 1000000 in
/-- The body on whole staging buffers — the inputs' at contents `x_i`, the output's at anything — runs to the end without a
    fault, leaves the inputs as they were and the output at `out1_2` of them. -/
theorem sound_kernel1 (c : Dev nD) (E : Set ℕ) (i : grid1.Coords) (arg0 : Memref sig .tc .vmem S10000x32 .f32) (harg0 : arg0.IsWhole) (arg1 : Memref sig .tc .vmem S32x16 .f32) (harg1 : arg1.IsWhole) (arg2 : Memref sig .tc .vmem S10000x16 .f32) (harg2 : arg2.IsWhole)
    (x0 : Vec F S10000x32 .f32) (x1 : Vec F S32x16 .f32) (K : PUnit → sProp 𝕄) :
    iprop(owns (c : Thread nD τ) arg0 fullShare x0 ∗ owns (c : Thread nD τ) arg1 fullShare x1 ∗ (∃ d, owns (c : Thread nD τ) arg2 fullShare d)
        ∗ (iprop(owns (c : Thread nD τ) arg0 fullShare x0 ∗ owns (c : Thread nD τ) arg1 fullShare x1 ∗ owns (c : Thread nD τ) arg2 fullShare (out1_2 x0 x1)) -∗ K ⟨⟩))
      ⊢ wp frame (wpE (defs₀ (F := F)) Variants.none c none) E (cc1__linear_kernel i arg0 harg0 arg1 harg1 arg2 harg2) K := by
  simp only [cc1__linear_kernel_eq_skeleton]; unfold cc1__linear_kernel_skel
  unfold owns
  iintro ⟨⟨%f0, %hf0, H0⟩, ⟨%f1, %hf1, H1⟩, ⟨%d2, %f2, -, H2⟩, Hk⟩
  subst hf0
  subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover1_2 _)

/-- The pipeline's proof data on core `c`: the arrays as the region finds them; after the body at point `t` each input
    buffer still at its block and the output buffer at `out1_2` of the input blocks; full shares, nothing owed. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => out1_2 (iblk1 V c 0 t) (iblk1 V c 1 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = out1_2 (iblk1 V c 0 t) (iblk1 V c 1 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

/-- What the pipeline hands the body at point `t`, window by window, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d)))

/-- and what it must return. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t))

/-- The body at any grid point: the input buffers hold their blocks, so `sound_kernel1` applies; the invariant and the
    core's dues pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).Φ t.succ = (dat1 V c).Φ t.castSucc from rfl,
    show (dat1 V c).owesAt () t.succ = (dat1 V c).owesAt () t.castSucc from rfl,
    after1_0, after1_1, after1_2]
  iintro ⟨HΦ, Ho, ⟨%d0, H0⟩, ⟨%d1, H1⟩, ⟨%d2, H2⟩⟩
  iapply (sound_kernel1 c Set.univ _ _ _ _ _ _ _ (iblk1 V c 0 t) (iblk1 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body obligation of the pipeline library, at every grid point. -/
theorem body_obligation1 (c : Dev nD) : BodyObligation (dat1 (F := F) V c) (defs₀ (F := F)) Variants.none () Set.univ := fun t => by
  rw [bigSep_W1, bigSep_W1]
  exact sound_body1 V c t

end

end Cert.Kernel.Reg

end
-- ==== Proof.FrameKernel.Region2.lean ====
import proofs.«106212_j60902636257700_1_alg».proof.Proof.Gen.Kernel.Launch
import proofs.«106212_j60902636257700_1_alg».proof.Proof.Gen.Kernel.Skeleton
import proofs.«106212_j60902636257700_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Reg

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ
/-! # Region 2: `cc2__edge_mlp_kernel` at the contents `V` the region is entered with

The body is the edge MLP on a block of 10000 edges: the 10000×40 block of edge inputs times the 40×32 weights, plus the
bias row, clamped below at zero, times the 32×1 weights, plus the scalar bias; it writes the 10000×1 block of edge scores. -/

section
variable (V : (c : Dev nD) → (b : Ref sig .tc) → Buf (Elt F) ((c : Thread nD τ).loc b))

/-- Window `w`'s block at grid point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0's staging buffer holds its block at every point, whether the point fetches it or the block index
    has not moved since the fetch: the window is never idle and never clipped, and the body leaves it in place. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- Input window 1's staging buffer holds its block at every point, whether the point fetches it or the block index
    has not moved since the fetch: the window is never idle and never clipped, and the body leaves it in place. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- Input window 2's staging buffer holds its block at every point, whether the point fetches it or the block index
    has not moved since the fetch: the window is never idle and never clipped, and the body leaves it in place. -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-- Input window 3's staging buffer holds its block at every point, whether the point fetches it or the block index
    has not moved since the fetch: the window is never idle and never clipped, and the body leaves it in place. -/
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)

/-- Input window 4's staging buffer holds its block at every point, whether the point fetches it or the block index
    has not moved since the fetch: the window is never idle and never clipped, and the body leaves it in place. -/
theorem before2_4_of {c : Dev nD} (dat : Dat τ (Elt F) Unit ℕ (UR sig nD τ) ℕ cfg2 c) (hA : dat.A 4 = V c (Pipeline.arrRef spec2 4))
    (hafter : ∀ t, dat.after 4 t = iblk2 V c 4 t) (t : Fin cfg2.N) (d) : dat.before 4 t d = iblk2 V c 4 t :=
  (dat.before_in_eq_fetched 4 rfl (fun _ => rfl) (fun _ _ _ => rfl) (fun t => by rw [hafter]; unfold Dat.blockOf iblk2; rw [hA]; try rfl) t d).trans
    (by unfold Dat.fetched Dat.blockOf iblk2; rw [hA]; try rfl)

/-! The body reads each input buffer whole and writes the output buffer whole. -/

abbrev r2_0 : Rect S10000x40 := Rect.unit (s := S10000x40) ![0, 0] S10000x40.size inb_S10000x40_S10000x40_0_0
abbrev r2_1 : Rect S40x32 := Rect.unit (s := S40x32) ![0, 0] S40x32.size inb_S40x32_S40x32_0_0
abbrev r2_2 : Rect S1x32 := Rect.unit (s := S1x32) ![0, 0] S1x32.size inb_S1x32_S1x32_0_0
abbrev r2_3 : Rect S32x1 := Rect.unit (s := S32x1) ![0, 0] S32x1.size inb_S32x1_S32x1_0_0
abbrev r2_4 : Rect S1x1 := Rect.unit (s := S1x1) ![0, 0] S1x1.size inb_S1x1_S1x1_0_0
abbrev r2_5 : Rect S10000x1 := Rect.unit (s := S10000x1) ![0, 0] S10000x1.size inb_S10000x1_S10000x1_0_0

/-- The output buffer after the body, as a function of the input blocks: one store of the payload over the whole buffer. -/
def out2_5 (x0 : Vec F S10000x40 .f32) (x1 : Vec F S40x32 .f32) (x2 : Vec F S1x32 .f32) (x3 : Vec F S32x1 .f32) (x4 : Vec F S1x1 .f32) : Vec F S10000x1 .f32 :=
  View.canon [⟨r2_5, k2_pay1 (View.ld x0 r2_0) (View.ld x1 r2_1) (View.ld x2 r2_2) (View.ld x3 r2_3) (View.ld x4 r2_4)⟩]

/-- The one store covers the buffer. -/
theorem cover2_5 (p0 : Vec F S10000x1 .f32) (y : S10000x1.Idx) :
    ∃ pc ∈ ([⟨r2_5, p0⟩] : List (View.Piece (Elt F) S10000x1 .f32)), y ∈ pc.1.set :=
  View.cover_of_tiled [⟨r2_5, p0⟩] S10000x1.size (by rfl) y

set_option maxHeartbeats 1000000 in
/-- The body on whole staging buffers — the inputs' at contents `x_i`, the output's at anything — runs to the end without a
    fault, leaves the inputs as they were and the output at `out2_5` of them. -/
theorem sound_kernel2 (c : Dev nD) (E : Set ℕ) (i : grid2.Coords) (arg0 : Memref sig .tc .vmem S10000x40 .f32) (harg0 : arg0.IsWhole) (arg1 : Memref sig .tc .vmem S40x32 .f32) (harg1 : arg1.IsWhole) (arg2 : Memref sig .tc .vmem S1x32 .f32) (harg2 : arg2.IsWhole) (arg3 : Memref sig .tc .vmem S32x1 .f32) (harg3 : arg3.IsWhole) (arg4 : Memref sig .tc .vmem S1x1 .f32) (harg4 : arg4.IsWhole) (arg5 : Memref sig .tc .vmem S10000x1 .f32) (harg5 : arg5.IsWhole)
    (x0 : Vec F S10000x40 .f32) (x1 : Vec F S40x32 .f32) (x2 : Vec F S1x32 .f32) (x3 : Vec F S32x1 .f32) (x4 : Vec F S1x1 .f32) (K : PUnit → sProp 𝕄) :
    iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ (∃ d, owns (c : Thread nD τ) arg5 fullShare d)
        ∗ (iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare (out2_5 x0 x1 x2 x3 x4)) -∗ K ⟨⟩))
      ⊢ wp frame (wpE (defs₀ (F := F)) Variants.none c none) E (cc2__edge_mlp_kernel i arg0 harg0 arg1 harg1 arg2 harg2 arg3 harg3 arg4 harg4 arg5 harg5) K := by
  simp only [cc2__edge_mlp_kernel_eq_skeleton]; unfold cc2__edge_mlp_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0
  subst hf1
  subst hf2
  subst hf3
  subst hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover2_5 _)

/-- The pipeline's proof data on core `c`: the arrays as the region finds them; after the body at point `t` each input
    buffer still at its block and the output buffer at `out2_5` of the input blocks; full shares, nothing owed. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => out2_5 (iblk2 V c 0 t) (iblk2 V c 1 t) (iblk2 V c 2 t) (iblk2 V c 3 t) (iblk2 V c 4 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t = out2_5 (iblk2 V c 0 t) (iblk2 V c 1 t) (iblk2 V c 2 t) (iblk2 V c 3 t) (iblk2 V c 4 t) := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d
theorem before2_4 (c : Dev nD) (t : Fin cfg2.N) (d) : (dat2 V c).before 4 t d = iblk2 V c 4 t :=
  before2_4_of V (dat2 V c) (A_eq2 V c 4) (after2_4 V c) t d

/-- What the pipeline hands the body at point `t`, window by window, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d)))

/-- and what it must return. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t)
    ∗ owns (c : Thread nD τ) (st2_5 t) fullShare ((dat2 V c).after 5 t))

/-- The body at any grid point: the input buffers hold their blocks, so `sound_kernel2` applies; the invariant and the
    core's dues pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4]
  rw [show (dat2 V c).Φ t.succ = (dat2 V c).Φ t.castSucc from rfl,
    show (dat2 V c).owesAt () t.succ = (dat2 V c).owesAt () t.castSucc from rfl,
    after2_0, after2_1, after2_2, after2_3, after2_4, after2_5]
  iintro ⟨HΦ, Ho, ⟨%d0, H0⟩, ⟨%d1, H1⟩, ⟨%d2, H2⟩, ⟨%d3, H3⟩, ⟨%d4, H4⟩, ⟨%d5, H5⟩⟩
  iapply (sound_kernel2 c Set.univ _ _ _ _ _ _ _ _ _ _ _ _ _ (iblk2 V c 0 t) (iblk2 V c 1 t) (iblk2 V c 2 t) (iblk2 V c 3 t) (iblk2 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The body obligation of the pipeline library, at every grid point. -/
theorem body_obligation2 (c : Dev nD) : BodyObligation (dat2 (F := F) V c) (defs₀ (F := F)) Variants.none () Set.univ := fun t => by
  rw [bigSep_W2, bigSep_W2]
  exact sound_body2 V c t

end

end Cert.Kernel.Reg

end
-- ==== Proof.FrameKernel.Run.lean ====
import proofs.«106212_j60902636257700_1_alg».proof.Proof.Gen.Kernel.Launch
import proofs.«106212_j60902636257700_1_alg».proof.Proof.Gen.Kernel.Skeleton
import proofs.«106212_j60902636257700_1_alg».proof.Proof.Gen.Kernel.Points
import proofs.«106212_j60902636257700_1_alg».proof.Proof.Gen.Kernel.Regions
import proofs.«106212_j60902636257700_1_alg».proof.Proof.FrameKernel.Region0
import proofs.«106212_j60902636257700_1_alg».proof.Proof.FrameKernel.Region1
import proofs.«106212_j60902636257700_1_alg».proof.Proof.FrameKernel.Region2
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Reg

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-! # The whole run of @main: ten segments — host stretches and the three kernel regions — from the launch to the return

The contents of every unscoped buffer at each segment boundary are a fold from the launch memory: a host stretch applies its
operations; a region leaves its output array at what its grid points wrote back and every other buffer as it found it. The run
ends with every unscoped buffer at the last fold, `W10`. -/

variable (m : (ℓ : Loc nD τ sig) → Buf (Elt F) ℓ) (ρ : Dev nD → PrngReg)

/-- Core `c`'s buffers at launch. -/
abbrev W0 : Dev nD → Valuation τ sig (Elt F) := fun c b => (s₀ m ρ).mem ((c : Dev nD), b)
/-- After the first host stretch (the degrees and their inverse square roots): region 0's entry. -/
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b

/-- At region 0's exit: its arrays at what the pipeline leaves (an input's as entered, the output's at its blocks'
    write-backs), every other buffer as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- After the first aggregation and its bias. -/
abbrev W3 : Dev nD → Valuation τ sig (Elt F) := fun c => StableHlo.after hostOps1 (W2 m ρ c)
/-- After the first clamp at zero: region 1's entry. -/
abbrev W4 : Dev nD → Valuation τ sig (Elt F) := fun c => StableHlo.after hostOps1_1 (W3 m ρ c)
abbrev V4 : (c : Dev nD) → (b : Ref sig .tc) → Buf (Elt F) ((c : Thread nD τ).loc b) := fun c b => W4 m ρ c b

/-- At region 1's exit: its arrays at what the pipeline leaves (an input's as entered, the output's at its blocks'
    write-backs), every other buffer as entered. -/
def W5 (c : Dev nD) : Valuation τ sig (Elt F) :=
  Pipeline.withArrays spec1 c (W4 m ρ c) fun w => (dat1 (V4 m ρ) c).arrAt w cfg1.N
theorem W5_arr (c : Dev nD) (w : Fin cfg1.W) :
    W5 m ρ c (Proc.devRef .tc (Pipeline.arrRef spec1 w)) = (dat1 (V4 m ρ) c).arrAt w cfg1.N := by
  unfold W5; exact Pipeline.withArrays_arr spec1 launch1.win.arr_inj c _ _ w
theorem W5_of_ne (c : Dev nD) (b : Ref sig .tc) (hb : ∀ w, Pipeline.arrRef spec1 w ≠ b) :
    W5 m ρ c (Proc.devRef .tc b) = W4 m ρ c (Proc.devRef .tc b) := by
  unfold W5; exact Pipeline.withArrays_of_ne spec1 c _ _ b hb
abbrev V5 : (c : Dev nD) → (b : Ref sig .tc) → Buf (Elt F) ((c : Thread nD τ).loc b) := fun c b => W5 m ρ c b
theorem hF1 (c : Dev nD) (w : Fin cfg1.W) : (dat1 (V4 m ρ) c).arrAt w cfg1.N = V5 m ρ c (Pipeline.arrRef spec1 w) :=
  (W5_arr m ρ c w).symm
theorem hrest1 (c : Dev nD) : ∀ b, b ∉ Finset.univ.image (Pipeline.arrRef spec1) → V5 m ρ c b = V4 m ρ c b :=
  fun b hb => W5_of_ne m ρ c b fun w e => hb (Finset.mem_image.mpr ⟨w, Finset.mem_univ _, e⟩)

/-- After the second aggregation and its bias. -/
abbrev W6 : Dev nD → Valuation τ sig (Elt F) := fun c => StableHlo.after hostOps2 (W5 m ρ c)
/-- After the second clamp at zero. -/
abbrev W7 : Dev nD → Valuation τ sig (Elt F) := fun c => StableHlo.after hostOps2_1 (W6 m ρ c)
/-- After the edge inputs are gathered and joined: region 2's entry. -/
abbrev W8 : Dev nD → Valuation τ sig (Elt F) := fun c => StableHlo.after hostOps2_2 (W7 m ρ c)
abbrev V8 : (c : Dev nD) → (b : Ref sig .tc) → Buf (Elt F) ((c : Thread nD τ).loc b) := fun c b => W8 m ρ c b

/-- At region 2's exit: its arrays at what the pipeline leaves (an input's as entered, the output's at its blocks'
    write-backs), every other buffer as entered. -/
def W9 (c : Dev nD) : Valuation τ sig (Elt F) :=
  Pipeline.withArrays spec2 c (W8 m ρ c) fun w => (dat2 (V8 m ρ) c).arrAt w cfg2.N
theorem W9_arr (c : Dev nD) (w : Fin cfg2.W) :
    W9 m ρ c (Proc.devRef .tc (Pipeline.arrRef spec2 w)) = (dat2 (V8 m ρ) c).arrAt w cfg2.N := by
  unfold W9; exact Pipeline.withArrays_arr spec2 launch2.win.arr_inj c _ _ w
theorem W9_of_ne (c : Dev nD) (b : Ref sig .tc) (hb : ∀ w, Pipeline.arrRef spec2 w ≠ b) :
    W9 m ρ c (Proc.devRef .tc b) = W8 m ρ c (Proc.devRef .tc b) := by
  unfold W9; exact Pipeline.withArrays_of_ne spec2 c _ _ b hb
abbrev V9 : (c : Dev nD) → (b : Ref sig .tc) → Buf (Elt F) ((c : Thread nD τ).loc b) := fun c b => W9 m ρ c b
theorem hF2 (c : Dev nD) (w : Fin cfg2.W) : (dat2 (V8 m ρ) c).arrAt w cfg2.N = V9 m ρ c (Pipeline.arrRef spec2 w) :=
  (W9_arr m ρ c w).symm
theorem hrest2 (c : Dev nD) : ∀ b, b ∉ Finset.univ.image (Pipeline.arrRef spec2) → V9 m ρ c b = V8 m ρ c b :=
  fun b hb => W9_of_ne m ρ c b fun w e => hb (Finset.mem_image.mpr ⟨w, Finset.mem_univ _, e⟩)

/-- After the last host stretch (the result's reshape): the contents the run ends with. -/
abbrev W10 : Dev nD → Valuation τ sig (Elt F) := fun c => StableHlo.after hostOps3 (W9 m ρ c)

/-! ## The proof data family and the thread state -/

/-- No pipeline has a prefetched table. -/
abbrev padm : (p : Fin 3) → (pcfgs (F := F) p).Adm := fun p => (cfgs p).toPCfg_adm
/-- Every pipeline's proof data, each at its region's entry contents. -/
def pdatsH : (p : Fin 3) → (c : Dev nD) → Dat τ (Elt F) Unit ℕ (UR sig nD τ) ℕ (Pipeline.pin (pcfgs (F := F)) padm p) c
  | ⟨0, _⟩ => fun c => dat0 (V1 m ρ) c
  | ⟨1, _⟩ => fun c => dat1 (V4 m ρ) c
  | ⟨2, _⟩ => fun c => dat2 (V8 m ρ) c
abbrev 𝒱H : Variants := Variants.none
abbrev LH : GSem nD τ sig → Finset Unit := fun _ => ∅
abbrev lvH : GSem nD τ sig → Unit → ℕ := fun _ _ => 0
/-- What rides beside the buffers through every segment: the generator register at some state, and nothing owed. -/
abbrev Rst (c : Dev nD) : sProp 𝕄 := iprop((∃ r, prngReg c r) ∗ ∃ W, owes (c : Thread nD τ) (0 : CellTallies nD τ sig Unit) W)
/-- A host stretch as a segment, from the contents `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱H LH lvH :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W Rst

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without its dues: every unscoped buffer at `W10`, the generator register at some state. -/
abbrev TH (c : Dev nD) : sProp 𝕄 := iprop(StableHlo.held (c : Thread nD τ) (Pipeline.ucRefs τ sig) (W10 m ρ c) ∗ ∃ r, prngReg c r)

/-! ## The regions as segments -/

-- unifying a library lemma stated over a pinned configuration with the printed one needs definitions in types unfolded
set_option backward.isDefEq.respectTransparency.types false in
/-- Region 0 as a segment over the thread state "every unscoped buffer at the boundary's contents, the generator register at
    some state, nothing owed": entered at `W1`, left at `W2`. Its arrays are split out of the unscoped buffers at entry
    and put back at what the write-backs leave at exit. -/
def reg0 : Pipeline.RegionSeg (pcfgs (F := F)) padm (pdatsH m ρ) () defs₀ 𝒱H LH lvH 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ LH lvH 0 fun _ _ => rfl
  pre c := iprop(StableHlo.held (c : Thread nD τ) (Pipeline.ucRefs τ sig) (W1 m ρ c) ∗ Rst c)
  post c := iprop(StableHlo.held (c : Thread nD τ) (Pipeline.ucRefs τ sig) (W2 m ρ c) ∗ Rst c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) padm (pdatsH m ρ) launch0.win launch0.arr_whole c
      ((pdatsH m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdatsH m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdatsH m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) padm (Ix := Unit) (Name := ℕ) (U := UR sig nD τ) (Lvl := ℕ)
      launch0.win launch0.arr_whole c (pdatsH m ρ) ((pdatsH m ρ 0 c).share_full fun _ => rfl)
      (V1 m ρ c) (V2 m ρ c) ((pdatsH m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- unifying a library lemma stated over a pinned configuration with the printed one needs definitions in types unfolded
set_option backward.isDefEq.respectTransparency.types false in
/-- Region 1 as a segment over the thread state "every unscoped buffer at the boundary's contents, the generator register at
    some state, nothing owed": entered at `W4`, left at `W5`. Its arrays are split out of the unscoped buffers at entry
    and put back at what the write-backs leave at exit. -/
def reg1 : Pipeline.RegionSeg (pcfgs (F := F)) padm (pdatsH m ρ) () defs₀ 𝒱H LH lvH 1 where
  win := launch1.win.to₀
  block_pos := launch1.block_pos
  stage_whole := launch1.stage_whole
  K := PEmpty
  osem k := k.elim
  ho := Pipeline.OwnSemFacts.none _
  hbody c := (body_obligation1 (V4 m ρ) c).loose
  hwaits := Pipeline.hwaits_of_owed_zero _ _ _ _ LH lvH 1 fun _ _ => rfl
  pre c := iprop(StableHlo.held (c : Thread nD τ) (Pipeline.ucRefs τ sig) (W4 m ρ c) ∗ Rst c)
  post c := iprop(StableHlo.held (c : Thread nD τ) (Pipeline.ucRefs τ sig) (W5 m ρ c) ∗ Rst c)
  X c := iprop(∃ r, prngReg c r)
  Y c := iprop(∃ r, prngReg c r)
  Z c := Pipeline.unscopedRest (Ix := Unit) (Name := ℕ) (U := UR sig nD τ) (Lvl := ℕ) spec1 c (V4 m ρ c)
  hentry c := by
    rw [Pipeline.ownSems0_none]
    have hsplit := Pipeline.arrays_of_unscopedBufs (p := 1) (pcfgs (F := F)) padm (pdatsH m ρ) launch1.win launch1.arr_whole c
      ((pdatsH m ρ 1 c).share_full fun _ => rfl) (V4 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdatsH m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdatsH m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) padm (Ix := Unit) (Name := ℕ) (U := UR sig nD τ) (Lvl := ℕ)
      launch1.win launch1.arr_whole c (pdatsH m ρ) ((pdatsH m ρ 1 c).share_full fun _ => rfl)
      (V4 m ρ c) (V5 m ρ c) ((pdatsH m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- unifying a library lemma stated over a pinned configuration with the printed one needs definitions in types unfolded
set_option backward.isDefEq.respectTransparency.types false in
/-- Region 2 as a segment over the thread state "every unscoped buffer at the boundary's contents, the generator register at
    some state, nothing owed": entered at `W8`, left at `W9`. Its arrays are split out of the unscoped buffers at entry
    and put back at what the write-backs leave at exit. -/
def reg2 : Pipeline.RegionSeg (pcfgs (F := F)) padm (pdatsH m ρ) () defs₀ 𝒱H LH lvH 2 where
  win := launch2.win.to₀
  block_pos := launch2.block_pos
  stage_whole := launch2.stage_whole
  K := PEmpty
  osem k := k.elim
  ho := Pipeline.OwnSemFacts.none _
  hbody c := (body_obligation2 (V8 m ρ) c).loose
  hwaits := Pipeline.hwaits_of_owed_zero _ _ _ _ LH lvH 2 fun _ _ => rfl
  pre c := iprop(StableHlo.held (c : Thread nD τ) (Pipeline.ucRefs τ sig) (W8 m ρ c) ∗ Rst c)
  post c := iprop(StableHlo.held (c : Thread nD τ) (Pipeline.ucRefs τ sig) (W9 m ρ c) ∗ Rst c)
  X c := iprop(∃ r, prngReg c r)
  Y c := iprop(∃ r, prngReg c r)
  Z c := Pipeline.unscopedRest (Ix := Unit) (Name := ℕ) (U := UR sig nD τ) (Lvl := ℕ) spec2 c (V8 m ρ c)
  hentry c := by
    rw [Pipeline.ownSems0_none]
    have hsplit := Pipeline.arrays_of_unscopedBufs (p := 2) (pcfgs (F := F)) padm (pdatsH m ρ) launch2.win launch2.arr_whole c
      ((pdatsH m ρ 2 c).share_full fun _ => rfl) (V8 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdatsH m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdatsH m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) padm (Ix := Unit) (Name := ℕ) (U := UR sig nD τ) (Lvl := ℕ)
      launch2.win launch2.arr_whole c (pdatsH m ρ) ((pdatsH m ρ 2 c).share_full fun _ => rfl)
      (V8 m ρ c) (V9 m ρ c) ((pdatsH m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

abbrev segsH : List (Pipeline.Seg (pcfgs (F := F)) padm (pdatsH m ρ) () defs₀ 𝒱H LH lvH) :=
  [ .host (hseg hostOps0 hostOps0_sub hostOps0_fresh (W0 m ρ)),
    .region (reg0 m ρ),
    .host (hseg hostOps1 hostOps1_sub hostOps1_fresh (W2 m ρ)),
    .host (hseg hostOps1_1 hostOps1_1_sub hostOps1_1_fresh (W3 m ρ)),
    .region (reg1 m ρ),
    .host (hseg hostOps2 hostOps2_sub hostOps2_fresh (W5 m ρ)),
    .host (hseg hostOps2_1 hostOps2_1_sub hostOps2_1_fresh (W6 m ρ)),
    .host (hseg hostOps2_2 hostOps2_2_sub hostOps2_2_fresh (W7 m ρ)),
    .region (reg2 m ρ),
    .host (hseg hostOps3 hostOps3_sub hostOps3_fresh (W9 m ρ)) ]

theorem main_run (c : Dev nD) : main (F := F) c = Pipeline.Seg.run (segsH m ρ) := (main_chain c).trans (by chain_rfl)

set_option backward.isDefEq.respectTransparency.types false in
/-- THE RUN. From any memory with zero counters, every weakly fair execution of @main on the TensorCore terminates, nothing
    faulting, and in every final state each unscoped buffer holds the last fold `W10`. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W10 m ρ c b) :=
  Pipeline.θ_run_regions_kit (pcfgs (F := F)) padm (pdatsH m ρ) () cellOf_inj emb₁ defs₀ 𝒱H LH lvH m ρ main (segsH m ρ)
    (fun c Q => by rw [main_run m ρ c])
    (by simp only [segsH, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ Rst c)) (Tₙ := TH m ρ)
    (hch := ⟨fun _ => .rfl, fun _ => .rfl, fun _ => .rfl, fun _ => .rfl, fun _ => .rfl, fun _ => .rfl, fun _ => .rfl, fun _ => .rfl,
      fun _ => .rfl, fun _ => .rfl, fun c => by
        show iprop(StableHlo.held (c : Thread nD τ) (Pipeline.ucRefs τ sig) (W10 m ρ c) ∗ Rst c)
          ⊢ iprop(TH m ρ c ∗ ∃ W, owes (c : Thread nD τ) (0 : CellTallies nD τ sig Unit) W)
        iintro ⟨Hh, Hp, HO⟩
        isplitl [Hh Hp]
        · isplitl [Hh]; · iexact Hh
          iexact Hp
        iexact HO⟩)
    (hinit := by
      refine Pipeline.initEach LH lvH fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W10 m ρ c b)
    (hfin := fun c s' => by
      iintro ⟨⟨Hh, -⟩, HSI⟩
      unfold StableHlo.held
      imodintro
      iapply (pointsTo_read_all (Pipeline.ucRefs τ sig) (fun b => (((c : Thread nD τ)).1, b)) (W10 m ρ c) s')
      isplitl [Hh] <;> iassumption)
    (hQ := fun s h => h)

/-! ## What each segment leaves alone -/

theorem W1_of (c : Dev nD) (r : Ref sig .tc) (h : r ∉ hostOps0_W) : W1 m ρ c r = W0 m ρ c r :=
  StableHlo.after_of_writes_sub hostOps0 _ hostOps0_writes h
theorem W3_of (c : Dev nD) (r : Ref sig .tc) (h : r ∉ hostOps1_W) : W3 m ρ c r = W2 m ρ c r :=
  StableHlo.after_of_writes_sub hostOps1 _ hostOps1_writes h
theorem W4_of (c : Dev nD) (r : Ref sig .tc) (h : r ∉ hostOps1_1_W) : W4 m ρ c r = W3 m ρ c r :=
  StableHlo.after_of_writes_sub hostOps1_1 _ hostOps1_1_writes h
theorem W6_of (c : Dev nD) (r : Ref sig .tc) (h : r ∉ hostOps2_W) : W6 m ρ c r = W5 m ρ c r :=
  StableHlo.after_of_writes_sub hostOps2 _ hostOps2_writes h
theorem W7_of (c : Dev nD) (r : Ref sig .tc) (h : r ∉ hostOps2_1_W) : W7 m ρ c r = W6 m ρ c r :=
  StableHlo.after_of_writes_sub hostOps2_1 _ hostOps2_1_writes h
theorem W8_of (c : Dev nD) (r : Ref sig .tc) (h : r ∉ hostOps2_2_W) : W8 m ρ c r = W7 m ρ c r :=
  StableHlo.after_of_writes_sub hostOps2_2 _ hostOps2_2_writes h
theorem W10_of (c : Dev nD) (r : Ref sig .tc) (h : r ∉ hostOps3_W) : W10 m ρ c r = W9 m ρ c r :=
  StableHlo.after_of_writes_sub hostOps3 _ hostOps3_writes h

/-- Region 0 changes its output array only: an operand array is read through an input window and keeps its contents, and a
    buffer that is none of the region's arrays is not touched. -/
theorem W2_keep (c : Dev nD) (b : Ref sig .tc) (hb : b ≠ main_v16) : W2 m ρ c b = W1 m ρ c b := by
  by_cases h0 : b = main_arg0
  · subst h0; exact (W2_arr m ρ c 0).trans (((dat0 (V1 m ρ) c).arrAt_in 0 rfl _).trans (A_eq0 (V1 m ρ) c 0))
  by_cases h1 : b = main_arg3
  · subst h1; exact (W2_arr m ρ c 1).trans (((dat0 (V1 m ρ) c).arrAt_in 1 rfl _).trans (A_eq0 (V1 m ρ) c 1))
  refine W2_of_ne m ρ c b fun w e => ?_
  match w with
  | ⟨0, _⟩ => exact h0 e.symm
  | ⟨1, _⟩ => exact h1 e.symm
  | ⟨2, _⟩ => exact hb e.symm

/-- Region 1 changes its output array only: an operand array is read through an input window and keeps its contents, and a
    buffer that is none of the region's arrays is not touched. -/
theorem W5_keep (c : Dev nD) (b : Ref sig .tc) (hb : b ≠ main_v59) : W5 m ρ c b = W4 m ρ c b := by
  by_cases h0 : b = main_v58
  · subst h0; exact (W5_arr m ρ c 0).trans (((dat1 (V4 m ρ) c).arrAt_in 0 rfl _).trans (A_eq1 (V4 m ρ) c 0))
  by_cases h1 : b = main_arg5
  · subst h1; exact (W5_arr m ρ c 1).trans (((dat1 (V4 m ρ) c).arrAt_in 1 rfl _).trans (A_eq1 (V4 m ρ) c 1))
  refine W5_of_ne m ρ c b fun w e => ?_
  match w with
  | ⟨0, _⟩ => exact h0 e.symm
  | ⟨1, _⟩ => exact h1 e.symm
  | ⟨2, _⟩ => exact hb e.symm

/-- Region 2 changes its output array only: an operand array is read through an input window and keeps its contents, and a
    buffer that is none of the region's arrays is not touched. -/
theorem W9_keep (c : Dev nD) (b : Ref sig .tc) (hb : b ≠ main_v119) : W9 m ρ c b = W8 m ρ c b := by
  by_cases h0 : b = main_v116
  · subst h0; exact (W9_arr m ρ c 0).trans (((dat2 (V8 m ρ) c).arrAt_in 0 rfl _).trans (A_eq2 (V8 m ρ) c 0))
  by_cases h1 : b = main_arg7
  · subst h1; exact (W9_arr m ρ c 1).trans (((dat2 (V8 m ρ) c).arrAt_in 1 rfl _).trans (A_eq2 (V8 m ρ) c 1))
  by_cases h2 : b = main_v117
  · subst h2; exact (W9_arr m ρ c 2).trans (((dat2 (V8 m ρ) c).arrAt_in 2 rfl _).trans (A_eq2 (V8 m ρ) c 2))
  by_cases h3 : b = main_arg9
  · subst h3; exact (W9_arr m ρ c 3).trans (((dat2 (V8 m ρ) c).arrAt_in 3 rfl _).trans (A_eq2 (V8 m ρ) c 3))
  by_cases h4 : b = main_v118
  · subst h4; exact (W9_arr m ρ c 4).trans (((dat2 (V8 m ρ) c).arrAt_in 4 rfl _).trans (A_eq2 (V8 m ρ) c 4))
  refine W9_of_ne m ρ c b fun w e => ?_
  match w with
  | ⟨0, _⟩ => exact h0 e.symm
  | ⟨1, _⟩ => exact h1 e.symm
  | ⟨2, _⟩ => exact h2 e.symm
  | ⟨3, _⟩ => exact h3 e.symm
  | ⟨4, _⟩ => exact h4 e.symm
  | ⟨5, _⟩ => exact hb e.symm

/-- A buffer no segment writes ends the run as launched. -/
theorem W10_launch (c : Dev nD) (b : Ref sig .tc) (h0 : b ∉ hostOps0_W) (h1 : b ≠ main_v16) (h2 : b ∉ hostOps1_W) (h3 : b ∉ hostOps1_1_W)
    (h4 : b ≠ main_v59) (h5 : b ∉ hostOps2_W) (h6 : b ∉ hostOps2_1_W) (h7 : b ∉ hostOps2_2_W) (h8 : b ≠ main_v119) (h9 : b ∉ hostOps3_W) :
    W10 m ρ c b = m ((c : Thread nD τ).loc b) :=
  (W10_of m ρ c b h9).trans <| (W9_keep m ρ c b h8).trans <| (W8_of m ρ c b h7).trans <| (W7_of m ρ c b h6).trans <|
    (W6_of m ρ c b h5).trans <| (W5_keep m ρ c b h4).trans <| (W4_of m ρ c b h3).trans <| (W3_of m ρ c b h2).trans <|
    (W2_keep m ρ c b h1).trans <| (W1_of m ρ c b h0).trans rfl

/-! ## The frame -/

/-- Every weakly fair execution of @main terminates, nothing faulting, with every argument array as launched: no host operation
    writes an argument and a region only reads one. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧       r.2.mem ((c.tc : Thread nD τ).loc main_arg1) = m ((c.tc : Thread nD τ).loc main_arg1)
      ∧       r.2.mem ((c.tc : Thread nD τ).loc main_arg2) = m ((c.tc : Thread nD τ).loc main_arg2)
      ∧       r.2.mem ((c.tc : Thread nD τ).loc main_arg3) = m ((c.tc : Thread nD τ).loc main_arg3)
      ∧       r.2.mem ((c.tc : Thread nD τ).loc main_arg4) = m ((c.tc : Thread nD τ).loc main_arg4)
      ∧       r.2.mem ((c.tc : Thread nD τ).loc main_arg5) = m ((c.tc : Thread nD τ).loc main_arg5)
      ∧       r.2.mem ((c.tc : Thread nD τ).loc main_arg6) = m ((c.tc : Thread nD τ).loc main_arg6)
      ∧       r.2.mem ((c.tc : Thread nD τ).loc main_arg7) = m ((c.tc : Thread nD τ).loc main_arg7)
      ∧       r.2.mem ((c.tc : Thread nD τ).loc main_arg8) = m ((c.tc : Thread nD τ).loc main_arg8)
      ∧       r.2.mem ((c.tc : Thread nD τ).loc main_arg9) = m ((c.tc : Thread nD τ).loc main_arg9)
      ∧       r.2.mem ((c.tc : Thread nD τ).loc main_arg10) = m ((c.tc : Thread nD τ).loc main_arg10)) :=
  (θ_run defs _ _).mono (fun r h c => ⟨(h c _ (mem_uc main_arg0 (by decide))).trans (W10_launch m ρ c main_arg0 (by decide) (by decide) (by decide) (by decide) (by decide) (by decide) (by decide) (by decide) (by decide) (by decide)),
      (h c _ (mem_uc main_arg1 (by decide))).trans (W10_launch m ρ c main_arg1 (by decide) (by decide) (by decide) (by decide) (by decide) (by decide) (by decide) (by decide) (by decide) (by decide)),
      (h c _ (mem_uc main_arg2 (by decide))).trans (W10_launch m ρ c main_arg2 (by decide) (by decide) (by decide) (by decide) (by decide) (by decide) (by decide) (by decide) (by decide) (by decide)),
      (h c _ (mem_uc main_arg3 (by decide))).trans (W10_launch m ρ c main_arg3 (by decide) (by decide) (by decide) (by decide) (by decide) (by decide) (by decide) (by decide) (by decide) (by decide)),
      (h c _ (mem_uc main_arg4 (by decide))).trans (W10_launch m ρ c main_arg4 (by decide) (by decide) (by decide) (by decide) (by decide) (by decide) (by decide) (by decide) (by decide) (by decide)),
      (h c _ (mem_uc main_arg5 (by decide))).trans (W10_launch m ρ c main_arg5 (by decide) (by decide) (by decide) (by decide) (by decide) (by decide) (by decide) (by decide) (by decide) (by decide)),
      (h c _ (mem_uc main_arg6 (by decide))).trans (W10_launch m ρ c main_arg6 (by decide) (by decide) (by decide) (by decide) (by decide) (by decide) (by decide) (by decide) (by decide) (by decide)),
      (h c _ (mem_uc main_arg7 (by decide))).trans (W10_launch m ρ c main_arg7 (by decide) (by decide) (by decide) (by decide) (by decide) (by decide) (by decide) (by decide) (by decide) (by decide)),
      (h c _ (mem_uc main_arg8 (by decide))).trans (W10_launch m ρ c main_arg8 (by decide) (by decide) (by decide) (by decide) (by decide) (by decide) (by decide) (by decide) (by decide) (by decide)),
      (h c _ (mem_uc main_arg9 (by decide))).trans (W10_launch m ρ c main_arg9 (by decide) (by decide) (by decide) (by decide) (by decide) (by decide) (by decide) (by decide) (by decide) (by decide)),
      (h c _ (mem_uc main_arg10 (by decide))).trans (W10_launch m ρ c main_arg10 (by decide) (by decide) (by decide) (by decide) (by decide) (by decide) (by decide) (by decide) (by decide) (by decide))⟩)
    (run_all m ρ)

/-! ## The run with its result named -/

/-- Every weakly fair execution of @main terminates, nothing faulting, with the result buffer at the last fold and every
    argument array as launched. -/
theorem run_result : θ_run defs (onTc (τ := τ) (main (F := F))) ⟨m, fun _ => 0, ρ⟩ (fun r => ∀ c : Dev nD,
      r.2.mem ((c.tc : Thread nD τ).loc main_v120) = W10 m ρ c main_v120
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun r h c => ⟨h c _ (mem_uc main_v120 (by decide)),
      (h c _ (mem_uc main_arg0 (by decide))).trans (W10_launch m ρ c main_arg0 (by decide) (by decide) (by decide) (by decide) (by decide) (by decide) (by decide) (by decide) (by decide) (by decide)),
      (h c _ (mem_uc main_arg1 (by decide))).trans (W10_launch m ρ c main_arg1 (by decide) (by decide) (by decide) (by decide) (by decide) (by decide) (by decide) (by decide) (by decide) (by decide)),
      (h c _ (mem_uc main_arg2 (by decide))).trans (W10_launch m ρ c main_arg2 (by decide) (by decide) (by decide) (by decide) (by decide) (by decide) (by decide) (by decide) (by decide) (by decide)),
      (h c _ (mem_uc main_arg3 (by decide))).trans (W10_launch m ρ c main_arg3 (by decide) (by decide) (by decide) (by decide) (by decide) (by decide) (by decide) (by decide) (by decide) (by decide)),
      (h c _ (mem_uc main_arg4 (by decide))).trans (W10_launch m ρ c main_arg4 (by decide) (by decide) (by decide) (by decide) (by decide) (by decide) (by decide) (by decide) (by decide) (by decide)),
      (h c _ (mem_uc main_arg5 (by decide))).trans (W10_launch m ρ c main_arg5 (by decide) (by decide) (by decide) (by decide) (by decide) (by decide) (by decide) (by decide) (by decide) (by decide)),
      (h c _ (mem_uc main_arg6 (by decide))).trans (W10_launch m ρ c main_arg6 (by decide) (by decide) (by decide) (by decide) (by decide) (by decide) (by decide) (by decide) (by decide) (by decide)),
      (h c _ (mem_uc main_arg7 (by decide))).trans (W10_launch m ρ c main_arg7 (by decide) (by decide) (by decide) (by decide) (by decide) (by decide) (by decide) (by decide) (by decide) (by decide)),
      (h c _ (mem_uc main_arg8 (by decide))).trans (W10_launch m ρ c main_arg8 (by decide) (by decide) (by decide) (by decide) (by decide) (by decide) (by decide) (by decide) (by decide) (by decide)),
      (h c _ (mem_uc main_arg9 (by decide))).trans (W10_launch m ρ c main_arg9 (by decide) (by decide) (by decide) (by decide) (by decide) (by decide) (by decide) (by decide) (by decide) (by decide)),
      (h c _ (mem_uc main_arg10 (by decide))).trans (W10_launch m ρ c main_arg10 (by decide) (by decide) (by decide) (by decide) (by decide) (by decide) (by decide) (by decide) (by decide) (by decide))⟩)
    (run_all m ρ)

end Cert.Kernel.Reg

end
-- ==== Proof.FrameKernelIdeal.Region0.lean ====
import proofs.«106212_j60902636257700_1_alg».proof.Proof.Gen.KernelIdeal.Launch
import proofs.«106212_j60902636257700_1_alg».proof.Proof.Gen.KernelIdeal.Skeleton
import proofs.«106212_j60902636257700_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Reg

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ
/-! # Region 0: `cc0__linear_kernel` at the contents `V` the region is entered with

The body multiplies a 10000×6 block of the node features by the whole 6×32 weight matrix (both rounded to bf16 on the way
in, accumulating in f32 from zero) and writes the 10000×32 product block. -/

section
variable (V : (c : Dev nD) → (b : Ref sig .tc) → Buf (Elt F) ((c : Thread nD τ).loc b))

/-- Window `w`'s block at grid point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's staging buffer holds its block at every point, whether the point fetches it or the block index
    has not moved since the fetch: the window is never idle and never clipped, and the body leaves it in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1's staging buffer holds its block at every point, whether the point fetches it or the block index
    has not moved since the fetch: the window is never idle and never clipped, and the body leaves it in place. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-! The body reads each input buffer whole and writes the output buffer whole. -/

abbrev r0_0 : Rect S10000x6 := Rect.unit (s := S10000x6) ![0, 0] S10000x6.size inb_S10000x6_S10000x6_0_0
abbrev r0_1 : Rect S6x32 := Rect.unit (s := S6x32) ![0, 0] S6x32.size inb_S6x32_S6x32_0_0
abbrev r0_2 : Rect S10000x32 := Rect.unit (s := S10000x32) ![0, 0] S10000x32.size inb_S10000x32_S10000x32_0_0

/-- The output buffer after the body, as a function of the input blocks: one store of the payload over the whole buffer. -/
def out0_2 (x0 : Vec F S10000x6 .f32) (x1 : Vec F S6x32 .f32) : Vec F S10000x32 .f32 :=
  View.canon [⟨r0_2, k0_pay1 (View.ld x0 r0_0) (View.ld x1 r0_1)⟩]

/-- The one store covers the buffer. -/
theorem cover0_2 (p0 : Vec F S10000x32 .f32) (y : S10000x32.Idx) :
    ∃ pc ∈ ([⟨r0_2, p0⟩] : List (View.Piece (Elt F) S10000x32 .f32)), y ∈ pc.1.set :=
  View.cover_of_tiled [⟨r0_2, p0⟩] S10000x32.size (by rfl) y

set_option maxHeartbeats 1000000 in
/-- The body on whole staging buffers — the inputs' at contents `x_i`, the output's at anything — runs to the end without a
    fault, leaves the inputs as they were and the output at `out0_2` of them. -/
theorem sound_kernel0 (c : Dev nD) (E : Set ℕ) (i : grid0.Coords) (arg0 : Memref sig .tc .vmem S10000x6 .f32) (harg0 : arg0.IsWhole) (arg1 : Memref sig .tc .vmem S6x32 .f32) (harg1 : arg1.IsWhole) (arg2 : Memref sig .tc .vmem S10000x32 .f32) (harg2 : arg2.IsWhole)
    (x0 : Vec F S10000x6 .f32) (x1 : Vec F S6x32 .f32) (K : PUnit → sProp 𝕄) :
    iprop(owns (c : Thread nD τ) arg0 fullShare x0 ∗ owns (c : Thread nD τ) arg1 fullShare x1 ∗ (∃ d, owns (c : Thread nD τ) arg2 fullShare d)
        ∗ (iprop(owns (c : Thread nD τ) arg0 fullShare x0 ∗ owns (c : Thread nD τ) arg1 fullShare x1 ∗ owns (c : Thread nD τ) arg2 fullShare (out0_2 x0 x1)) -∗ K ⟨⟩))
      ⊢ wp frame (wpE (defs₀ (F := F)) Variants.none c none) E (cc0__linear_kernel i arg0 harg0 arg1 harg1 arg2 harg2) K := by
  simp only [cc0__linear_kernel_eq_skeleton]; unfold cc0__linear_kernel_skel
  unfold owns
  iintro ⟨⟨%f0, %hf0, H0⟩, ⟨%f1, %hf1, H1⟩, ⟨%d2, %f2, -, H2⟩, Hk⟩
  subst hf0
  subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

/-- The pipeline's proof data on core `c`: the arrays as the region finds them; after the body at point `t` each input
    buffer still at its block and the output buffer at `out0_2` of the input blocks; full shares, nothing owed. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-- What the pipeline hands the body at point `t`, window by window, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- and what it must return. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

/-- The body at any grid point: the input buffers hold their blocks, so `sound_kernel0` applies; the invariant and the
    core's dues pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ _ _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body obligation of the pipeline library, at every grid point. -/
theorem body_obligation0 (c : Dev nD) : BodyObligation (dat0 (F := F) V c) (defs₀ (F := F)) Variants.none () Set.univ := fun t => by
  rw [bigSep_W0, bigSep_W0]
  exact sound_body0 V c t

end

end Cert.KernelIdeal.Reg

end
-- ==== Proof.FrameKernelIdeal.Region1.lean ====
import proofs.«106212_j60902636257700_1_alg».proof.Proof.Gen.KernelIdeal.Launch
import proofs.«106212_j60902636257700_1_alg».proof.Proof.Gen.KernelIdeal.Skeleton
import proofs.«106212_j60902636257700_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Reg

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ
/-! # Region 1: `cc1__linear_kernel` at the contents `V` the region is entered with

The body multiplies a 10000×32 block of the first layer's activations by the whole 32×16 weight matrix (both rounded to
bf16 on the way in, accumulating in f32 from zero) and writes the 10000×16 product block. -/

section
variable (V : (c : Dev nD) → (b : Ref sig .tc) → Buf (Elt F) ((c : Thread nD τ).loc b))

/-- Window `w`'s block at grid point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's staging buffer holds its block at every point, whether the point fetches it or the block index
    has not moved since the fetch: the window is never idle and never clipped, and the body leaves it in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's staging buffer holds its block at every point, whether the point fetches it or the block index
    has not moved since the fetch: the window is never idle and never clipped, and the body leaves it in place. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-! The body reads each input buffer whole and writes the output buffer whole. -/

abbrev r1_0 : Rect S10000x32 := Rect.unit (s := S10000x32) ![0, 0] S10000x32.size inb_S10000x32_S10000x32_0_0
abbrev r1_1 : Rect S32x16 := Rect.unit (s := S32x16) ![0, 0] S32x16.size inb_S32x16_S32x16_0_0
abbrev r1_2 : Rect S10000x16 := Rect.unit (s := S10000x16) ![0, 0] S10000x16.size inb_S10000x16_S10000x16_0_0

/-- The output buffer after the body, as a function of the input blocks: one store of the payload over the whole buffer. -/
def out1_2 (x0 : Vec F S10000x32 .f32) (x1 : Vec F S32x16 .f32) : Vec F S10000x16 .f32 :=
  View.canon [⟨r1_2, k1_pay1 (View.ld x0 r1_0) (View.ld x1 r1_1)⟩]

/-- The one store covers the buffer. -/
theorem cover1_2 (p0 : Vec F S10000x16 .f32) (y : S10000x16.Idx) :
    ∃ pc ∈ ([⟨r1_2, p0⟩] : List (View.Piece (Elt F) S10000x16 .f32)), y ∈ pc.1.set :=
  View.cover_of_tiled [⟨r1_2, p0⟩] S10000x16.size (by rfl) y

set_option maxHeartbeats 1000000 in
/-- The body on whole staging buffers — the inputs' at contents `x_i`, the output's at anything — runs to the end without a
    fault, leaves the inputs as they were and the output at `out1_2` of them. -/
theorem sound_kernel1 (c : Dev nD) (E : Set ℕ) (i : grid1.Coords) (arg0 : Memref sig .tc .vmem S10000x32 .f32) (harg0 : arg0.IsWhole) (arg1 : Memref sig .tc .vmem S32x16 .f32) (harg1 : arg1.IsWhole) (arg2 : Memref sig .tc .vmem S10000x16 .f32) (harg2 : arg2.IsWhole)
    (x0 : Vec F S10000x32 .f32) (x1 : Vec F S32x16 .f32) (K : PUnit → sProp 𝕄) :
    iprop(owns (c : Thread nD τ) arg0 fullShare x0 ∗ owns (c : Thread nD τ) arg1 fullShare x1 ∗ (∃ d, owns (c : Thread nD τ) arg2 fullShare d)
        ∗ (iprop(owns (c : Thread nD τ) arg0 fullShare x0 ∗ owns (c : Thread nD τ) arg1 fullShare x1 ∗ owns (c : Thread nD τ) arg2 fullShare (out1_2 x0 x1)) -∗ K ⟨⟩))
      ⊢ wp frame (wpE (defs₀ (F := F)) Variants.none c none) E (cc1__linear_kernel i arg0 harg0 arg1 harg1 arg2 harg2) K := by
  simp only [cc1__linear_kernel_eq_skeleton]; unfold cc1__linear_kernel_skel
  unfold owns
  iintro ⟨⟨%f0, %hf0, H0⟩, ⟨%f1, %hf1, H1⟩, ⟨%d2, %f2, -, H2⟩, Hk⟩
  subst hf0
  subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover1_2 _)

/-- The pipeline's proof data on core `c`: the arrays as the region finds them; after the body at point `t` each input
    buffer still at its block and the output buffer at `out1_2` of the input blocks; full shares, nothing owed. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => out1_2 (iblk1 V c 0 t) (iblk1 V c 1 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = out1_2 (iblk1 V c 0 t) (iblk1 V c 1 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

/-- What the pipeline hands the body at point `t`, window by window, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d)))

/-- and what it must return. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t))

/-- The body at any grid point: the input buffers hold their blocks, so `sound_kernel1` applies; the invariant and the
    core's dues pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).Φ t.succ = (dat1 V c).Φ t.castSucc from rfl,
    show (dat1 V c).owesAt () t.succ = (dat1 V c).owesAt () t.castSucc from rfl,
    after1_0, after1_1, after1_2]
  iintro ⟨HΦ, Ho, ⟨%d0, H0⟩, ⟨%d1, H1⟩, ⟨%d2, H2⟩⟩
  iapply (sound_kernel1 c Set.univ _ _ _ _ _ _ _ (iblk1 V c 0 t) (iblk1 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body obligation of the pipeline library, at every grid point. -/
theorem body_obligation1 (c : Dev nD) : BodyObligation (dat1 (F := F) V c) (defs₀ (F := F)) Variants.none () Set.univ := fun t => by
  rw [bigSep_W1, bigSep_W1]
  exact sound_body1 V c t

end

end Cert.KernelIdeal.Reg

end
-- ==== Proof.FrameKernelIdeal.Region2.lean ====
import proofs.«106212_j60902636257700_1_alg».proof.Proof.Gen.KernelIdeal.Launch
import proofs.«106212_j60902636257700_1_alg».proof.Proof.Gen.KernelIdeal.Skeleton
import proofs.«106212_j60902636257700_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Reg

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ
/-! # Region 2: `cc2__edge_mlp_kernel` at the contents `V` the region is entered with

The body is the edge MLP on a block of 10000 edges: the 10000×40 block of edge inputs times the 40×32 weights, plus the
bias row, clamped below at zero, times the 32×1 weights, plus the scalar bias; it writes the 10000×1 block of edge scores. -/

section
variable (V : (c : Dev nD) → (b : Ref sig .tc) → Buf (Elt F) ((c : Thread nD τ).loc b))

/-- Window `w`'s block at grid point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0's staging buffer holds its block at every point, whether the point fetches it or the block index
    has not moved since the fetch: the window is never idle and never clipped, and the body leaves it in place. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- Input window 1's staging buffer holds its block at every point, whether the point fetches it or the block index
    has not moved since the fetch: the window is never idle and never clipped, and the body leaves it in place. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- Input window 2's staging buffer holds its block at every point, whether the point fetches it or the block index
    has not moved since the fetch: the window is never idle and never clipped, and the body leaves it in place. -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-- Input window 3's staging buffer holds its block at every point, whether the point fetches it or the block index
    has not moved since the fetch: the window is never idle and never clipped, and the body leaves it in place. -/
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)

/-- Input window 4's staging buffer holds its block at every point, whether the point fetches it or the block index
    has not moved since the fetch: the window is never idle and never clipped, and the body leaves it in place. -/
theorem before2_4_of {c : Dev nD} (dat : Dat τ (Elt F) Unit ℕ (UR sig nD τ) ℕ cfg2 c) (hA : dat.A 4 = V c (Pipeline.arrRef spec2 4))
    (hafter : ∀ t, dat.after 4 t = iblk2 V c 4 t) (t : Fin cfg2.N) (d) : dat.before 4 t d = iblk2 V c 4 t :=
  (dat.before_in_eq_fetched 4 rfl (fun _ => rfl) (fun _ _ _ => rfl) (fun t => by rw [hafter]; unfold Dat.blockOf iblk2; rw [hA]; try rfl) t d).trans
    (by unfold Dat.fetched Dat.blockOf iblk2; rw [hA]; try rfl)

/-! The body reads each input buffer whole and writes the output buffer whole. -/

abbrev r2_0 : Rect S10000x40 := Rect.unit (s := S10000x40) ![0, 0] S10000x40.size inb_S10000x40_S10000x40_0_0
abbrev r2_1 : Rect S40x32 := Rect.unit (s := S40x32) ![0, 0] S40x32.size inb_S40x32_S40x32_0_0
abbrev r2_2 : Rect S1x32 := Rect.unit (s := S1x32) ![0, 0] S1x32.size inb_S1x32_S1x32_0_0
abbrev r2_3 : Rect S32x1 := Rect.unit (s := S32x1) ![0, 0] S32x1.size inb_S32x1_S32x1_0_0
abbrev r2_4 : Rect S1x1 := Rect.unit (s := S1x1) ![0, 0] S1x1.size inb_S1x1_S1x1_0_0
abbrev r2_5 : Rect S10000x1 := Rect.unit (s := S10000x1) ![0, 0] S10000x1.size inb_S10000x1_S10000x1_0_0

/-- The output buffer after the body, as a function of the input blocks: one store of the payload over the whole buffer. -/
def out2_5 (x0 : Vec F S10000x40 .f32) (x1 : Vec F S40x32 .f32) (x2 : Vec F S1x32 .f32) (x3 : Vec F S32x1 .f32) (x4 : Vec F S1x1 .f32) : Vec F S10000x1 .f32 :=
  View.canon [⟨r2_5, k2_pay1 (View.ld x0 r2_0) (View.ld x1 r2_1) (View.ld x2 r2_2) (View.ld x3 r2_3) (View.ld x4 r2_4)⟩]

/-- The one store covers the buffer. -/
theorem cover2_5 (p0 : Vec F S10000x1 .f32) (y : S10000x1.Idx) :
    ∃ pc ∈ ([⟨r2_5, p0⟩] : List (View.Piece (Elt F) S10000x1 .f32)), y ∈ pc.1.set :=
  View.cover_of_tiled [⟨r2_5, p0⟩] S10000x1.size (by rfl) y

set_option maxHeartbeats 1000000 in
/-- The body on whole staging buffers — the inputs' at contents `x_i`, the output's at anything — runs to the end without a
    fault, leaves the inputs as they were and the output at `out2_5` of them. -/
theorem sound_kernel2 (c : Dev nD) (E : Set ℕ) (i : grid2.Coords) (arg0 : Memref sig .tc .vmem S10000x40 .f32) (harg0 : arg0.IsWhole) (arg1 : Memref sig .tc .vmem S40x32 .f32) (harg1 : arg1.IsWhole) (arg2 : Memref sig .tc .vmem S1x32 .f32) (harg2 : arg2.IsWhole) (arg3 : Memref sig .tc .vmem S32x1 .f32) (harg3 : arg3.IsWhole) (arg4 : Memref sig .tc .vmem S1x1 .f32) (harg4 : arg4.IsWhole) (arg5 : Memref sig .tc .vmem S10000x1 .f32) (harg5 : arg5.IsWhole)
    (x0 : Vec F S10000x40 .f32) (x1 : Vec F S40x32 .f32) (x2 : Vec F S1x32 .f32) (x3 : Vec F S32x1 .f32) (x4 : Vec F S1x1 .f32) (K : PUnit → sProp 𝕄) :
    iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ (∃ d, owns (c : Thread nD τ) arg5 fullShare d)
        ∗ (iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare (out2_5 x0 x1 x2 x3 x4)) -∗ K ⟨⟩))
      ⊢ wp frame (wpE (defs₀ (F := F)) Variants.none c none) E (cc2__edge_mlp_kernel i arg0 harg0 arg1 harg1 arg2 harg2 arg3 harg3 arg4 harg4 arg5 harg5) K := by
  simp only [cc2__edge_mlp_kernel_eq_skeleton]; unfold cc2__edge_mlp_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0
  subst hf1
  subst hf2
  subst hf3
  subst hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover2_5 _)

/-- The pipeline's proof data on core `c`: the arrays as the region finds them; after the body at point `t` each input
    buffer still at its block and the output buffer at `out2_5` of the input blocks; full shares, nothing owed. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => out2_5 (iblk2 V c 0 t) (iblk2 V c 1 t) (iblk2 V c 2 t) (iblk2 V c 3 t) (iblk2 V c 4 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t = out2_5 (iblk2 V c 0 t) (iblk2 V c 1 t) (iblk2 V c 2 t) (iblk2 V c 3 t) (iblk2 V c 4 t) := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d
theorem before2_4 (c : Dev nD) (t : Fin cfg2.N) (d) : (dat2 V c).before 4 t d = iblk2 V c 4 t :=
  before2_4_of V (dat2 V c) (A_eq2 V c 4) (after2_4 V c) t d

/-- What the pipeline hands the body at point `t`, window by window, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d)))

/-- and what it must return. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t)
    ∗ owns (c : Thread nD τ) (st2_5 t) fullShare ((dat2 V c).after 5 t))

/-- The body at any grid point: the input buffers hold their blocks, so `sound_kernel2` applies; the invariant and the
    core's dues pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4]
  rw [show (dat2 V c).Φ t.succ = (dat2 V c).Φ t.castSucc from rfl,
    show (dat2 V c).owesAt () t.succ = (dat2 V c).owesAt () t.castSucc from rfl,
    after2_0, after2_1, after2_2, after2_3, after2_4, after2_5]
  iintro ⟨HΦ, Ho, ⟨%d0, H0⟩, ⟨%d1, H1⟩, ⟨%d2, H2⟩, ⟨%d3, H3⟩, ⟨%d4, H4⟩, ⟨%d5, H5⟩⟩
  iapply (sound_kernel2 c Set.univ _ _ _ _ _ _ _ _ _ _ _ _ _ (iblk2 V c 0 t) (iblk2 V c 1 t) (iblk2 V c 2 t) (iblk2 V c 3 t) (iblk2 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The body obligation of the pipeline library, at every grid point. -/
theorem body_obligation2 (c : Dev nD) : BodyObligation (dat2 (F := F) V c) (defs₀ (F := F)) Variants.none () Set.univ := fun t => by
  rw [bigSep_W2, bigSep_W2]
  exact sound_body2 V c t

end

end Cert.KernelIdeal.Reg

end
-- ==== Proof.FrameKernelIdeal.Run.lean ====
import proofs.«106212_j60902636257700_1_alg».proof.Proof.Gen.KernelIdeal.Launch
import proofs.«106212_j60902636257700_1_alg».proof.Proof.Gen.KernelIdeal.Skeleton
import proofs.«106212_j60902636257700_1_alg».proof.Proof.Gen.KernelIdeal.Points
import proofs.«106212_j60902636257700_1_alg».proof.Proof.Gen.KernelIdeal.Regions
import proofs.«106212_j60902636257700_1_alg».proof.Proof.FrameKernelIdeal.Region0
import proofs.«106212_j60902636257700_1_alg».proof.Proof.FrameKernelIdeal.Region1
import proofs.«106212_j60902636257700_1_alg».proof.Proof.FrameKernelIdeal.Region2
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Reg

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-! # The whole run of @main: ten segments — host stretches and the three kernel regions — from the launch to the return

The contents of every unscoped buffer at each segment boundary are a fold from the launch memory: a host stretch applies its
operations; a region leaves its output array at what its grid points wrote back and every other buffer as it found it. The run
ends with every unscoped buffer at the last fold, `W10`. -/

variable (m : (ℓ : Loc nD τ sig) → Buf (Elt F) ℓ) (ρ : Dev nD → PrngReg)

/-- Core `c`'s buffers at launch. -/
abbrev W0 : Dev nD → Valuation τ sig (Elt F) := fun c b => (s₀ m ρ).mem ((c : Dev nD), b)
/-- After the first host stretch (the degrees and their inverse square roots): region 0's entry. -/
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b

/-- At region 0's exit: its arrays at what the pipeline leaves (an input's as entered, the output's at its blocks'
    write-backs), every other buffer as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- After the first aggregation and its bias. -/
abbrev W3 : Dev nD → Valuation τ sig (Elt F) := fun c => StableHlo.after hostOps1 (W2 m ρ c)
/-- After the first clamp at zero: region 1's entry. -/
abbrev W4 : Dev nD → Valuation τ sig (Elt F) := fun c => StableHlo.after hostOps1_1 (W3 m ρ c)
abbrev V4 : (c : Dev nD) → (b : Ref sig .tc) → Buf (Elt F) ((c : Thread nD τ).loc b) := fun c b => W4 m ρ c b

/-- At region 1's exit: its arrays at what the pipeline leaves (an input's as entered, the output's at its blocks'
    write-backs), every other buffer as entered. -/
def W5 (c : Dev nD) : Valuation τ sig (Elt F) :=
  Pipeline.withArrays spec1 c (W4 m ρ c) fun w => (dat1 (V4 m ρ) c).arrAt w cfg1.N
theorem W5_arr (c : Dev nD) (w : Fin cfg1.W) :
    W5 m ρ c (Proc.devRef .tc (Pipeline.arrRef spec1 w)) = (dat1 (V4 m ρ) c).arrAt w cfg1.N := by
  unfold W5; exact Pipeline.withArrays_arr spec1 launch1.win.arr_inj c _ _ w
theorem W5_of_ne (c : Dev nD) (b : Ref sig .tc) (hb : ∀ w, Pipeline.arrRef spec1 w ≠ b) :
    W5 m ρ c (Proc.devRef .tc b) = W4 m ρ c (Proc.devRef .tc b) := by
  unfold W5; exact Pipeline.withArrays_of_ne spec1 c _ _ b hb
abbrev V5 : (c : Dev nD) → (b : Ref sig .tc) → Buf (Elt F) ((c : Thread nD τ).loc b) := fun c b => W5 m ρ c b
theorem hF1 (c : Dev nD) (w : Fin cfg1.W) : (dat1 (V4 m ρ) c).arrAt w cfg1.N = V5 m ρ c (Pipeline.arrRef spec1 w) :=
  (W5_arr m ρ c w).symm
theorem hrest1 (c : Dev nD) : ∀ b, b ∉ Finset.univ.image (Pipeline.arrRef spec1) → V5 m ρ c b = V4 m ρ c b :=
  fun b hb => W5_of_ne m ρ c b fun w e => hb (Finset.mem_image.mpr ⟨w, Finset.mem_univ _, e⟩)

/-- After the second aggregation and its bias. -/
abbrev W6 : Dev nD → Valuation τ sig (Elt F) := fun c => StableHlo.after hostOps2 (W5 m ρ c)
/-- After the second clamp at zero. -/
abbrev W7 : Dev nD → Valuation τ sig (Elt F) := fun c => StableHlo.after hostOps2_1 (W6 m ρ c)
/-- After the edge inputs are gathered and joined: region 2's entry. -/
abbrev W8 : Dev nD → Valuation τ sig (Elt F) := fun c => StableHlo.after hostOps2_2 (W7 m ρ c)
abbrev V8 : (c : Dev nD) → (b : Ref sig .tc) → Buf (Elt F) ((c : Thread nD τ).loc b) := fun c b => W8 m ρ c b

/-- At region 2's exit: its arrays at what the pipeline leaves (an input's as entered, the output's at its blocks'
    write-backs), every other buffer as entered. -/
def W9 (c : Dev nD) : Valuation τ sig (Elt F) :=
  Pipeline.withArrays spec2 c (W8 m ρ c) fun w => (dat2 (V8 m ρ) c).arrAt w cfg2.N
theorem W9_arr (c : Dev nD) (w : Fin cfg2.W) :
    W9 m ρ c (Proc.devRef .tc (Pipeline.arrRef spec2 w)) = (dat2 (V8 m ρ) c).arrAt w cfg2.N := by
  unfold W9; exact Pipeline.withArrays_arr spec2 launch2.win.arr_inj c _ _ w
theorem W9_of_ne (c : Dev nD) (b : Ref sig .tc) (hb : ∀ w, Pipeline.arrRef spec2 w ≠ b) :
    W9 m ρ c (Proc.devRef .tc b) = W8 m ρ c (Proc.devRef .tc b) := by
  unfold W9; exact Pipeline.withArrays_of_ne spec2 c _ _ b hb
abbrev V9 : (c : Dev nD) → (b : Ref sig .tc) → Buf (Elt F) ((c : Thread nD τ).loc b) := fun c b => W9 m ρ c b
theorem hF2 (c : Dev nD) (w : Fin cfg2.W) : (dat2 (V8 m ρ) c).arrAt w cfg2.N = V9 m ρ c (Pipeline.arrRef spec2 w) :=
  (W9_arr m ρ c w).symm
theorem hrest2 (c : Dev nD) : ∀ b, b ∉ Finset.univ.image (Pipeline.arrRef spec2) → V9 m ρ c b = V8 m ρ c b :=
  fun b hb => W9_of_ne m ρ c b fun w e => hb (Finset.mem_image.mpr ⟨w, Finset.mem_univ _, e⟩)

/-- After the last host stretch (the result's reshape): the contents the run ends with. -/
abbrev W10 : Dev nD → Valuation τ sig (Elt F) := fun c => StableHlo.after hostOps3 (W9 m ρ c)

/-! ## The proof data family and the thread state -/

/-- No pipeline has a prefetched table. -/
abbrev padm : (p : Fin 3) → (pcfgs (F := F) p).Adm := fun p => (cfgs p).toPCfg_adm
/-- Every pipeline's proof data, each at its region's entry contents. -/
def pdatsH : (p : Fin 3) → (c : Dev nD) → Dat τ (Elt F) Unit ℕ (UR sig nD τ) ℕ (Pipeline.pin (pcfgs (F := F)) padm p) c
  | ⟨0, _⟩ => fun c => dat0 (V1 m ρ) c
  | ⟨1, _⟩ => fun c => dat1 (V4 m ρ) c
  | ⟨2, _⟩ => fun c => dat2 (V8 m ρ) c
abbrev 𝒱H : Variants := Variants.none
abbrev LH : GSem nD τ sig → Finset Unit := fun _ => ∅
abbrev lvH : GSem nD τ sig → Unit → ℕ := fun _ _ => 0
/-- What rides beside the buffers through every segment: the generator register at some state, and nothing owed. -/
abbrev Rst (c : Dev nD) : sProp 𝕄 := iprop((∃ r, prngReg c r) ∗ ∃ W, owes (c : Thread nD τ) (0 : CellTallies nD τ sig Unit) W)
/-- A host stretch as a segment, from the contents `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱H LH lvH :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W Rst

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without its dues: every unscoped buffer at `W10`, the generator register at some state. -/
abbrev TH (c : Dev nD) : sProp 𝕄 := iprop(StableHlo.held (c : Thread nD τ) (Pipeline.ucRefs τ sig) (W10 m ρ c) ∗ ∃ r, prngReg c r)

/-! ## The regions as segments -/

-- unifying a library lemma stated over a pinned configuration with the printed one needs definitions in types unfolded
set_option backward.isDefEq.respectTransparency.types false in
/-- Region 0 as a segment over the thread state "every unscoped buffer at the boundary's contents, the generator register at
    some state, nothing owed": entered at `W1`, left at `W2`. Its arrays are split out of the unscoped buffers at entry
    and put back at what the write-backs leave at exit. -/
def reg0 : Pipeline.RegionSeg (pcfgs (F := F)) padm (pdatsH m ρ) () defs₀ 𝒱H LH lvH 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ LH lvH 0 fun _ _ => rfl
  pre c := iprop(StableHlo.held (c : Thread nD τ) (Pipeline.ucRefs τ sig) (W1 m ρ c) ∗ Rst c)
  post c := iprop(StableHlo.held (c : Thread nD τ) (Pipeline.ucRefs τ sig) (W2 m ρ c) ∗ Rst c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) padm (pdatsH m ρ) launch0.win launch0.arr_whole c
      ((pdatsH m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdatsH m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdatsH m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) padm (Ix := Unit) (Name := ℕ) (U := UR sig nD τ) (Lvl := ℕ)
      launch0.win launch0.arr_whole c (pdatsH m ρ) ((pdatsH m ρ 0 c).share_full fun _ => rfl)
      (V1 m ρ c) (V2 m ρ c) ((pdatsH m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- unifying a library lemma stated over a pinned configuration with the printed one needs definitions in types unfolded
set_option backward.isDefEq.respectTransparency.types false in
/-- Region 1 as a segment over the thread state "every unscoped buffer at the boundary's contents, the generator register at
    some state, nothing owed": entered at `W4`, left at `W5`. Its arrays are split out of the unscoped buffers at entry
    and put back at what the write-backs leave at exit. -/
def reg1 : Pipeline.RegionSeg (pcfgs (F := F)) padm (pdatsH m ρ) () defs₀ 𝒱H LH lvH 1 where
  win := launch1.win.to₀
  block_pos := launch1.block_pos
  stage_whole := launch1.stage_whole
  K := PEmpty
  osem k := k.elim
  ho := Pipeline.OwnSemFacts.none _
  hbody c := (body_obligation1 (V4 m ρ) c).loose
  hwaits := Pipeline.hwaits_of_owed_zero _ _ _ _ LH lvH 1 fun _ _ => rfl
  pre c := iprop(StableHlo.held (c : Thread nD τ) (Pipeline.ucRefs τ sig) (W4 m ρ c) ∗ Rst c)
  post c := iprop(StableHlo.held (c : Thread nD τ) (Pipeline.ucRefs τ sig) (W5 m ρ c) ∗ Rst c)
  X c := iprop(∃ r, prngReg c r)
  Y c := iprop(∃ r, prngReg c r)
  Z c := Pipeline.unscopedRest (Ix := Unit) (Name := ℕ) (U := UR sig nD τ) (Lvl := ℕ) spec1 c (V4 m ρ c)
  hentry c := by
    rw [Pipeline.ownSems0_none]
    have hsplit := Pipeline.arrays_of_unscopedBufs (p := 1) (pcfgs (F := F)) padm (pdatsH m ρ) launch1.win launch1.arr_whole c
      ((pdatsH m ρ 1 c).share_full fun _ => rfl) (V4 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdatsH m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdatsH m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) padm (Ix := Unit) (Name := ℕ) (U := UR sig nD τ) (Lvl := ℕ)
      launch1.win launch1.arr_whole c (pdatsH m ρ) ((pdatsH m ρ 1 c).share_full fun _ => rfl)
      (V4 m ρ c) (V5 m ρ c) ((pdatsH m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- unifying a library lemma stated over a pinned configuration with the printed one needs definitions in types unfolded
set_option backward.isDefEq.respectTransparency.types false in
/-- Region 2 as a segment over the thread state "every unscoped buffer at the boundary's contents, the generator register at
    some state, nothing owed": entered at `W8`, left at `W9`. Its arrays are split out of the unscoped buffers at entry
    and put back at what the write-backs leave at exit. -/
def reg2 : Pipeline.RegionSeg (pcfgs (F := F)) padm (pdatsH m ρ) () defs₀ 𝒱H LH lvH 2 where
  win := launch2.win.to₀
  block_pos := launch2.block_pos
  stage_whole := launch2.stage_whole
  K := PEmpty
  osem k := k.elim
  ho := Pipeline.OwnSemFacts.none _
  hbody c := (body_obligation2 (V8 m ρ) c).loose
  hwaits := Pipeline.hwaits_of_owed_zero _ _ _ _ LH lvH 2 fun _ _ => rfl
  pre c := iprop(StableHlo.held (c : Thread nD τ) (Pipeline.ucRefs τ sig) (W8 m ρ c) ∗ Rst c)
  post c := iprop(StableHlo.held (c : Thread nD τ) (Pipeline.ucRefs τ sig) (W9 m ρ c) ∗ Rst c)
  X c := iprop(∃ r, prngReg c r)
  Y c := iprop(∃ r, prngReg c r)
  Z c := Pipeline.unscopedRest (Ix := Unit) (Name := ℕ) (U := UR sig nD τ) (Lvl := ℕ) spec2 c (V8 m ρ c)
  hentry c := by
    rw [Pipeline.ownSems0_none]
    have hsplit := Pipeline.arrays_of_unscopedBufs (p := 2) (pcfgs (F := F)) padm (pdatsH m ρ) launch2.win launch2.arr_whole c
      ((pdatsH m ρ 2 c).share_full fun _ => rfl) (V8 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdatsH m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdatsH m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) padm (Ix := Unit) (Name := ℕ) (U := UR sig nD τ) (Lvl := ℕ)
      launch2.win launch2.arr_whole c (pdatsH m ρ) ((pdatsH m ρ 2 c).share_full fun _ => rfl)
      (V8 m ρ c) (V9 m ρ c) ((pdatsH m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

abbrev segsH : List (Pipeline.Seg (pcfgs (F := F)) padm (pdatsH m ρ) () defs₀ 𝒱H LH lvH) :=
  [ .host (hseg hostOps0 hostOps0_sub hostOps0_fresh (W0 m ρ)),
    .region (reg0 m ρ),
    .host (hseg hostOps1 hostOps1_sub hostOps1_fresh (W2 m ρ)),
    .host (hseg hostOps1_1 hostOps1_1_sub hostOps1_1_fresh (W3 m ρ)),
    .region (reg1 m ρ),
    .host (hseg hostOps2 hostOps2_sub hostOps2_fresh (W5 m ρ)),
    .host (hseg hostOps2_1 hostOps2_1_sub hostOps2_1_fresh (W6 m ρ)),
    .host (hseg hostOps2_2 hostOps2_2_sub hostOps2_2_fresh (W7 m ρ)),
    .region (reg2 m ρ),
    .host (hseg hostOps3 hostOps3_sub hostOps3_fresh (W9 m ρ)) ]

theorem main_run (c : Dev nD) : main (F := F) c = Pipeline.Seg.run (segsH m ρ) := (main_chain c).trans (by chain_rfl)

set_option backward.isDefEq.respectTransparency.types false in
/-- THE RUN. From any memory with zero counters, every weakly fair execution of @main on the TensorCore terminates, nothing
    faulting, and in every final state each unscoped buffer holds the last fold `W10`. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W10 m ρ c b) :=
  Pipeline.θ_run_regions_kit (pcfgs (F := F)) padm (pdatsH m ρ) () cellOf_inj emb₁ defs₀ 𝒱H LH lvH m ρ main (segsH m ρ)
    (fun c Q => by rw [main_run m ρ c])
    (by simp only [segsH, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ Rst c)) (Tₙ := TH m ρ)
    (hch := ⟨fun _ => .rfl, fun _ => .rfl, fun _ => .rfl, fun _ => .rfl, fun _ => .rfl, fun _ => .rfl, fun _ => .rfl, fun _ => .rfl,
      fun _ => .rfl, fun _ => .rfl, fun c => by
        show iprop(StableHlo.held (c : Thread nD τ) (Pipeline.ucRefs τ sig) (W10 m ρ c) ∗ Rst c)
          ⊢ iprop(TH m ρ c ∗ ∃ W, owes (c : Thread nD τ) (0 : CellTallies nD τ sig Unit) W)
        iintro ⟨Hh, Hp, HO⟩
        isplitl [Hh Hp]
        · isplitl [Hh]; · iexact Hh
          iexact Hp
        iexact HO⟩)
    (hinit := by
      refine Pipeline.initEach LH lvH fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W10 m ρ c b)
    (hfin := fun c s' => by
      iintro ⟨⟨Hh, -⟩, HSI⟩
      unfold StableHlo.held
      imodintro
      iapply (pointsTo_read_all (Pipeline.ucRefs τ sig) (fun b => (((c : Thread nD τ)).1, b)) (W10 m ρ c) s')
      isplitl [Hh] <;> iassumption)
    (hQ := fun s h => h)

/-! ## What each segment leaves alone -/

theorem W1_of (c : Dev nD) (r : Ref sig .tc) (h : r ∉ hostOps0_W) : W1 m ρ c r = W0 m ρ c r :=
  StableHlo.after_of_writes_sub hostOps0 _ hostOps0_writes h
theorem W3_of (c : Dev nD) (r : Ref sig .tc) (h : r ∉ hostOps1_W) : W3 m ρ c r = W2 m ρ c r :=
  StableHlo.after_of_writes_sub hostOps1 _ hostOps1_writes h
theorem W4_of (c : Dev nD) (r : Ref sig .tc) (h : r ∉ hostOps1_1_W) : W4 m ρ c r = W3 m ρ c r :=
  StableHlo.after_of_writes_sub hostOps1_1 _ hostOps1_1_writes h
theorem W6_of (c : Dev nD) (r : Ref sig .tc) (h : r ∉ hostOps2_W) : W6 m ρ c r = W5 m ρ c r :=
  StableHlo.after_of_writes_sub hostOps2 _ hostOps2_writes h
theorem W7_of (c : Dev nD) (r : Ref sig .tc) (h : r ∉ hostOps2_1_W) : W7 m ρ c r = W6 m ρ c r :=
  StableHlo.after_of_writes_sub hostOps2_1 _ hostOps2_1_writes h
theorem W8_of (c : Dev nD) (r : Ref sig .tc) (h : r ∉ hostOps2_2_W) : W8 m ρ c r = W7 m ρ c r :=
  StableHlo.after_of_writes_sub hostOps2_2 _ hostOps2_2_writes h
theorem W10_of (c : Dev nD) (r : Ref sig .tc) (h : r ∉ hostOps3_W) : W10 m ρ c r = W9 m ρ c r :=
  StableHlo.after_of_writes_sub hostOps3 _ hostOps3_writes h

/-- Region 0 changes its output array only: an operand array is read through an input window and keeps its contents, and a
    buffer that is none of the region's arrays is not touched. -/
theorem W2_keep (c : Dev nD) (b : Ref sig .tc) (hb : b ≠ main_v16) : W2 m ρ c b = W1 m ρ c b := by
  by_cases h0 : b = main_arg0
  · subst h0; exact (W2_arr m ρ c 0).trans (((dat0 (V1 m ρ) c).arrAt_in 0 rfl _).trans (A_eq0 (V1 m ρ) c 0))
  by_cases h1 : b = main_arg3
  · subst h1; exact (W2_arr m ρ c 1).trans (((dat0 (V1 m ρ) c).arrAt_in 1 rfl _).trans (A_eq0 (V1 m ρ) c 1))
  refine W2_of_ne m ρ c b fun w e => ?_
  match w with
  | ⟨0, _⟩ => exact h0 e.symm
  | ⟨1, _⟩ => exact h1 e.symm
  | ⟨2, _⟩ => exact hb e.symm

/-- Region 1 changes its output array only: an operand array is read through an input window and keeps its contents, and a
    buffer that is none of the region's arrays is not touched. -/
theorem W5_keep (c : Dev nD) (b : Ref sig .tc) (hb : b ≠ main_v59) : W5 m ρ c b = W4 m ρ c b := by
  by_cases h0 : b = main_v58
  · subst h0; exact (W5_arr m ρ c 0).trans (((dat1 (V4 m ρ) c).arrAt_in 0 rfl _).trans (A_eq1 (V4 m ρ) c 0))
  by_cases h1 : b = main_arg5
  · subst h1; exact (W5_arr m ρ c 1).trans (((dat1 (V4 m ρ) c).arrAt_in 1 rfl _).trans (A_eq1 (V4 m ρ) c 1))
  refine W5_of_ne m ρ c b fun w e => ?_
  match w with
  | ⟨0, _⟩ => exact h0 e.symm
  | ⟨1, _⟩ => exact h1 e.symm
  | ⟨2, _⟩ => exact hb e.symm

/-- Region 2 changes its output array only: an operand array is read through an input window and keeps its contents, and a
    buffer that is none of the region's arrays is not touched. -/
theorem W9_keep (c : Dev nD) (b : Ref sig .tc) (hb : b ≠ main_v119) : W9 m ρ c b = W8 m ρ c b := by
  by_cases h0 : b = main_v116
  · subst h0; exact (W9_arr m ρ c 0).trans (((dat2 (V8 m ρ) c).arrAt_in 0 rfl _).trans (A_eq2 (V8 m ρ) c 0))
  by_cases h1 : b = main_arg7
  · subst h1; exact (W9_arr m ρ c 1).trans (((dat2 (V8 m ρ) c).arrAt_in 1 rfl _).trans (A_eq2 (V8 m ρ) c 1))
  by_cases h2 : b = main_v117
  · subst h2; exact (W9_arr m ρ c 2).trans (((dat2 (V8 m ρ) c).arrAt_in 2 rfl _).trans (A_eq2 (V8 m ρ) c 2))
  by_cases h3 : b = main_arg9
  · subst h3; exact (W9_arr m ρ c 3).trans (((dat2 (V8 m ρ) c).arrAt_in 3 rfl _).trans (A_eq2 (V8 m ρ) c 3))
  by_cases h4 : b = main_v118
  · subst h4; exact (W9_arr m ρ c 4).trans (((dat2 (V8 m ρ) c).arrAt_in 4 rfl _).trans (A_eq2 (V8 m ρ) c 4))
  refine W9_of_ne m ρ c b fun w e => ?_
  match w with
  | ⟨0, _⟩ => exact h0 e.symm
  | ⟨1, _⟩ => exact h1 e.symm
  | ⟨2, _⟩ => exact h2 e.symm
  | ⟨3, _⟩ => exact h3 e.symm
  | ⟨4, _⟩ => exact h4 e.symm
  | ⟨5, _⟩ => exact hb e.symm

/-- A buffer no segment writes ends the run as launched. -/
theorem W10_launch (c : Dev nD) (b : Ref sig .tc) (h0 : b ∉ hostOps0_W) (h1 : b ≠ main_v16) (h2 : b ∉ hostOps1_W) (h3 : b ∉ hostOps1_1_W)
    (h4 : b ≠ main_v59) (h5 : b ∉ hostOps2_W) (h6 : b ∉ hostOps2_1_W) (h7 : b ∉ hostOps2_2_W) (h8 : b ≠ main_v119) (h9 : b ∉ hostOps3_W) :
    W10 m ρ c b = m ((c : Thread nD τ).loc b) :=
  (W10_of m ρ c b h9).trans <| (W9_keep m ρ c b h8).trans <| (W8_of m ρ c b h7).trans <| (W7_of m ρ c b h6).trans <|
    (W6_of m ρ c b h5).trans <| (W5_keep m ρ c b h4).trans <| (W4_of m ρ c b h3).trans <| (W3_of m ρ c b h2).trans <|
    (W2_keep m ρ c b h1).trans <| (W1_of m ρ c b h0).trans rfl

/-! ## The frame -/

/-- Every weakly fair execution of @main terminates, nothing faulting, with every argument array as launched: no host operation
    writes an argument and a region only reads one. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧       r.2.mem ((c.tc : Thread nD τ).loc main_arg1) = m ((c.tc : Thread nD τ).loc main_arg1)
      ∧       r.2.mem ((c.tc : Thread nD τ).loc main_arg2) = m ((c.tc : Thread nD τ).loc main_arg2)
      ∧       r.2.mem ((c.tc : Thread nD τ).loc main_arg3) = m ((c.tc : Thread nD τ).loc main_arg3)
      ∧       r.2.mem ((c.tc : Thread nD τ).loc main_arg4) = m ((c.tc : Thread nD τ).loc main_arg4)
      ∧       r.2.mem ((c.tc : Thread nD τ).loc main_arg5) = m ((c.tc : Thread nD τ).loc main_arg5)
      ∧       r.2.mem ((c.tc : Thread nD τ).loc main_arg6) = m ((c.tc : Thread nD τ).loc main_arg6)
      ∧       r.2.mem ((c.tc : Thread nD τ).loc main_arg7) = m ((c.tc : Thread nD τ).loc main_arg7)
      ∧       r.2.mem ((c.tc : Thread nD τ).loc main_arg8) = m ((c.tc : Thread nD τ).loc main_arg8)
      ∧       r.2.mem ((c.tc : Thread nD τ).loc main_arg9) = m ((c.tc : Thread nD τ).loc main_arg9)
      ∧       r.2.mem ((c.tc : Thread nD τ).loc main_arg10) = m ((c.tc : Thread nD τ).loc main_arg10)) :=
  (θ_run defs _ _).mono (fun r h c => ⟨(h c _ (mem_uc main_arg0 (by decide))).trans (W10_launch m ρ c main_arg0 (by decide) (by decide) (by decide) (by decide) (by decide) (by decide) (by decide) (by decide) (by decide) (by decide)),
      (h c _ (mem_uc main_arg1 (by decide))).trans (W10_launch m ρ c main_arg1 (by decide) (by decide) (by decide) (by decide) (by decide) (by decide) (by decide) (by decide) (by decide) (by decide)),
      (h c _ (mem_uc main_arg2 (by decide))).trans (W10_launch m ρ c main_arg2 (by decide) (by decide) (by decide) (by decide) (by decide) (by decide) (by decide) (by decide) (by decide) (by decide)),
      (h c _ (mem_uc main_arg3 (by decide))).trans (W10_launch m ρ c main_arg3 (by decide) (by decide) (by decide) (by decide) (by decide) (by decide) (by decide) (by decide) (by decide) (by decide)),
      (h c _ (mem_uc main_arg4 (by decide))).trans (W10_launch m ρ c main_arg4 (by decide) (by decide) (by decide) (by decide) (by decide) (by decide) (by decide) (by decide) (by decide) (by decide)),
      (h c _ (mem_uc main_arg5 (by decide))).trans (W10_launch m ρ c main_arg5 (by decide) (by decide) (by decide) (by decide) (by decide) (by decide) (by decide) (by decide) (by decide) (by decide)),
      (h c _ (mem_uc main_arg6 (by decide))).trans (W10_launch m ρ c main_arg6 (by decide) (by decide) (by decide) (by decide) (by decide) (by decide) (by decide) (by decide) (by decide) (by decide)),
      (h c _ (mem_uc main_arg7 (by decide))).trans (W10_launch m ρ c main_arg7 (by decide) (by decide) (by decide) (by decide) (by decide) (by decide) (by decide) (by decide) (by decide) (by decide)),
      (h c _ (mem_uc main_arg8 (by decide))).trans (W10_launch m ρ c main_arg8 (by decide) (by decide) (by decide) (by decide) (by decide) (by decide) (by decide) (by decide) (by decide) (by decide)),
      (h c _ (mem_uc main_arg9 (by decide))).trans (W10_launch m ρ c main_arg9 (by decide) (by decide) (by decide) (by decide) (by decide) (by decide) (by decide) (by decide) (by decide) (by decide)),
      (h c _ (mem_uc main_arg10 (by decide))).trans (W10_launch m ρ c main_arg10 (by decide) (by decide) (by decide) (by decide) (by decide) (by decide) (by decide) (by decide) (by decide) (by decide))⟩)
    (run_all m ρ)

/-! ## The run with its result named -/

/-- Every weakly fair execution of @main terminates, nothing faulting, with the result buffer at the last fold and every
    argument array as launched. -/
theorem run_result : θ_run defs (onTc (τ := τ) (main (F := F))) ⟨m, fun _ => 0, ρ⟩ (fun r => ∀ c : Dev nD,
      r.2.mem ((c.tc : Thread nD τ).loc main_v120) = W10 m ρ c main_v120
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun r h c => ⟨h c _ (mem_uc main_v120 (by decide)),
      (h c _ (mem_uc main_arg0 (by decide))).trans (W10_launch m ρ c main_arg0 (by decide) (by decide) (by decide) (by decide) (by decide) (by decide) (by decide) (by decide) (by decide) (by decide)),
      (h c _ (mem_uc main_arg1 (by decide))).trans (W10_launch m ρ c main_arg1 (by decide) (by decide) (by decide) (by decide) (by decide) (by decide) (by decide) (by decide) (by decide) (by decide)),
      (h c _ (mem_uc main_arg2 (by decide))).trans (W10_launch m ρ c main_arg2 (by decide) (by decide) (by decide) (by decide) (by decide) (by decide) (by decide) (by decide) (by decide) (by decide)),
      (h c _ (mem_uc main_arg3 (by decide))).trans (W10_launch m ρ c main_arg3 (by decide) (by decide) (by decide) (by decide) (by decide) (by decide) (by decide) (by decide) (by decide) (by decide)),
      (h c _ (mem_uc main_arg4 (by decide))).trans (W10_launch m ρ c main_arg4 (by decide) (by decide) (by decide) (by decide) (by decide) (by decide) (by decide) (by decide) (by decide) (by decide)),
      (h c _ (mem_uc main_arg5 (by decide))).trans (W10_launch m ρ c main_arg5 (by decide) (by decide) (by decide) (by decide) (by decide) (by decide) (by decide) (by decide) (by decide) (by decide)),
      (h c _ (mem_uc main_arg6 (by decide))).trans (W10_launch m ρ c main_arg6 (by decide) (by decide) (by decide) (by decide) (by decide) (by decide) (by decide) (by decide) (by decide) (by decide)),
      (h c _ (mem_uc main_arg7 (by decide))).trans (W10_launch m ρ c main_arg7 (by decide) (by decide) (by decide) (by decide) (by decide) (by decide) (by decide) (by decide) (by decide) (by decide)),
      (h c _ (mem_uc main_arg8 (by decide))).trans (W10_launch m ρ c main_arg8 (by decide) (by decide) (by decide) (by decide) (by decide) (by decide) (by decide) (by decide) (by decide) (by decide)),
      (h c _ (mem_uc main_arg9 (by decide))).trans (W10_launch m ρ c main_arg9 (by decide) (by decide) (by decide) (by decide) (by decide) (by decide) (by decide) (by decide) (by decide) (by decide)),
      (h c _ (mem_uc main_arg10 (by decide))).trans (W10_launch m ρ c main_arg10 (by decide) (by decide) (by decide) (by decide) (by decide) (by decide) (by decide) (by decide) (by decide) (by decide))⟩)
    (run_all m ρ)

end Cert.KernelIdeal.Reg

end
-- ==== Proof.LibPlainDot.lean ====
/-
  A plain matrix product read at an entry, at the ideal instance.

  For dimension numbers that contract the left operand's columns with the right operand's rows and have no batch
  axis (`DotDims.plain m k n`), both the kernel's product into a zero accumulator and the host's `dot_general` are,
  at entry `(p, j)`, the sum over `q < k` of `l (p, q) · r (q, j)` on the extended reals.  Stated for any record
  equal to the plain one, so that each printed record (a `def` of its own) can be cited by `rfl`.
-/
import Idealize.ShloMosaic.Lib.ValueIdx
import Idealize.ShloMosaic.PureOps.Ideal.Laws

noncomputable section

namespace Cert.PlainDot

open Idealize.ShloMosaic Idealize.ShloMosaic.ValueIdx

variable {m k n : Nat} {φ₁ φ₂ : FTy}

/-- The sum over the one contraction axis of a plain product, re-indexed by `Fin k`, with the operand indices at an
    output entry `(p, j)` written by coordinates. -/
theorem sum_plain (l : (⟨2, ![m, k]⟩ : Shape).Idx → EReal) (r : (⟨2, ![k, n]⟩ : Shape).Idx → EReal) (p : Fin m) (j : Fin n) :
    (∑ q : (DotDims.plain m k n).contr.Idx, l ((DotDims.plain m k n).lhsIdx (ix2 p j) q) * r ((DotDims.plain m k n).rhsIdx (ix2 p j) q))
      = ∑ q : Fin k, l (ix2 p q) * r (ix2 q j) := by
  rw [← Equiv.sum_comp (contrEquiv1 (DotDims.plain m k n) k rfl rfl).symm]
  refine Finset.sum_congr rfl fun q _ => ?_
  have hq := contrEquiv1_symm_val (DotDims.plain m k n) k rfl rfl q
  have el : (DotDims.plain m k n).lhsIdx (ix2 p j) ((contrEquiv1 (DotDims.plain m k n) k rfl rfl).symm q) = ix2 p q :=
    funext fun a => Fin.ext (by
      match a with
      | ⟨0, _⟩ => rfl
      | ⟨1, _⟩ => exact ((DotDims.plain m k n).lhsIdx_val_of_single rfl _ _).trans hq)
  have er : (DotDims.plain m k n).rhsIdx (ix2 p j) ((contrEquiv1 (DotDims.plain m k n) k rfl rfl).symm q) = ix2 q j :=
    funext fun a => Fin.ext (by
      match a with
      | ⟨0, _⟩ => exact ((DotDims.plain m k n).rhsIdx_val_of_single rfl _ _).trans hq
      | ⟨1, _⟩ => rfl)
  rw [el, er]

/-- The kernel's product into the zero splat, at entry `(p, j)`. -/
theorem matmul_zero_ix2 (D : DotDims ⟨2, ![m, k]⟩ ⟨2, ![k, n]⟩ ⟨2, ![m, n]⟩) (hD : D = DotDims.plain m k n)
    (prec : Option ContractPrecision) (l : FVec Ideal ⟨2, ![m, k]⟩ φ₁) (r : FVec Ideal ⟨2, ![k, n]⟩ φ₂) (p : Fin m) (j : Fin n) :
    matmul D prec l r (constant (F := Ideal) ⟨2, ![m, n]⟩ .f32 0x00000000#32) (ix2 p j) = ∑ q : Fin k, l (ix2 p q) * r (ix2 q j) := by
  subst hD
  simp only [matmul]
  rw [Ideal.matmul_constant_zero_apply]
  exact sum_plain l r p j

/-- The host's `dot_general`, at entry `(p, j)`. -/
theorem dotGeneral_ix2 (D : DotDims ⟨2, ![m, k]⟩ ⟨2, ![k, n]⟩ ⟨2, ![m, n]⟩) (hD : D = DotDims.plain m k n)
    (prec : Option ContractPrecision) (l : FVec Ideal ⟨2, ![m, k]⟩ φ₁) (r : FVec Ideal ⟨2, ![k, n]⟩ φ₂) (p : Fin m) (j : Fin n) :
    Host.dotGeneral D prec l r (ix2 p j) = ∑ q : Fin k, l (ix2 p q) * r (ix2 q j) := by
  subst hD
  simp only [Host.dotGeneral]
  rw [Ideal.dotGeneral_apply]
  exact sum_plain l r p j

end Cert.PlainDot

end
-- ==== Proof.LibRowBroadcast.lean ====
/-
  A row `[1, b]` broadcast down the rows of `[a, b]`, read at an index written by coordinates: the counterpart, for a
  bias row added to every row of a matrix, of a column `[a, 1]` broadcast along the rows. General lemma: any element
  type, any extents.
-/
import Idealize.ShloMosaic.Lib.Pipeline.Value
import Idealize.ShloMosaic.Lib.ValueIdx

namespace Cert.LibRowBroadcast

open Idealize.ShloMosaic Idealize.ShloMosaic.ValueIdx

/-- A row `[1, b]` broadcast down the rows of `[a, b]` reads, at `(i, j)`, the row's entry `j`. -/
theorem broadcastTo_1b_ab_apply {α : Type} {a b : ℕ} (v : (⟨2, ![1, b]⟩ : Shape).Idx → α)
    (h : (⟨2, ![1, b]⟩ : Shape).Broadcasts ⟨2, ![a, b]⟩) (i : Fin a) (j : Fin b) :
    broadcastTo ⟨2, ![a, b]⟩ v h (ix2 i j) = v (ix2 (0 : Fin 1) j) := by
  refine broadcastTo_apply v h (ix2 i j) (ix2 (0 : Fin 1) j) fun ax => ?_
  match ax with
  | ⟨0, _⟩ => rfl
  | ⟨1, _⟩ =>
    show j.val = if b = 1 then 0 else j.val
    split
    · have := j.isLt; omega
    · rfl

end Cert.LibRowBroadcast
-- ==== Proof.Spec.lean ====
/-
  The two whole-array functions the three kernels compute, written index by index on the extended reals, and the host's
  spellings of them.

  `rowDot x w` is the plain matrix product: entry `(p, j)` is the sum over `q` of `x (p, q) · w (q, j)`.
  `rowMLP X W3 b3 W4 b4` is the edge MLP: row `e` of `X` times `W3`, plus the bias `b3`, clamped below at zero, times the one
  column of `W4`, plus the scalar bias `b4`.  A row of either depends on the same row of its first argument only, which is why
  a kernel that works on blocks of rows computes the same array as the host's one product.
-/
import Idealize.ShloMosaic.Lib.ValueIdx
import Idealize.ShloMosaic.Lib.Pipeline.Value
import Idealize.ShloMosaic.PureOps.Ideal.Laws
import proofs.«106212_j60902636257700_1_alg».proof.Proof.LibPlainDot
import proofs.«106212_j60902636257700_1_alg».proof.Proof.LibRowBroadcast

noncomputable section

namespace Cert.EdgeSpec

open Idealize.ShloMosaic Idealize.ShloMosaic.ValueIdx

variable {M K N : Nat} {φ₁ φ₂ : FTy}

/-- The plain matrix product, entry by entry. -/
def rowDot (x : (⟨2, ![M, K]⟩ : Shape).Idx → EReal) (w : (⟨2, ![K, N]⟩ : Shape).Idx → EReal) :
    (⟨2, ![M, N]⟩ : Shape).Idx → EReal :=
  fun i => ∑ q : Fin K, x (ix2 (i 0) q) * w (ix2 q (i 1))

theorem rowDot_ix2 (x : (⟨2, ![M, K]⟩ : Shape).Idx → EReal) (w : (⟨2, ![K, N]⟩ : Shape).Idx → EReal) (p : Fin M) (j : Fin N) :
    rowDot x w (ix2 p j) = ∑ q : Fin K, x (ix2 p q) * w (ix2 q j) := rfl

/-- The host's `dot_general` with the plain dimension numbers is the plain product. -/
theorem dotGeneral_eq_rowDot (D : DotDims ⟨2, ![M, K]⟩ ⟨2, ![K, N]⟩ ⟨2, ![M, N]⟩) (hD : D = DotDims.plain M K N)
    (prec : Option ContractPrecision) (l : FVec Ideal ⟨2, ![M, K]⟩ φ₁) (r : FVec Ideal ⟨2, ![K, N]⟩ φ₂) :
    Host.dotGeneral D prec l r = rowDot l r := by
  funext i
  rw [eq_ix2 i]
  exact Cert.PlainDot.dotGeneral_ix2 D hD prec l r _ _

/-- A kernel's product of two blocks into the zero accumulator is the plain product of the blocks. -/
theorem matmul_zero_eq_rowDot (D : DotDims ⟨2, ![M, K]⟩ ⟨2, ![K, N]⟩ ⟨2, ![M, N]⟩) (hD : D = DotDims.plain M K N)
    (prec : Option ContractPrecision) (l : FVec Ideal ⟨2, ![M, K]⟩ φ₁) (r : FVec Ideal ⟨2, ![K, N]⟩ φ₂) :
    matmul D prec l r (constant (F := Ideal) ⟨2, ![M, N]⟩ .f32 0x00000000#32) = rowDot l r := by
  funext i
  rw [eq_ix2 i]
  exact Cert.PlainDot.matmul_zero_ix2 D hD prec l r _ _

/-- The edge MLP, row by row: `relu (X · W3 + b3) · W4 + b4`, the two biases given as one-row matrices. -/
def rowMLP {E : Nat} (X : (⟨2, ![E, 40]⟩ : Shape).Idx → EReal) (W3 : (⟨2, ![40, 32]⟩ : Shape).Idx → EReal)
    (b3 : (⟨2, ![1, 32]⟩ : Shape).Idx → EReal) (W4 : (⟨2, ![32, 1]⟩ : Shape).Idx → EReal) (b4 : (⟨2, ![1, 1]⟩ : Shape).Idx → EReal) :
    (⟨2, ![E, 1]⟩ : Shape).Idx → EReal :=
  fun i => (∑ q : Fin 32, max ((∑ p : Fin 40, X (ix2 (i 0) p) * W3 (ix2 p q)) + b3 (ix2 (0 : Fin 1) q)) (Ideal.ofBits .f32 0x00000000#32)
      * W4 (ix2 q (i 1))) + b4 (ix2 (0 : Fin 1) (i 1))

theorem rowMLP_ix2 {E : Nat} (X : (⟨2, ![E, 40]⟩ : Shape).Idx → EReal) (W3 : (⟨2, ![40, 32]⟩ : Shape).Idx → EReal)
    (b3 : (⟨2, ![1, 32]⟩ : Shape).Idx → EReal) (W4 : (⟨2, ![32, 1]⟩ : Shape).Idx → EReal) (b4 : (⟨2, ![1, 1]⟩ : Shape).Idx → EReal)
    (e : Fin E) (z : Fin 1) :
    rowMLP X W3 b3 W4 b4 (ix2 e z) = (∑ q : Fin 32, max ((∑ p : Fin 40, X (ix2 e p) * W3 (ix2 p q)) + b3 (ix2 (0 : Fin 1) q)) (Ideal.ofBits .f32 0x00000000#32)
      * W4 (ix2 q z)) + b4 (ix2 (0 : Fin 1) z) := rfl

end Cert.EdgeSpec

end
-- ==== Proof.ValueRegion0.lean ====
/-
  Region 0 at the ideal instance: the node features times the first layer's weights.
  Each grid point multiplies 10000 rows of the left operand by the whole right operand, and a row of a matrix product depends on
  the same row of the left operand only; the ten blocks of rows tile the output array. So after the region the output array holds
  the plain product of the two operand arrays as the region found them.
-/
import proofs.«106212_j60902636257700_1_alg».proof.Proof.FrameKernelIdeal.Region0
import proofs.«106212_j60902636257700_1_alg».proof.Proof.Spec
import Idealize.ShloMosaic.Lib.Pipeline.Value
import Idealize.ShloMosaic.Lib.ValueIdx
import Idealize.ShloMosaic.Lib.Tactic

set_option maxRecDepth 16384

noncomputable section

namespace Cert.KernelIdeal.Val

open Idealize.ShloMosaic Idealize.ShloMosaic.TcCoe Idealize.SL.Sem Idealize.ShloMosaic.ValueIdx
open Idealize.ShloMosaic.Pipeline (Dat)
open Cert.KernelIdeal Cert.KernelIdeal.Gen Cert.KernelIdeal.Reg Cert.EdgeSpec

variable (V : (c : Dev nD) → (b : Ref sig .tc) → Buf (Elt Ideal) ((c : Thread nD τ).loc b))

theorem hz0 : (![0, 0] : Fin 2 → Nat) = fun _ => 0 := funext fun a => by fin_cases a <;> rfl

/-- The body's payload is the plain product of its two loaded blocks (rounding to bf16 is the identity on the extended reals,
    and the accumulator starts at zero). -/
theorem pay0_eq (x0 : Vec Ideal S10000x6 .f32) (x1 : Vec Ideal S6x32 .f32) : k0_pay1 x0 x1 = rowDot x0 x1 := by
  unfold k0_pay1
  exact matmul_zero_eq_rowDot dot_S10000x6_S6x32_S10000x32_1_0_0_1_n_n rfl none _ _

/-- The printed index maps over the grid: point `t` takes row block `t` of the left operand and of the output, all of the
    right operand. -/
theorem idx_facts0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- What point `t` writes back is block `t` of the plain product of the operand arrays. -/
theorem flushed0_eq (c : Dev nD) (t : Fin cfg0.N) :
    (dat0 V c).flushed 2 t = ((cfg0.win 2).blk t).view.read (Elt Ideal) (rowDot (V c main_arg0) (V c main_arg3)) := by
  show (cfg0.win 2).cut (grid0.coords t) ((dat0 V c).after 2 t) = _
  rw [after0_2]
  unfold out0_2
  rw [View.canon_unit_zero hz0]
  simp only [View.ld_unit_zero (S := S10000x6) hz0, View.ld_unit_zero (S := S6x32) hz0]
  rw [pay0_eq]
  obtain ⟨e0, e1, e2, e3, e4, e5⟩ := idx_facts0 t
  funext j
  show rowDot (iblk0 V c 0 t) (iblk0 V c 1 t) j = rowDot (V c main_arg0) (V c main_arg3) (((cfg0.win 2).blk t).view.emb j)
  unfold rowDot
  dsimp only
  refine Finset.sum_congr rfl fun q _ => ?_
  have h0 : iblk0 V c 0 t (ix2 (j 0) q) = V c main_arg0 (ix2 ((((cfg0.win 2).blk t).view.emb j) 0) q) := by
    show V c main_arg0 (((cfg0.win 0).blk t).view.emb (ix2 (j 0) q)) = _
    refine congrArg _ (funext fun a => Fin.ext ?_)
    match a with
    | ⟨0, _⟩ => show win0_0.index t (0 : Fin 2) * 10000 + 1 * (j 0).val = win0_2.index t (0 : Fin 2) * 10000 + 1 * (j 0).val; omega
    | ⟨1, _⟩ => show win0_0.index t (1 : Fin 2) * 6 + 1 * q.val = q.val; omega
  have h1 : iblk0 V c 1 t (ix2 q (j 1)) = V c main_arg3 (ix2 q ((((cfg0.win 2).blk t).view.emb j) 1)) := by
    show V c main_arg3 (((cfg0.win 1).blk t).view.emb (ix2 q (j 1))) = _
    refine congrArg _ (funext fun a => Fin.ext ?_)
    match a with
    | ⟨0, _⟩ => show win0_1.index t (0 : Fin 2) * 6 + 1 * q.val = q.val; omega
    | ⟨1, _⟩ => show win0_1.index t (1 : Fin 2) * 32 + 1 * (j 1).val = win0_2.index t (1 : Fin 2) * 32 + 1 * (j 1).val; omega
  rw [h0, h1]

/-- An index of the output array is in point `t`'s block iff its row is among the block's rows. -/
theorem mem_blk0 (t : Fin cfg0.N) (i : S100000x32.Idx) :
    i ∈ ((cfg0.win 2).blk t).view.set ↔ ∀ a : Fin 2, win0_2.index t a * S10000x32.size a ≤ (i a).val ∧ (i a).val < win0_2.index t a * S10000x32.size a + S10000x32.size a := by
  show i ∈ ((View.whole main_v16).slice (win0_2.rect t)).set ↔ _
  rw [View.set_slice_whole, Rect.mem_set_unit]
  exact Iff.rfl

/-- Every index of the output array is in the block of the point its row falls in. -/
theorem cover0 (i : S100000x32.Idx) : ∃ t : Fin cfg0.N, (cfg0.win 2).flush t = true ∧ i ∈ ((cfg0.win 2).blk t).view.set := by
  have hi0 : (i 0).val < 100000 := (i 0).isLt
  have hi1 : (i 1).val < 32 := (i 1).isLt
  have hN : cfg0.N = 10 := N_0
  obtain ⟨e0, e1, e2, e3, e4, e5⟩ := idx_facts0 ⟨(i 0).val / 10000, by rw [hN]; omega⟩
  refine ⟨⟨(i 0).val / 10000, by rw [hN]; omega⟩, flush0_2 _, ?_⟩
  rw [mem_blk0]
  intro a
  match a with
  | ⟨0, _⟩ =>
    show win0_2.index ⟨(i 0).val / 10000, _⟩ (0 : Fin 2) * 10000 ≤ (i 0).val ∧ (i 0).val < win0_2.index ⟨(i 0).val / 10000, _⟩ (0 : Fin 2) * 10000 + 10000
    rw [e4]; show (i 0).val / 10000 * 10000 ≤ (i 0).val ∧ (i 0).val < (i 0).val / 10000 * 10000 + 10000; omega
  | ⟨1, _⟩ =>
    show win0_2.index ⟨(i 0).val / 10000, _⟩ (1 : Fin 2) * 32 ≤ (i 1).val ∧ (i 1).val < win0_2.index ⟨(i 0).val / 10000, _⟩ (1 : Fin 2) * 32 + 32
    rw [e5]; omega

/-- THE OUTPUT ARRAY after the region: the plain product of the operand arrays. -/
theorem final0 (c : Dev nD) : (dat0 V c).arrAt 2 cfg0.N = rowDot (V c main_arg0) (V c main_arg3) :=
  (dat0 V c).arrAt_eq_of_cover 2 (rowDot (V c main_arg0) (V c main_arg3)) (fun t _ => flushed0_eq V c t) (cover0)

end Cert.KernelIdeal.Val

end
-- ==== Proof.ValueRegion1.lean ====
/-
  Region 1 at the ideal instance: the first layer's activations times the second layer's weights.
  Each grid point multiplies 10000 rows of the left operand by the whole right operand, and a row of a matrix product depends on
  the same row of the left operand only; the ten blocks of rows tile the output array. So after the region the output array holds
  the plain product of the two operand arrays as the region found them.
-/
import proofs.«106212_j60902636257700_1_alg».proof.Proof.FrameKernelIdeal.Region1
import proofs.«106212_j60902636257700_1_alg».proof.Proof.Spec
import Idealize.ShloMosaic.Lib.Pipeline.Value
import Idealize.ShloMosaic.Lib.ValueIdx
import Idealize.ShloMosaic.Lib.Tactic

set_option maxRecDepth 16384

noncomputable section

namespace Cert.KernelIdeal.Val

open Idealize.ShloMosaic Idealize.ShloMosaic.TcCoe Idealize.SL.Sem Idealize.ShloMosaic.ValueIdx
open Idealize.ShloMosaic.Pipeline (Dat)
open Cert.KernelIdeal Cert.KernelIdeal.Gen Cert.KernelIdeal.Reg Cert.EdgeSpec

variable (V : (c : Dev nD) → (b : Ref sig .tc) → Buf (Elt Ideal) ((c : Thread nD τ).loc b))

theorem hz1 : (![0, 0] : Fin 2 → Nat) = fun _ => 0 := funext fun a => by fin_cases a <;> rfl

/-- The body's payload is the plain product of its two loaded blocks (rounding to bf16 is the identity on the extended reals,
    and the accumulator starts at zero). -/
theorem pay1_eq (x0 : Vec Ideal S10000x32 .f32) (x1 : Vec Ideal S32x16 .f32) : k1_pay1 x0 x1 = rowDot x0 x1 := by
  unfold k1_pay1
  simp only [shapeCast_self]
  exact matmul_zero_eq_rowDot dot_S10000x32_S32x16_S10000x16_1_0_0_1_n_n rfl none _ _

/-- The printed index maps over the grid: point `t` takes row block `t` of the left operand and of the output, all of the
    right operand. -/
theorem idx_facts1 : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

/-- What point `t` writes back is block `t` of the plain product of the operand arrays. -/
theorem flushed1_eq (c : Dev nD) (t : Fin cfg1.N) :
    (dat1 V c).flushed 2 t = ((cfg1.win 2).blk t).view.read (Elt Ideal) (rowDot (V c main_v58) (V c main_arg5)) := by
  show (cfg1.win 2).cut (grid1.coords t) ((dat1 V c).after 2 t) = _
  rw [after1_2]
  unfold out1_2
  rw [View.canon_unit_zero hz1]
  simp only [View.ld_unit_zero (S := S10000x32) hz1, View.ld_unit_zero (S := S32x16) hz1]
  rw [pay1_eq]
  obtain ⟨e0, e1, e2, e3, e4, e5⟩ := idx_facts1 t
  funext j
  show rowDot (iblk1 V c 0 t) (iblk1 V c 1 t) j = rowDot (V c main_v58) (V c main_arg5) (((cfg1.win 2).blk t).view.emb j)
  unfold rowDot
  dsimp only
  refine Finset.sum_congr rfl fun q _ => ?_
  have h0 : iblk1 V c 0 t (ix2 (j 0) q) = V c main_v58 (ix2 ((((cfg1.win 2).blk t).view.emb j) 0) q) := by
    show V c main_v58 (((cfg1.win 0).blk t).view.emb (ix2 (j 0) q)) = _
    refine congrArg _ (funext fun a => Fin.ext ?_)
    match a with
    | ⟨0, _⟩ => show win1_0.index t (0 : Fin 2) * 10000 + 1 * (j 0).val = win1_2.index t (0 : Fin 2) * 10000 + 1 * (j 0).val; omega
    | ⟨1, _⟩ => show win1_0.index t (1 : Fin 2) * 32 + 1 * q.val = q.val; omega
  have h1 : iblk1 V c 1 t (ix2 q (j 1)) = V c main_arg5 (ix2 q ((((cfg1.win 2).blk t).view.emb j) 1)) := by
    show V c main_arg5 (((cfg1.win 1).blk t).view.emb (ix2 q (j 1))) = _
    refine congrArg _ (funext fun a => Fin.ext ?_)
    match a with
    | ⟨0, _⟩ => show win1_1.index t (0 : Fin 2) * 32 + 1 * q.val = q.val; omega
    | ⟨1, _⟩ => show win1_1.index t (1 : Fin 2) * 16 + 1 * (j 1).val = win1_2.index t (1 : Fin 2) * 16 + 1 * (j 1).val; omega
  rw [h0, h1]

/-- An index of the output array is in point `t`'s block iff its row is among the block's rows. -/
theorem mem_blk1 (t : Fin cfg1.N) (i : S100000x16.Idx) :
    i ∈ ((cfg1.win 2).blk t).view.set ↔ ∀ a : Fin 2, win1_2.index t a * S10000x16.size a ≤ (i a).val ∧ (i a).val < win1_2.index t a * S10000x16.size a + S10000x16.size a := by
  show i ∈ ((View.whole main_v59).slice (win1_2.rect t)).set ↔ _
  rw [View.set_slice_whole, Rect.mem_set_unit]
  exact Iff.rfl

/-- Every index of the output array is in the block of the point its row falls in. -/
theorem cover1 (i : S100000x16.Idx) : ∃ t : Fin cfg1.N, (cfg1.win 2).flush t = true ∧ i ∈ ((cfg1.win 2).blk t).view.set := by
  have hi0 : (i 0).val < 100000 := (i 0).isLt
  have hi1 : (i 1).val < 16 := (i 1).isLt
  have hN : cfg1.N = 10 := N_1
  obtain ⟨e0, e1, e2, e3, e4, e5⟩ := idx_facts1 ⟨(i 0).val / 10000, by rw [hN]; omega⟩
  refine ⟨⟨(i 0).val / 10000, by rw [hN]; omega⟩, flush1_2 _, ?_⟩
  rw [mem_blk1]
  intro a
  match a with
  | ⟨0, _⟩ =>
    show win1_2.index ⟨(i 0).val / 10000, _⟩ (0 : Fin 2) * 10000 ≤ (i 0).val ∧ (i 0).val < win1_2.index ⟨(i 0).val / 10000, _⟩ (0 : Fin 2) * 10000 + 10000
    rw [e4]; show (i 0).val / 10000 * 10000 ≤ (i 0).val ∧ (i 0).val < (i 0).val / 10000 * 10000 + 10000; omega
  | ⟨1, _⟩ =>
    show win1_2.index ⟨(i 0).val / 10000, _⟩ (1 : Fin 2) * 16 ≤ (i 1).val ∧ (i 1).val < win1_2.index ⟨(i 0).val / 10000, _⟩ (1 : Fin 2) * 16 + 16
    rw [e5]; omega

/-- THE OUTPUT ARRAY after the region: the plain product of the operand arrays. -/
theorem final1 (c : Dev nD) : (dat1 V c).arrAt 2 cfg1.N = rowDot (V c main_v58) (V c main_arg5) :=
  (dat1 V c).arrAt_eq_of_cover 2 (rowDot (V c main_v58) (V c main_arg5)) (fun t _ => flushed1_eq V c t) (cover1)

end Cert.KernelIdeal.Val

end
-- ==== Proof.ValueRegion2.lean ====
/-
  Region 2 at the ideal instance: the edge MLP. Each grid point takes 10000 rows of the edge inputs and the whole of both weight
  matrices and both bias rows; a row of the MLP's result depends on the same row of the edge inputs only, and the 160 blocks of
  rows tile the output array. So after the region the output array holds `rowMLP` of the five operand arrays as the region
  found them.
-/
import proofs.«106212_j60902636257700_1_alg».proof.Proof.FrameKernelIdeal.Region2
import proofs.«106212_j60902636257700_1_alg».proof.Proof.Spec
import proofs.«106212_j60902636257700_1_alg».proof.Proof.LibRowBroadcast
import Idealize.ShloMosaic.Lib.Pipeline.Value
import Idealize.ShloMosaic.Lib.ValueIdx
import Idealize.ShloMosaic.Lib.Tactic

set_option maxRecDepth 16384

noncomputable section

namespace Cert.KernelIdeal.Val

open Idealize.ShloMosaic Idealize.ShloMosaic.TcCoe Idealize.SL.Sem Idealize.ShloMosaic.ValueIdx
open Idealize.ShloMosaic.Pipeline (Dat)
open Cert.KernelIdeal Cert.KernelIdeal.Gen Cert.KernelIdeal.Reg Cert.EdgeSpec

variable (V : (c : Dev nD) → (b : Ref sig .tc) → Buf (Elt Ideal) ((c : Thread nD τ).loc b))

theorem hz2 : (![0, 0] : Fin 2 → Nat) = fun _ => 0 := funext fun a => by fin_cases a <;> rfl

/-- The body's payload at row `e`: rounding to bf16 is the identity on the extended reals, both products start from zero, the
    bias rows are read at their one row, and the clamp is the maximum with zero. -/
theorem pay2_ix2 (x0 : Vec Ideal S10000x40 .f32) (x1 : Vec Ideal S40x32 .f32) (x2 : Vec Ideal S1x32 .f32) (x3 : Vec Ideal S32x1 .f32)
    (x4 : Vec Ideal S1x1 .f32) (e : Fin 10000) (z : Fin 1) :
    k2_pay1 x0 x1 x2 x3 x4 (ix2 e z) = rowMLP x0 x1 x2 x3 x4 (ix2 e z) := by
  unfold k2_pay1
  simp only [shapeCast_self]
  rw [rowMLP_ix2]
  refine (addf_apply _ _ _).trans ?_
  refine congr (congrArg HAdd.hAdd ?_) (Cert.LibRowBroadcast.broadcastTo_1b_ab_apply x4 _ e z)
  refine (Cert.PlainDot.matmul_zero_ix2 dot_S10000x32_S32x1_S10000x1_1_0_0_1_n_n rfl none _ _ e z).trans ?_
  refine Finset.sum_congr rfl fun q _ => ?_
  refine congr (congrArg HMul.hMul ?_) rfl
  refine (maximumf_apply _ _ _).trans ?_
  refine congr (congrArg max ?_) rfl
  refine (addf_apply _ _ _).trans ?_
  refine congr (congrArg HAdd.hAdd ?_) (Cert.LibRowBroadcast.broadcastTo_1b_ab_apply x2 _ e q)
  exact Cert.PlainDot.matmul_zero_ix2 dot_S10000x40_S40x32_S10000x32_1_0_0_1_n_n rfl none _ _ e q

theorem pay2_eq (x0 : Vec Ideal S10000x40 .f32) (x1 : Vec Ideal S40x32 .f32) (x2 : Vec Ideal S1x32 .f32) (x3 : Vec Ideal S32x1 .f32)
    (x4 : Vec Ideal S1x1 .f32) : k2_pay1 x0 x1 x2 x3 x4 = rowMLP x0 x1 x2 x3 x4 := by
  funext i
  rw [eq_ix2 i]
  exact pay2_ix2 x0 x1 x2 x3 x4 _ _

/-- The printed index maps over the grid: point `t` takes row block `t` of the edge inputs and of the output, and the whole of
    every other operand. -/
theorem idx_facts2 : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = t.val ∧ win2_5.index t (1 : Fin 2) = 0 :=
  (by decide +kernel : ∀ t : Fin grid2.N, _)

/-- A window whose one block is its whole array reads the array. -/
theorem blk2_1 (c : Dev nD) (t : Fin cfg2.N) : iblk2 V c 1 t = V c main_arg7 := by
  obtain ⟨-, -, e2, e3, -⟩ := idx_facts2 t
  funext y
  show V c main_arg7 (((cfg2.win 1).blk t).view.emb y) = V c main_arg7 y
  refine congrArg _ (funext fun a => Fin.ext ?_)
  match a with
  | ⟨0, _⟩ => show win2_1.index t (0 : Fin 2) * 40 + 1 * (y 0).val = (y 0).val; omega
  | ⟨1, _⟩ => show win2_1.index t (1 : Fin 2) * 32 + 1 * (y 1).val = (y 1).val; omega
theorem blk2_2 (c : Dev nD) (t : Fin cfg2.N) : iblk2 V c 2 t = V c main_v117 := by
  obtain ⟨-, -, -, -, e4, e5, -⟩ := idx_facts2 t
  funext y
  show V c main_v117 (((cfg2.win 2).blk t).view.emb y) = V c main_v117 y
  refine congrArg _ (funext fun a => Fin.ext ?_)
  match a with
  | ⟨0, _⟩ => show win2_2.index t (0 : Fin 2) * 1 + 1 * (y 0).val = (y 0).val; omega
  | ⟨1, _⟩ => show win2_2.index t (1 : Fin 2) * 32 + 1 * (y 1).val = (y 1).val; omega
theorem blk2_3 (c : Dev nD) (t : Fin cfg2.N) : iblk2 V c 3 t = V c main_arg9 := by
  obtain ⟨-, -, -, -, -, -, e6, e7, -⟩ := idx_facts2 t
  funext y
  show V c main_arg9 (((cfg2.win 3).blk t).view.emb y) = V c main_arg9 y
  refine congrArg _ (funext fun a => Fin.ext ?_)
  match a with
  | ⟨0, _⟩ => show win2_3.index t (0 : Fin 2) * 32 + 1 * (y 0).val = (y 0).val; omega
  | ⟨1, _⟩ => show win2_3.index t (1 : Fin 2) * 1 + 1 * (y 1).val = (y 1).val; omega
theorem blk2_4 (c : Dev nD) (t : Fin cfg2.N) : iblk2 V c 4 t = V c main_v118 := by
  obtain ⟨-, -, -, -, -, -, -, -, e8, e9, -⟩ := idx_facts2 t
  funext y
  show V c main_v118 (((cfg2.win 4).blk t).view.emb y) = V c main_v118 y
  refine congrArg _ (funext fun a => Fin.ext ?_)
  match a with
  | ⟨0, _⟩ => show win2_4.index t (0 : Fin 2) * 1 + 1 * (y 0).val = (y 0).val; omega
  | ⟨1, _⟩ => show win2_4.index t (1 : Fin 2) * 1 + 1 * (y 1).val = (y 1).val; omega

/-- What point `t` writes back is block `t` of the MLP of the operand arrays. -/
theorem flushed2_eq (c : Dev nD) (t : Fin cfg2.N) :
    (dat2 V c).flushed 5 t = ((cfg2.win 5).blk t).view.read (Elt Ideal)
      (rowMLP (V c main_v116) (V c main_arg7) (V c main_v117) (V c main_arg9) (V c main_v118)) := by
  show (cfg2.win 5).cut (grid2.coords t) ((dat2 V c).after 5 t) = _
  rw [after2_5]
  unfold out2_5
  rw [View.canon_unit_zero hz2]
  simp only [View.ld_unit_zero (S := S10000x40) hz2, View.ld_unit_zero (S := S40x32) hz2, View.ld_unit_zero (S := S1x32) hz2,
    View.ld_unit_zero (S := S32x1) hz2, View.ld_unit_zero (S := S1x1) hz2]
  rw [pay2_eq, blk2_1 V c t, blk2_2 V c t, blk2_3 V c t, blk2_4 V c t]
  obtain ⟨e0, e1, -, -, -, -, -, -, -, -, e10, e11⟩ := idx_facts2 t
  funext j
  show rowMLP (iblk2 V c 0 t) (V c main_arg7) (V c main_v117) (V c main_arg9) (V c main_v118) j
    = rowMLP (V c main_v116) (V c main_arg7) (V c main_v117) (V c main_arg9) (V c main_v118) (((cfg2.win 5).blk t).view.emb j)
  have hj1 : (((cfg2.win 5).blk t).view.emb j) 1 = j 1 :=
    Fin.ext (by show win2_5.index t (1 : Fin 2) * 1 + 1 * (j 1).val = (j 1).val; omega)
  unfold rowMLP
  dsimp only
  rw [hj1]
  refine congrArg (· + _) (Finset.sum_congr rfl fun q _ => congrArg (· * _) (congrArg (max · _) (congrArg (· + _)
    (Finset.sum_congr rfl fun p _ => congrArg (· * _) ?_))))
  show V c main_v116 (((cfg2.win 0).blk t).view.emb (ix2 (j 0) p)) = _
  refine congrArg _ (funext fun a => Fin.ext ?_)
  match a with
  | ⟨0, _⟩ => show win2_0.index t (0 : Fin 2) * 10000 + 1 * (j 0).val = win2_5.index t (0 : Fin 2) * 10000 + 1 * (j 0).val; omega
  | ⟨1, _⟩ => show win2_0.index t (1 : Fin 2) * 40 + 1 * p.val = p.val; omega

/-- An index of the output array is in point `t`'s block iff its row is among the block's rows. -/
theorem mem_blk2 (t : Fin cfg2.N) (i : S1600000x1.Idx) :
    i ∈ ((cfg2.win 5).blk t).view.set ↔ ∀ a : Fin 2, win2_5.index t a * S10000x1.size a ≤ (i a).val ∧ (i a).val < win2_5.index t a * S10000x1.size a + S10000x1.size a := by
  show i ∈ ((View.whole main_v119).slice (win2_5.rect t)).set ↔ _
  rw [View.set_slice_whole, Rect.mem_set_unit]
  exact Iff.rfl

/-- Every index of the output array is in the block of the point its row falls in. -/
theorem cover2 (i : S1600000x1.Idx) : ∃ t : Fin cfg2.N, (cfg2.win 5).flush t = true ∧ i ∈ ((cfg2.win 5).blk t).view.set := by
  have hi0 : (i 0).val < 1600000 := (i 0).isLt
  have hi1 : (i 1).val < 1 := (i 1).isLt
  have hN : cfg2.N = 160 := N_2
  obtain ⟨-, -, -, -, -, -, -, -, -, -, e10, e11⟩ := idx_facts2 ⟨(i 0).val / 10000, by rw [hN]; omega⟩
  refine ⟨⟨(i 0).val / 10000, by rw [hN]; omega⟩, flush2_5 _, ?_⟩
  rw [mem_blk2]
  intro a
  match a with
  | ⟨0, _⟩ =>
    show win2_5.index ⟨(i 0).val / 10000, _⟩ (0 : Fin 2) * 10000 ≤ (i 0).val ∧ (i 0).val < win2_5.index ⟨(i 0).val / 10000, _⟩ (0 : Fin 2) * 10000 + 10000
    rw [e10]; show (i 0).val / 10000 * 10000 ≤ (i 0).val ∧ (i 0).val < (i 0).val / 10000 * 10000 + 10000; omega
  | ⟨1, _⟩ =>
    show win2_5.index ⟨(i 0).val / 10000, _⟩ (1 : Fin 2) * 1 ≤ (i 1).val ∧ (i 1).val < win2_5.index ⟨(i 0).val / 10000, _⟩ (1 : Fin 2) * 1 + 1
    rw [e11]; omega

/-- THE OUTPUT ARRAY after the region: the MLP of the operand arrays. -/
theorem final2 (c : Dev nD) : (dat2 V c).arrAt 5 cfg2.N
    = rowMLP (V c main_v116) (V c main_arg7) (V c main_v117) (V c main_arg9) (V c main_v118) :=
  (dat2 V c).arrAt_eq_of_cover 5 _ (fun t _ => flushed2_eq V c t) (cover2)

end Cert.KernelIdeal.Val

end
-- ==== Proof.RefChain.lean ====
/-
  The host side of the computation, stage by stage, in the reference program's own vocabulary.

  Both programs run the same graph-convolution arithmetic on the host: from the edge list, the source and destination node of every
  edge (negative indices wrapped once by the node count); the inverse square roots of the in-degrees plus one; a layer
  `h ↦ relu (Σ_{edges into v} h[src] · dinv[src] · dinv[dst] + h[v] · dinv[v]² + b)`; the edge inputs `[h[src], h[dst], edge_attr]`;
  and the edge MLP.  Each stage is named here once, as a function of its inputs, and the reference's whole result term is these
  functions composed (`res_eq`); the last stage, the MLP, is also read entry by entry (`tail_eq`).
-/
import proofs.«106212_j60902636257700_1_alg».proof.Proof.Gen.ReferenceIdeal.Run
import proofs.«106212_j60902636257700_1_alg».proof.Proof.Spec
import Idealize.ShloMosaic.Lib.Pipeline.Value
import Idealize.ShloMosaic.Lib.ValueIdx

set_option maxRecDepth 16384

noncomputable section

namespace Cert.ReferenceIdeal.Chain

open Idealize.ShloMosaic Idealize.ShloMosaic.TcCoe Idealize.SL.Sem Idealize.ShloMosaic.ValueIdx
open Cert.ReferenceIdeal Cert.ReferenceIdeal.Facts₀ Cert.ReferenceIdeal.Facts Cert.EdgeSpec

/-- The contents of a buffer of shape `s` and element type `e` at the ideal instance. -/
abbrev T (s : Shape) (e : EltTy) : Type := (⟨s, e⟩ : BufTy).Contents (Elt Ideal)

/-- Row 0 of the edge list: every edge's source node. -/
def src (ei : T S2x1600000 .i32) : T S1600000 .i32 :=
  shapeCast _ (extractStridedSlice S1x1600000 ![0, 0] ei slices_S2x1600000_S1x1600000_0_0) shapeCasts_S1x1600000_S1600000

/-- Row 1 of the edge list: every edge's destination node. -/
def dst (ei : T S2x1600000 .i32) : T S1600000 .i32 :=
  shapeCast _ (extractStridedSlice S1x1600000 ![1, 0] ei slices_S2x1600000_S1x1600000_1_0) shapeCasts_S1x1600000_S1600000

/-- Node indices as a gather or scatter takes them: a negative index wrapped once by the node count, one index per row. -/
def wrapIdx (x : T S1600000 .i32) : T S1600000x1 .i32 :=
  broadcastInDim S1600000x1 ![0] bcast_S1600000_S1600000x1_0 (select (cmpi .slt x (broadcastInDim S1600000 ![] bcast_S_S1600000 (constantI S_ 32 0#32))) (addi x (broadcastInDim S1600000 ![] bcast_S_S1600000 (constantI S_ 32 100000#32))) x)

/-- The inverse square root of every node's in-degree plus one (the self-loop). -/
def dinvOf (idst : T S1600000x1 .i32) : FVec Ideal S100000 .f32 :=
  Host.rsqrt (addf (Host.scatterAdd scatter_S100000_S1600000x1_S1600000_n_0_0_1 (broadcastInDim S100000 ![] bcast_S_S100000 (constant S_ .f32 0x00000000#32)) idst (broadcastInDim S1600000 ![] bcast_S_S1600000 (constant S_ .f32 0x3F800000#32))) (broadcastInDim S100000 ![] bcast_S_S100000 (constant S_ .f32 0x3F800000#32)))

/-- The first layer before its clamp, from its linear map `h`: the normalized messages summed over incoming edges, the
    self-loop term, and the bias. -/
def agg1 (h : FVec Ideal S100000x32 .f32) (isrc idst : T S1600000x1 .i32) (dinv : FVec Ideal S100000 .f32) (b : FVec Ideal S32 .f32) : FVec Ideal S100000x32 .f32 :=
  addf (addf (Host.scatterAdd scatter_S100000x32_S1600000x1_S1600000x32_1_0_0_1 (broadcastInDim S100000x32 ![] bcast_S_S100000x32 (constant S_ .f32 0x00000000#32)) idst (mulf (Host.gather gather_S100000x32_S1600000x1_S1600000x32_1_0_n_n_0_1_132 h isrc) (broadcastInDim S1600000x32 ![0, 1] bcast_S1600000x1_S1600000x32_0_1 (broadcastInDim S1600000x1 ![0] bcast_S1600000_S1600000x1_0 (mulf (Host.gather gather_S100000_S1600000x1_S1600000_n_0_n_n_0_1_1 dinv isrc) (Host.gather gather_S100000_S1600000x1_S1600000_n_0_n_n_0_1_1 dinv idst)))))) (mulf h (broadcastInDim S100000x32 ![0, 1] bcast_S100000x1_S100000x32_0_1 (broadcastInDim S100000x1 ![0] bcast_S100000_S100000x1_0 (mulf dinv dinv))))) (broadcastInDim S100000x32 ![0, 1] bcast_S1x32_S100000x32_0_1 (broadcastInDim S1x32 ![1] bcast_S32_S1x32_1 b))

/-- The first layer after its linear map: the aggregate clamped below at zero. -/
def layer1 (h : FVec Ideal S100000x32 .f32) (isrc idst : T S1600000x1 .i32) (dinv : FVec Ideal S100000 .f32) (b : FVec Ideal S32 .f32) : FVec Ideal S100000x32 .f32 :=
  maximumf (agg1 h isrc idst dinv b) (broadcastInDim S100000x32 ![] bcast_S_S100000x32 (constant S_ .f32 0x00000000#32))

/-- The second layer before its clamp: the same arithmetic on 16 columns. -/
def agg2 (h : FVec Ideal S100000x16 .f32) (isrc idst : T S1600000x1 .i32) (dinv : FVec Ideal S100000 .f32) (b : FVec Ideal S16 .f32) : FVec Ideal S100000x16 .f32 :=
  addf (addf (Host.scatterAdd scatter_S100000x16_S1600000x1_S1600000x16_1_0_0_1 (broadcastInDim S100000x16 ![] bcast_S_S100000x16 (constant S_ .f32 0x00000000#32)) idst (mulf (Host.gather gather_S100000x16_S1600000x1_S1600000x16_1_0_n_n_0_1_116 h isrc) (broadcastInDim S1600000x16 ![0, 1] bcast_S1600000x1_S1600000x16_0_1 (broadcastInDim S1600000x1 ![0] bcast_S1600000_S1600000x1_0 (mulf (Host.gather gather_S100000_S1600000x1_S1600000_n_0_n_n_0_1_1 dinv isrc) (Host.gather gather_S100000_S1600000x1_S1600000_n_0_n_n_0_1_1 dinv idst)))))) (mulf h (broadcastInDim S100000x16 ![0, 1] bcast_S100000x1_S100000x16_0_1 (broadcastInDim S100000x1 ![0] bcast_S100000_S100000x1_0 (mulf dinv dinv))))) (broadcastInDim S100000x16 ![0, 1] bcast_S1x16_S100000x16_0_1 (broadcastInDim S1x16 ![1] bcast_S16_S1x16_1 b))

/-- The second layer after its linear map: the aggregate clamped below at zero. -/
def layer2 (h : FVec Ideal S100000x16 .f32) (isrc idst : T S1600000x1 .i32) (dinv : FVec Ideal S100000 .f32) (b : FVec Ideal S16 .f32) : FVec Ideal S100000x16 .f32 :=
  maximumf (agg2 h isrc idst dinv b) (broadcastInDim S100000x16 ![] bcast_S_S100000x16 (constant S_ .f32 0x00000000#32))

/-- The edge inputs: the second layer's features at each edge's source and destination beside the edge's own attributes. -/
def edgeIn (h : FVec Ideal S100000x16 .f32) (isrc idst : T S1600000x1 .i32) (ea : FVec Ideal S1600000x8 .f32) : FVec Ideal S1600000x40 .f32 :=
  concatenate S1600000x40 1 [⟨S1600000x16, (Host.gather gather_S100000x16_S1600000x1_S1600000x16_1_0_n_n_0_1_116 h isrc)⟩, ⟨S1600000x16, (Host.gather gather_S100000x16_S1600000x1_S1600000x16_1_0_n_n_0_1_116 h idst)⟩, ⟨S1600000x8, ea⟩] concatenates_S1600000x16_S1600000x16_S1600000x8_S1600000x40_d1

/-- The edge MLP as the host spells it. -/
def tail (x : FVec Ideal S1600000x40 .f32) (w3 : FVec Ideal S40x32 .f32) (b3 : FVec Ideal S32 .f32) (w4 : FVec Ideal S32x1 .f32) (b4 : FVec Ideal S1 .f32) : FVec Ideal S1600000x1 .f32 :=
  addf (Host.dotGeneral dot_S1600000x32_S32x1_S1600000x1_1_0_0_1_n_n none (maximumf (addf (Host.dotGeneral dot_S1600000x40_S40x32_S1600000x32_1_0_0_1_n_n none x w3) (broadcastInDim S1600000x32 ![0, 1] bcast_S1x32_S1600000x32_0_1 (broadcastInDim S1x32 ![1] bcast_S32_S1x32_1 b3))) (broadcastInDim S1600000x32 ![] bcast_S_S1600000x32 (constant S_ .f32 0x00000000#32))) w4) (broadcastInDim S1600000x1 ![0, 1] bcast_S1x1_S1600000x1_0_1 (broadcastInDim S1x1 ![1] bcast_S1_S1x1_1 b4))

/-- The whole result as a function of the eleven arguments: the stages composed. -/
def whole (a0 : FVec Ideal S100000x6 .f32) (a1 : T S2x1600000 .i32) (a2 : FVec Ideal S1600000x8 .f32) (a3 : FVec Ideal S6x32 .f32) (a4 : FVec Ideal S32 .f32) (a5 : FVec Ideal S32x16 .f32)
    (a6 : FVec Ideal S16 .f32) (a7 : FVec Ideal S40x32 .f32) (a8 : FVec Ideal S32 .f32) (a9 : FVec Ideal S32x1 .f32) (a10 : FVec Ideal S1 .f32) : FVec Ideal S1600000 .f32 :=
  shapeCast _ (tail (edgeIn (layer2 (Host.dotGeneral dot_S100000x32_S32x16_S100000x16_1_0_0_1_n_n none
      (layer1 (Host.dotGeneral dot_S100000x6_S6x32_S100000x32_1_0_0_1_n_n none a0 a3) (wrapIdx (src a1)) (wrapIdx (dst a1)) (dinvOf (wrapIdx (dst a1))) a4) a5)
      (wrapIdx (src a1)) (wrapIdx (dst a1)) (dinvOf (wrapIdx (dst a1))) a6) (wrapIdx (src a1)) (wrapIdx (dst a1)) a2) a7 a8 a9 a10) shapeCasts_S1600000x1_S1600000

set_option maxHeartbeats 4000000 in
/-- The reference's result term is the stages composed. -/
theorem res_eq (m : (ℓ : Loc nD τ sig) → Buf (Elt Ideal) ℓ) (c : Dev nD) :
    Cert.ReferenceIdeal.Value.res_main_v138 (F := Ideal) m c = whole (m ((c.tc : Thread nD τ).loc main_arg0)) (m ((c.tc : Thread nD τ).loc main_arg1)) (m ((c.tc : Thread nD τ).loc main_arg2))
      (m ((c.tc : Thread nD τ).loc main_arg3)) (m ((c.tc : Thread nD τ).loc main_arg4)) (m ((c.tc : Thread nD τ).loc main_arg5)) (m ((c.tc : Thread nD τ).loc main_arg6))
      (m ((c.tc : Thread nD τ).loc main_arg7)) (m ((c.tc : Thread nD τ).loc main_arg8)) (m ((c.tc : Thread nD τ).loc main_arg9)) (m ((c.tc : Thread nD τ).loc main_arg10)) := by
  unfold Cert.ReferenceIdeal.Value.res_main_v138 whole tail edgeIn layer2 agg2 layer1 agg1 dinvOf wrapIdx src dst
  rfl

end Cert.ReferenceIdeal.Chain

end
-- ==== Proof.KChain.lean ====
/-
  The kernel program's host stretches, read back: each stretch's result as a stage function (in the reference program's
  vocabulary) of the buffers the stretch starts from, whatever those hold.
-/
import proofs.«106212_j60902636257700_1_alg».proof.Proof.Gen.KernelIdeal.Launch
import proofs.«106212_j60902636257700_1_alg».proof.Proof.RefChain
import Idealize.ShloMosaic.Lib.StableHlo.Run

set_option maxRecDepth 16384

noncomputable section

namespace Cert.KernelIdeal.Host

open Idealize.ShloMosaic Idealize.ShloMosaic.TcCoe Idealize.SL.Sem Idealize.ShloMosaic.StableHlo
open Cert.KernelIdeal Cert.KernelIdeal.Gen
open Cert.ReferenceIdeal.Chain (src dst wrapIdx dinvOf agg1 agg2 layer1 layer2 edgeIn)

variable (W : Valuation τ sig (Elt Ideal))

/-- A three-operand operation's result with each operand's contents at its own reference. -/
theorem nary3_result {x a b y : Ref sig .tc}
    (f : ((k : Fin 3) → ((![x, a, b] : Fin 3 → Ref sig .tc) k).ty.Contents (Elt Ideal)) → y.ty.Contents (Elt Ideal)) (hxs hy)
    (F : Valuation τ sig (Elt Ideal)) :
    (nary (τ := τ) ![x, a, b] y f hxs hy).result F (Proc.devRef .tc y)
      = f (Fin.cons (F (Proc.devRef .tc x)) (Fin.cons (F (Proc.devRef .tc a)) (Fin.cons (F (Proc.devRef .tc b)) (fun i => i.elim0)))) := by
  rw [nary_result]; congr 1; funext k; fin_cases k <;> rfl

/-- The same, with the result reference left out of the simplifier's index (as the library's result lemmas are restated). -/
theorem nary3_result' {x a b y : Ref sig .tc}
    (f : ((k : Fin 3) → ((![x, a, b] : Fin 3 → Ref sig .tc) k).ty.Contents (Elt Ideal)) → y.ty.Contents (Elt Ideal)) (hxs hy)
    (F : Valuation τ sig (Elt Ideal)) :
    (nary (τ := τ) ![x, a, b] y f hxs hy).result F (no_index (Proc.devRef .tc y))
      = f (Fin.cons (F (Proc.devRef .tc x)) (Fin.cons (F (Proc.devRef .tc a)) (Fin.cons (F (Proc.devRef .tc b)) (fun i => i.elim0)))) :=
  nary3_result f hxs hy F

/-- The first stretch: the edges' source nodes, -/
theorem stretch0_src : StableHlo.after hostOps0 W (Proc.devRef .tc main_v1) = src (W (Proc.devRef .tc main_arg1)) := by
  after_results_simp <;> rfl
/-- their destination nodes, -/
theorem stretch0_dst : StableHlo.after hostOps0 W (Proc.devRef .tc main_v3) = dst (W (Proc.devRef .tc main_arg1)) := by
  after_results_simp <;> rfl
/-- and the inverse square roots of the degrees. -/
theorem stretch0_dinv : StableHlo.after hostOps0 W (Proc.devRef .tc main_v15) = dinvOf (wrapIdx (dst (W (Proc.devRef .tc main_arg1)))) := by
  after_results_simp <;> rfl

set_option maxHeartbeats 2000000 in
/-- The stretch after region 0: the first layer's aggregate, from region 0's product. -/
theorem stretch1_agg : StableHlo.after hostOps1 W (Proc.devRef .tc main_v57)
    = agg1 (W (Proc.devRef .tc main_v16)) (wrapIdx (W (Proc.devRef .tc main_v1))) (wrapIdx (W (Proc.devRef .tc main_v3)))
        (W (Proc.devRef .tc main_v15)) (W (Proc.devRef .tc main_arg4)) := by
  after_results_simp <;> rfl

/-- The clamp after it. -/
theorem stretch1_relu : StableHlo.after hostOps1_1 W (Proc.devRef .tc main_v58)
    = maximumf (F := Ideal) (W (Proc.devRef .tc main_v57)) (broadcastInDim S100000x32 ![] bcast_S_S100000x32 (constant S_ .f32 0x00000000#32)) := by
  after_results_simp <;> rfl

/-- The two together: the first layer. -/
theorem stretch1 : StableHlo.after hostOps1_1 (StableHlo.after hostOps1 W) (Proc.devRef .tc main_v58)
    = layer1 (W (Proc.devRef .tc main_v16)) (wrapIdx (W (Proc.devRef .tc main_v1))) (wrapIdx (W (Proc.devRef .tc main_v3)))
        (W (Proc.devRef .tc main_v15)) (W (Proc.devRef .tc main_arg4)) := by
  rw [stretch1_relu, stretch1_agg]
  rfl

set_option maxHeartbeats 2000000 in
/-- The stretch after region 1: the second layer's aggregate, from region 1's product. -/
theorem stretch2_agg : StableHlo.after hostOps2 W (Proc.devRef .tc main_v100)
    = agg2 (W (Proc.devRef .tc main_v59)) (wrapIdx (W (Proc.devRef .tc main_v1))) (wrapIdx (W (Proc.devRef .tc main_v3)))
        (W (Proc.devRef .tc main_v15)) (W (Proc.devRef .tc main_arg6)) := by
  after_results_simp <;> rfl

/-- The clamp after it. -/
theorem stretch2_relu : StableHlo.after hostOps2_1 W (Proc.devRef .tc main_v101)
    = maximumf (F := Ideal) (W (Proc.devRef .tc main_v100)) (broadcastInDim S100000x16 ![] bcast_S_S100000x16 (constant S_ .f32 0x00000000#32)) := by
  after_results_simp <;> rfl

/-- The two together: the second layer. -/
theorem stretch2 : StableHlo.after hostOps2_1 (StableHlo.after hostOps2 W) (Proc.devRef .tc main_v101)
    = layer2 (W (Proc.devRef .tc main_v59)) (wrapIdx (W (Proc.devRef .tc main_v1))) (wrapIdx (W (Proc.devRef .tc main_v3)))
        (W (Proc.devRef .tc main_v15)) (W (Proc.devRef .tc main_arg6)) := by
  rw [stretch2_relu, stretch2_agg]
  rfl

/-- The stretch before region 2: the edge inputs, -/
theorem stretch3_in : StableHlo.after hostOps2_2 W (Proc.devRef .tc main_v116)
    = edgeIn (W (Proc.devRef .tc main_v101)) (wrapIdx (W (Proc.devRef .tc main_v1))) (wrapIdx (W (Proc.devRef .tc main_v3)))
        (W (Proc.devRef .tc main_arg2)) := by
  simp (disch := decide) only [after_cons, after_nil,
      nullary_result', unary_result', binary_result', ternary_result', reshape_result', nary3_result',
      nullary_result_ne', unary_result_ne', binary_result_ne', ternary_result_ne', reshape_result_ne', nary_result_ne']
  rfl
/-- and the two biases as one-row matrices. -/
theorem stretch3_b3 : StableHlo.after hostOps2_2 W (Proc.devRef .tc main_v117)
    = shapeCast S1x32 (W (Proc.devRef .tc main_arg8)) shapeCasts_S32_S1x32 := by
  after_results_simp <;> rfl
theorem stretch3_b4 : StableHlo.after hostOps2_2 W (Proc.devRef .tc main_v118)
    = shapeCast S1x1 (W (Proc.devRef .tc main_arg10)) shapeCasts_S1_S1x1 := by
  after_results_simp <;> rfl

/-- The last stretch: the result is region 2's column as a vector. -/
theorem stretch4 : StableHlo.after hostOps3 W (Proc.devRef .tc main_v120)
    = shapeCast S1600000 (W (Proc.devRef .tc main_v119)) shapeCasts_S1600000x1_S1600000 := by
  after_results_simp <;> rfl

end Cert.KernelIdeal.Host

end
-- ==== Proof.RefTail.lean ====
/-
  The host's spelling of the edge MLP, entry by entry: it is `rowMLP` of the edge inputs, the weights and the two biases laid out as
  one-row matrices; and a bias broadcast into a one-row matrix is the same one-row matrix as the bias reshaped.
-/
import proofs.«106212_j60902636257700_1_alg».proof.Proof.RefChain
import proofs.«106212_j60902636257700_1_alg».proof.Proof.Spec
import Idealize.ShloMosaic.Lib.Pipeline.Value
import Idealize.ShloMosaic.Lib.ValueIdx

set_option maxRecDepth 16384

noncomputable section

namespace Cert.ReferenceIdeal.Chain

open Idealize.ShloMosaic Idealize.ShloMosaic.TcCoe Idealize.SL.Sem Idealize.ShloMosaic.ValueIdx
open Cert.ReferenceIdeal Cert.ReferenceIdeal.Facts₀ Cert.ReferenceIdeal.Facts Cert.EdgeSpec

/-- A one-row matrix broadcast down the rows reads its one row. -/
theorem bcast_rows_apply {E B : Nat} (r : (⟨2, ![1, B]⟩ : Shape).Idx → EReal)
    (h : (⟨2, ![1, B]⟩ : Shape).BroadcastsInDim ⟨2, ![E, B]⟩ ![0, 1]) (e : Fin E) (q : Fin B) :
    broadcastInDim ⟨2, ![E, B]⟩ ![0, 1] h r (ix2 e q) = r (ix2 (0 : Fin 1) q) := by
  refine broadcastInDim_apply _ h r (ix2 e q) (ix2 (0 : Fin 1) q) fun a => ?_
  match a with
  | ⟨0, _⟩ => rfl
  | ⟨1, _⟩ =>
    show q.val = if B = 1 then 0 else q.val
    split
    · have := q.isLt; omega
    · rfl

/-- The host's MLP at row `e`. -/
theorem tail_ix2 (x : FVec Ideal S1600000x40 .f32) (w3 : FVec Ideal S40x32 .f32) (b3 : FVec Ideal S32 .f32) (w4 : FVec Ideal S32x1 .f32) (b4 : FVec Ideal S1 .f32)
    (e : Fin 1600000) (z : Fin 1) :
    tail x w3 b3 w4 b4 (ix2 e z)
      = rowMLP x w3 (broadcastInDim S1x32 ![1] bcast_S32_S1x32_1 b3) w4 (broadcastInDim S1x1 ![1] bcast_S1_S1x1_1 b4) (ix2 e z) := by
  unfold tail
  rw [rowMLP_ix2]
  refine (addf_apply _ _ _).trans ?_
  refine congr (congrArg HAdd.hAdd ?_) (bcast_rows_apply _ _ _ _)
  refine (Cert.PlainDot.dotGeneral_ix2 dot_S1600000x32_S32x1_S1600000x1_1_0_0_1_n_n rfl none _ _ _ _).trans ?_
  refine Finset.sum_congr rfl fun q _ => ?_
  refine congr (congrArg HMul.hMul ?_) rfl
  refine (maximumf_apply _ _ _).trans ?_
  refine congr (congrArg max ?_) ?_
  · refine (addf_apply _ _ _).trans ?_
    refine congr (congrArg HAdd.hAdd ?_) (bcast_rows_apply _ _ _ _)
    exact Cert.PlainDot.dotGeneral_ix2 dot_S1600000x40_S40x32_S1600000x32_1_0_0_1_n_n rfl none _ _ _ _
  · exact broadcastInDim_apply _ _ _ _ ix0 (fun a => a.elim0)

/-- The host's MLP is `rowMLP`. -/
theorem tail_eq (x : FVec Ideal S1600000x40 .f32) (w3 : FVec Ideal S40x32 .f32) (b3 : FVec Ideal S32 .f32) (w4 : FVec Ideal S32x1 .f32) (b4 : FVec Ideal S1 .f32) :
    tail x w3 b3 w4 b4 = rowMLP x w3 (broadcastInDim S1x32 ![1] bcast_S32_S1x32_1 b3) w4 (broadcastInDim S1x1 ![1] bcast_S1_S1x1_1 b4) := by
  funext i
  rw [eq_ix2 i]
  exact tail_ix2 x w3 b3 w4 b4 _ _

/-- A bias vector broadcast into a one-row matrix is the vector reshaped into one. -/
theorem bias_row {B : Nat} (b : (⟨1, ![B]⟩ : Shape).Idx → EReal) (h : (⟨1, ![B]⟩ : Shape).BroadcastsInDim ⟨2, ![1, B]⟩ ![1])
    (h' : (⟨1, ![B]⟩ : Shape).ShapeCasts ⟨2, ![1, B]⟩) :
    broadcastInDim ⟨2, ![1, B]⟩ ![1] h b = shapeCast ⟨2, ![1, B]⟩ b h' := by
  funext j
  refine (broadcastInDim_apply _ h b j (ix1 (j 1)) fun a => ?_).trans ((shapeCast_addUnit_apply ![B] b h' j).trans (congrArg b ?_)).symm
  · match a with
    | ⟨0, _⟩ =>
      show (j 1).val = if B = 1 then 0 else (j 1).val
      split
      · have := (j 1).isLt; simp at this; omega
      · rfl
  · funext a
    match a with
    | ⟨0, _⟩ => rfl

end Cert.ReferenceIdeal.Chain

end
-- ==== Proof.KValue.lean ====
/-
  The kernel program's result, at the ideal instance, is the reference's stage functions composed.

  Region by region: a region's output array is the plain product (or the MLP) of its operand arrays as the region finds them
  (`final0`, `final1`, `final2`); a host stretch is a stage function of the buffers it starts from (`stretch…`); a buffer no
  later segment writes is carried along unchanged. The plain product and the MLP are the host's own `dot_general` spellings
  entry by entry, so the composition is the reference's.
-/
import proofs.«106212_j60902636257700_1_alg».proof.Proof.FrameKernelIdeal.Run
import proofs.«106212_j60902636257700_1_alg».proof.Proof.ValueRegion0
import proofs.«106212_j60902636257700_1_alg».proof.Proof.ValueRegion1
import proofs.«106212_j60902636257700_1_alg».proof.Proof.ValueRegion2
import proofs.«106212_j60902636257700_1_alg».proof.Proof.KChain
import proofs.«106212_j60902636257700_1_alg».proof.Proof.RefTail

set_option maxRecDepth 16384

noncomputable section

namespace Cert.KernelIdeal.Val

open Idealize.ShloMosaic Idealize.ShloMosaic.TcCoe Idealize.SL.Sem Idealize.ShloMosaic.ValueIdx
open Cert.KernelIdeal Cert.KernelIdeal.Gen Cert.KernelIdeal.Reg Cert.KernelIdeal.Host Cert.EdgeSpec
open Cert.ReferenceIdeal.Chain (src dst wrapIdx dinvOf layer1 layer2 edgeIn tail whole tail_eq bias_row)

variable (m : (ℓ : Loc nD τ sig) → Buf (Elt Ideal) ℓ) (ρ : Dev nD → PrngReg) (c : Dev nD)

/-! ## The stages, as functions of the launch memory -/

/-- Every edge's source and destination node as a gather or scatter takes them, and the degrees' inverse square roots. -/
def isrc := wrapIdx (src (m ((c : Thread nD τ).loc main_arg1)))
def idst := wrapIdx (dst (m ((c : Thread nD τ).loc main_arg1)))
def dinv := dinvOf (idst m c)
/-- The first layer: its linear map and its activations. -/
def H1lin := rowDot (m ((c : Thread nD τ).loc main_arg0)) (m ((c : Thread nD τ).loc main_arg3))
def H1 := layer1 (H1lin m c) (isrc m c) (idst m c) (dinv m c) (m ((c : Thread nD τ).loc main_arg4))
/-- The second layer. -/
def H2lin := rowDot (H1 m c) (m ((c : Thread nD τ).loc main_arg5))
def H2 := layer2 (H2lin m c) (isrc m c) (idst m c) (dinv m c) (m ((c : Thread nD τ).loc main_arg6))
/-- The edge inputs. -/
def EI := edgeIn (H2 m c) (isrc m c) (idst m c) (m ((c : Thread nD τ).loc main_arg2))

/-! ## Buffers carried along -/

/-- A buffer the first stretch leaves and nothing up to region 1's entry writes, -/
theorem at4 (b : Ref sig .tc) (h1 : b ≠ main_v16) (h2 : b ∉ hostOps1_W) (h3 : b ∉ hostOps1_1_W) : W4 m ρ c b = W1 m ρ c b :=
  (W4_of m ρ c b h3).trans <| (W3_of m ρ c b h2).trans (W2_keep m ρ c b h1)
/-- up to region 1's exit, -/
theorem at5 (b : Ref sig .tc) (h1 : b ≠ main_v16) (h2 : b ∉ hostOps1_W) (h3 : b ∉ hostOps1_1_W) (h4 : b ≠ main_v59) :
    W5 m ρ c b = W1 m ρ c b :=
  (W5_keep m ρ c b h4).trans (at4 m ρ c b h1 h2 h3)
/-- up to the stretch before region 2, -/
theorem at7 (b : Ref sig .tc) (h1 : b ≠ main_v16) (h2 : b ∉ hostOps1_W) (h3 : b ∉ hostOps1_1_W) (h4 : b ≠ main_v59)
    (h5 : b ∉ hostOps2_W) (h6 : b ∉ hostOps2_1_W) : W7 m ρ c b = W1 m ρ c b :=
  (W7_of m ρ c b h6).trans <| (W6_of m ρ c b h5).trans (at5 m ρ c b h1 h2 h3 h4)
/-- and up to region 2's entry. -/
theorem at8 (b : Ref sig .tc) (h1 : b ≠ main_v16) (h2 : b ∉ hostOps1_W) (h3 : b ∉ hostOps1_1_W) (h4 : b ≠ main_v59)
    (h5 : b ∉ hostOps2_W) (h6 : b ∉ hostOps2_1_W) (h7 : b ∉ hostOps2_2_W) : W8 m ρ c b = W1 m ρ c b :=
  (W8_of m ρ c b h7).trans (at7 m ρ c b h1 h2 h3 h4 h5 h6)

/-- An argument array after the first stretch is as launched. -/
theorem arg_at1 (b : Ref sig .tc) (h0 : b ∉ hostOps0_W) : W1 m ρ c b = m ((c : Thread nD τ).loc b) :=
  (W1_of m ρ c b h0).trans rfl

theorem isrc_at1 : wrapIdx (W1 m ρ c main_v1) = isrc m c := congrArg wrapIdx (stretch0_src (W0 m ρ c))
theorem idst_at1 : wrapIdx (W1 m ρ c main_v3) = idst m c := congrArg wrapIdx (stretch0_dst (W0 m ρ c))
theorem dinv_at1 : W1 m ρ c main_v15 = dinv m c := stretch0_dinv (W0 m ρ c)

/-! ## The regions' outputs and the stretches between -/

/-- Region 0 leaves the node features times the first weights. -/
theorem h1lin_eq : W2 m ρ c main_v16 = H1lin m c := by
  refine (W2_arr m ρ c 2).trans ((final0 (V1 m ρ) c).trans ?_)
  show rowDot (W1 m ρ c main_arg0) (W1 m ρ c main_arg3) = _
  rw [arg_at1 m ρ c main_arg0 (by decide), arg_at1 m ρ c main_arg3 (by decide)]
  rfl

/-- The first layer's activations, as region 1 finds them. -/
theorem h1_eq : W4 m ρ c main_v58 = H1 m c := by
  refine (stretch1 (W2 m ρ c)).trans ?_
  rw [h1lin_eq, W2_keep m ρ c main_v1 (by decide), W2_keep m ρ c main_v3 (by decide), W2_keep m ρ c main_v15 (by decide),
    W2_keep m ρ c main_arg4 (by decide), isrc_at1, idst_at1, dinv_at1, arg_at1 m ρ c main_arg4 (by decide)]
  rfl

/-- Region 1 leaves the first layer's activations times the second weights. -/
theorem h2lin_eq : W5 m ρ c main_v59 = H2lin m c := by
  refine (W5_arr m ρ c 2).trans ((final1 (V4 m ρ) c).trans ?_)
  show rowDot (W4 m ρ c main_v58) (W4 m ρ c main_arg5) = _
  rw [h1_eq, at4 m ρ c main_arg5 (by decide) (by decide) (by decide), arg_at1 m ρ c main_arg5 (by decide)]
  rfl

/-- The second layer's activations, before the edge inputs are gathered. -/
theorem h2_eq : W7 m ρ c main_v101 = H2 m c := by
  refine (stretch2 (W5 m ρ c)).trans ?_
  rw [h2lin_eq, at5 m ρ c main_v1 (by decide) (by decide) (by decide) (by decide), at5 m ρ c main_v3 (by decide) (by decide) (by decide) (by decide),
    at5 m ρ c main_v15 (by decide) (by decide) (by decide) (by decide), at5 m ρ c main_arg6 (by decide) (by decide) (by decide) (by decide),
    isrc_at1, idst_at1, dinv_at1, arg_at1 m ρ c main_arg6 (by decide)]
  rfl

/-- The edge inputs, as region 2 finds them. -/
theorem ei_eq : W8 m ρ c main_v116 = EI m c := by
  refine (stretch3_in (W7 m ρ c)).trans ?_
  rw [h2_eq, at7 m ρ c main_v1 (by decide) (by decide) (by decide) (by decide) (by decide) (by decide),
    at7 m ρ c main_v3 (by decide) (by decide) (by decide) (by decide) (by decide) (by decide),
    at7 m ρ c main_arg2 (by decide) (by decide) (by decide) (by decide) (by decide) (by decide),
    isrc_at1, idst_at1, arg_at1 m ρ c main_arg2 (by decide)]
  rfl

/-- The two biases as one-row matrices, as region 2 finds them. -/
theorem b3_eq : W8 m ρ c main_v117 = shapeCast S1x32 (m ((c : Thread nD τ).loc main_arg8)) shapeCasts_S32_S1x32 := by
  refine (stretch3_b3 (W7 m ρ c)).trans ?_
  rw [at7 m ρ c main_arg8 (by decide) (by decide) (by decide) (by decide) (by decide) (by decide), arg_at1 m ρ c main_arg8 (by decide)]
theorem b4_eq : W8 m ρ c main_v118 = shapeCast S1x1 (m ((c : Thread nD τ).loc main_arg10)) shapeCasts_S1_S1x1 := by
  refine (stretch3_b4 (W7 m ρ c)).trans ?_
  rw [at7 m ρ c main_arg10 (by decide) (by decide) (by decide) (by decide) (by decide) (by decide), arg_at1 m ρ c main_arg10 (by decide)]

/-- Region 2 leaves the MLP of the edge inputs. -/
theorem out_eq : W9 m ρ c main_v119 = rowMLP (EI m c) (m ((c : Thread nD τ).loc main_arg7))
    (shapeCast S1x32 (m ((c : Thread nD τ).loc main_arg8)) shapeCasts_S32_S1x32) (m ((c : Thread nD τ).loc main_arg9))
    (shapeCast S1x1 (m ((c : Thread nD τ).loc main_arg10)) shapeCasts_S1_S1x1) := by
  refine (W9_arr m ρ c 5).trans ((final2 (V8 m ρ) c).trans ?_)
  show rowMLP (W8 m ρ c main_v116) (W8 m ρ c main_arg7) (W8 m ρ c main_v117) (W8 m ρ c main_arg9) (W8 m ρ c main_v118) = _
  rw [ei_eq, b3_eq, b4_eq,
    at8 m ρ c main_arg7 (by decide) (by decide) (by decide) (by decide) (by decide) (by decide) (by decide), arg_at1 m ρ c main_arg7 (by decide),
    at8 m ρ c main_arg9 (by decide) (by decide) (by decide) (by decide) (by decide) (by decide) (by decide), arg_at1 m ρ c main_arg9 (by decide)]

/-! ## The result -/

/-- The reference's composed stages, with each `dot_general` read as the plain product and the MLP entry by entry. -/
theorem whole_eq : whole (m ((c : Thread nD τ).loc main_arg0)) (m ((c : Thread nD τ).loc main_arg1)) (m ((c : Thread nD τ).loc main_arg2))
      (m ((c : Thread nD τ).loc main_arg3)) (m ((c : Thread nD τ).loc main_arg4)) (m ((c : Thread nD τ).loc main_arg5)) (m ((c : Thread nD τ).loc main_arg6))
      (m ((c : Thread nD τ).loc main_arg7)) (m ((c : Thread nD τ).loc main_arg8)) (m ((c : Thread nD τ).loc main_arg9)) (m ((c : Thread nD τ).loc main_arg10))
    = shapeCast S1600000 (rowMLP (EI m c) (m ((c : Thread nD τ).loc main_arg7))
        (shapeCast S1x32 (m ((c : Thread nD τ).loc main_arg8)) shapeCasts_S32_S1x32) (m ((c : Thread nD τ).loc main_arg9))
        (shapeCast S1x1 (m ((c : Thread nD τ).loc main_arg10)) shapeCasts_S1_S1x1)) shapeCasts_S1600000x1_S1600000 := by
  unfold whole
  rw [tail_eq, bias_row _ _ shapeCasts_S32_S1x32, bias_row _ _ shapeCasts_S1_S1x1,
    dotGeneral_eq_rowDot Cert.ReferenceIdeal.dot_S100000x32_S32x16_S100000x16_1_0_0_1_n_n rfl,
    dotGeneral_eq_rowDot Cert.ReferenceIdeal.dot_S100000x6_S6x32_S100000x32_1_0_0_1_n_n rfl]
  rfl

/-- THE RESULT of the kernel program at the ideal instance: the reference's composed stages of the launch memory. -/
theorem result_eq : W10 m ρ c main_v120
    = whole (m ((c : Thread nD τ).loc main_arg0)) (m ((c : Thread nD τ).loc main_arg1)) (m ((c : Thread nD τ).loc main_arg2))
      (m ((c : Thread nD τ).loc main_arg3)) (m ((c : Thread nD τ).loc main_arg4)) (m ((c : Thread nD τ).loc main_arg5)) (m ((c : Thread nD τ).loc main_arg6))
      (m ((c : Thread nD τ).loc main_arg7)) (m ((c : Thread nD τ).loc main_arg8)) (m ((c : Thread nD τ).loc main_arg9)) (m ((c : Thread nD τ).loc main_arg10)) := by
  refine (stretch4 (W9 m ρ c)).trans ?_
  rw [out_eq, whole_eq]

end Cert.KernelIdeal.Val

end
-- ==== Proof.lean ====
/-
  The certificate of the edge-weight predictor: two graph-convolution layers on the host around two row-blocked matrix products,
  then an edge MLP on row blocks of the gathered edge inputs, against the same arithmetic written with whole-array products.

  FRAMES. The kernel program is ten segments: host stretches and three kernel regions. Each region's body reads its input blocks
  whole and stores one payload over its output block; the regions are chained with the host stretches into one run that ends with
  every unscoped buffer at a fold of the launch memory (`Reg.run_all`), in which no segment writes an argument (`Reg.frame`). The
  same text proves the word-level program and the idealized one. The reference is a straight line of host operations.

  VALUE. At the ideal instance a region's output array is the plain product of its operand arrays (regions 0 and 1) or the MLP of
  them (region 2), because a row of either depends on the same row of the left operand only and the row blocks tile the array; the
  host stretches between the regions are the reference's own stage functions; and the host's `dot_general` is the plain product,
  entry by entry. So both programs end at the same composition of stages of the arguments (`Val.result_eq`, `Chain.res_eq`).
  No finiteness is used: sums and products on the extended reals are only re-read, never re-arranged.
-/
import proofs.«106212_j60902636257700_1_alg».proof.Defs
import proofs.«106212_j60902636257700_1_alg».proof.Proof.Gen.Kernel
import proofs.«106212_j60902636257700_1_alg».proof.Proof.Gen.KernelIdeal
import proofs.«106212_j60902636257700_1_alg».proof.Proof.Gen.ReferenceIdeal
import proofs.«106212_j60902636257700_1_alg».proof.Proof.Gen.Pre_finite_inputs
import proofs.«106212_j60902636257700_1_alg».proof.Proof.Gen.ReferenceIdeal.Run
import proofs.«106212_j60902636257700_1_alg».proof.Proof.FrameKernel.Run
import proofs.«106212_j60902636257700_1_alg».proof.Proof.FrameKernelIdeal.Run
import proofs.«106212_j60902636257700_1_alg».proof.Proof.KValue
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Reg.frame m ρ
theorem frame_ki : Cert.frame_KernelIdeal := fun m ρ _ => Cert.KernelIdeal.Reg.frame m ρ
theorem frame_ri : Cert.frame_ReferenceIdeal := fun m ρ _ =>
  (θ_run Cert.ReferenceIdeal.defs _ _).mono (fun _ h c => (h c).2) (Cert.ReferenceIdeal.Value.run (F := Ideal) m ρ)

/-- The ideal pass rewrote nothing: the idealized kernel is the kernel's own text read at the ideal instance. -/
theorem preserves : Cert.preserves_Kernel_KernelIdeal := trivial

/-- From memories agreeing on the arguments both programs end with the result at the same composition of stages. -/
theorem algebraic : Cert.algebraic_KernelIdeal_ReferenceIdeal := by
  intro m ρ m' ρ' _ hagree
  refine ⟨fun c => Cert.KernelIdeal.Reg.W10 m ρ c Cert.KernelIdeal.main_v120, Cert.KernelIdeal.Reg.run_result m ρ, ?_⟩
  refine (θ_run Cert.ReferenceIdeal.defs _ _).mono (fun _ h c => ⟨(h c).1.trans ?_, (h c).2⟩)
    (Cert.ReferenceIdeal.Value.run (F := Ideal) m' ρ')
  obtain ⟨e0, e1, e2, e3, e4, e5, e6, e7, e8, e9, e10⟩ := hagree c
  rw [Cert.ReferenceIdeal.Chain.res_eq, e0, e1, e2, e3, e4, e5, e6, e7, e8, e9, e10]
  exact (Cert.KernelIdeal.Val.result_eq m ρ c).symm

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
